-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg2 : IVec S500000 32) (main_arg3 : IVec S500000 32) (main_v98 : IVec S_ 1) (main_v100 : IVec S500000 1) (main_v101 : IVec S500000 32) : IVec S_ 1 :=
  let main_v102 : IVec S500000 1 := cmpi .slt main_arg2 main_v101
  let main_v103 : IVec S500000 1 := andi main_v100 main_v102
  let main_c_40 : IVec S_ 1 := constantI S_ 1 1#1
  let main_v104 : IVec S_ 1 := (fun x v => Host.reduce IntOp.andi x v reducesTo_S500000_S_d0 h_S_) main_v103 main_c_40
  let main_v105 : IVec S_ 1 := andi main_v98 main_v104
  let main_c_41 : IVec S_ 32 := constantI S_ 32 0#32
  let main_v106 : IVec S500000 32 := broadcastInDim S500000 ![] bcast_S_S500000 main_c_41
  let main_v107 : IVec S500000 1 := cmpi .sge main_arg3 main_v106
  let main_c_42 : IVec S_ 32 := constantI S_ 32 50000#32
  let main_v108 : IVec S500000 32 := broadcastInDim S500000 ![] bcast_S_S500000 main_c_42
  let main_v109 : IVec S500000 1 := cmpi .slt main_arg3 main_v108
  let main_v110 : IVec S500000 1 := andi main_v107 main_v109
  let main_c_43 : IVec S_ 1 := constantI S_ 1 1#1
  let main_v111 : IVec S_ 1 := (fun x v => Host.reduce IntOp.andi x v reducesTo_S500000_S_d0 h_S_) main_v110 main_c_43
  let main_v112 : IVec S_ 1 := andi main_v105 main_v111
  main_v112

def fn_part5 {F : FTy → Type} [FloatOps F] (main_arg2 : IVec S500000 32) (main_arg3 : IVec S500000 32) (main_arg21 : FVec F S384 .f32) (main_arg22 : FVec F S384 .f32) (main_v83 : IVec S_ 1) (main_v84 : FVec F S128x384 .f32) (main_cst_32 : FVec F S_ .f32) : IVec S_ 1 :=
  let main_v85 : FVec F S128x384 .f32 := broadcastInDim S128x384 ![] bcast_S_S128x384 main_cst_32
  let main_v86 : IVec S128x384 1 := cmpf .olt main_v84 main_v85
  let main_c_33 : IVec S_ 1 := constantI S_ 1 1#1
  let main_v87 : IVec S_ 1 := (fun x v => Host.reduce IntOp.andi x v reducesTo_S128x384_S_d0_1 h_S_) main_v86 main_c_33
  let main_v88 : IVec S_ 1 := andi main_v83 main_v87
  let main_v89 : FVec F S384 .f32 := Host.absf main_arg21
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg22
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_c_38 : IVec S_ 32 := constantI S_ 32 0#32
  let main_v99 : IVec S500000 32 := broadcastInDim S500000 ![] bcast_S_S500000 main_c_38
  let main_v100 : IVec S500000 1 := cmpi .sge main_arg2 main_v99
  let main_c_39 : IVec S_ 32 := constantI S_ 32 50000#32
  let main_v101 : IVec S500000 32 := broadcastInDim S500000 ![] bcast_S_S500000 main_c_39
  fn_part6 (F := F) main_arg2 main_arg3 main_v98 main_v100 main_v101

def fn_part4 {F : FTy → Type} [FloatOps F] (main_arg2 : IVec S500000 32) (main_arg3 : IVec S500000 32) (main_arg17 : FVec F S384 .f32) (main_arg18 : FVec F S384 .f32) (main_arg19 : FVec F S128x384 .f32) (main_arg20 : FVec F S128x384 .f32) (main_arg21 : FVec F S384 .f32) (main_arg22 : FVec F S384 .f32) (main_v63 : IVec S_ 1) (main_v67 : IVec S_ 1) : IVec S_ 1 :=
  let main_v68 : IVec S_ 1 := andi main_v63 main_v67
  let main_v69 : FVec F S384 .f32 := Host.absf main_arg17
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S384 .f32 := Host.absf main_arg18
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S128x384 .f32 := Host.absf main_arg19
  let main_cst_30 : FVec F S_ .f32 := constant S_ .f32 0x7F800000#32
  let main_v80 : FVec F S128x384 .f32 := broadcastInDim S128x384 ![] bcast_S_S128x384 main_cst_30
  let main_v81 : IVec S128x384 1 := cmpf .olt main_v79 main_v80
  let main_c_31 : IVec S_ 1 := constantI S_ 1 1#1
  let main_v82 : IVec S_ 1 := (fun x v => Host.reduce IntOp.andi x v reducesTo_S128x384_S_d0_1 h_S_) main_v81 main_c_31
  let main_v83 : IVec S_ 1 := andi main_v78 main_v82
  let main_v84 : FVec F S128x384 .f32 := Host.absf main_arg20
  let main_cst_32 : FVec F S_ .f32 := constant S_ .f32 0x7F800000#32
  fn_part5 (F := F) main_arg2 main_arg3 main_arg21 main_arg22 main_v83 main_v84 main_cst_32

def fn_part3 {F : FTy → Type} [FloatOps F] (main_arg2 : IVec S500000 32) (main_arg3 : IVec S500000 32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg14
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S128x384 .f32 := Host.absf main_arg15
  let main_cst_22 : FVec F S_ .f32 := constant S_ .f32 0x7F800000#32
  let main_v60 : FVec F S128x384 .f32 := broadcastInDim S128x384 ![] bcast_S_S128x384 main_cst_22
  let main_v61 : IVec S128x384 1 := cmpf .olt main_v59 main_v60
  let main_c_23 : IVec S_ 1 := constantI S_ 1 1#1
  let main_v62 : IVec S_ 1 := (fun x v => Host.reduce IntOp.andi x v reducesTo_S128x384_S_d0_1 h_S_) main_v61 main_c_23
  let main_v63 : IVec S_ 1 := andi main_v58 main_v62
  let main_v64 : FVec F S128x384 .f32 := Host.absf main_arg16
  let main_cst_24 : FVec F S_ .f32 := constant S_ .f32 0x7F800000#32
  let main_v65 : FVec F S128x384 .f32 := broadcastInDim S128x384 ![] bcast_S_S128x384 main_cst_24
  let main_v66 : IVec S128x384 1 := cmpf .olt main_v64 main_v65
  let main_c_25 : IVec S_ 1 := constantI S_ 1 1#1
  let main_v67 : IVec S_ 1 := (fun x v => Host.reduce IntOp.andi x v reducesTo_S128x384_S_d0_1 h_S_) main_v66 main_c_25
  fn_part4 (F := F) main_arg2 main_arg3 main_arg17 main_arg18 main_arg19 main_arg20 main_arg21 main_arg22 main_v63 main_v67

def fn_part2 {F : FTy → Type} [FloatOps F] (main_arg2 : IVec S500000 32) (main_arg3 : IVec S500000 32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x384 .f32 := Host.absf main_arg11
  let main_cst_14 : FVec F S_ .f32 := constant S_ .f32 0x7F800000#32
  let main_v40 : FVec F S128x384 .f32 := broadcastInDim S128x384 ![] bcast_S_S128x384 main_cst_14
  let main_v41 : IVec S128x384 1 := cmpf .olt main_v39 main_v40
  let main_c_15 : IVec S_ 1 := constantI S_ 1 1#1
  let main_v42 : IVec S_ 1 := (fun x v => Host.reduce IntOp.andi x v reducesTo_S128x384_S_d0_1 h_S_) main_v41 main_c_15
  let main_v43 : IVec S_ 1 := andi main_v38 main_v42
  let main_v44 : FVec F S128x384 .f32 := Host.absf main_arg12
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S384 .f32 := Host.absf main_arg13
  let main_cst_18 : FVec F S_ .f32 := constant S_ .f32 0x7F800000#32
  let main_v50 : FVec F S384 .f32 := broadcastInDim S384 ![] bcast_S_S384 main_cst_18
  fn_part3 (F := F) main_arg2 main_arg3 main_arg14 main_arg15 main_arg16 main_arg17 main_arg18 main_arg19 main_arg20 main_arg21 main_arg22 main_v48 main_v49 main_v50

def fn_part1 {F : FTy → Type} [FloatOps F] (main_arg2 : IVec S500000 32) (main_arg3 : IVec S500000 32) (main_arg7 : FVec F S128x128 .f32) (main_arg8 : FVec F S128 .f32) (main_arg9 : FVec F S128x128 .f32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S500000x128 .f32) (main_arg2 : IVec S500000 32) (main_arg3 : IVec S500000 32) (main_arg4 : IVec S50000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x384 .f32) (main_arg12 : FVec F S128x384 .f32) (main_arg13 : FVec F S384 .f32) (main_arg14 : FVec F S384 .f32) (main_arg15 : FVec F S128x384 .f32) (main_arg16 : FVec F S128x384 .f32) (main_arg17 : FVec F S384 .f32) (main_arg18 : FVec F S384 .f32) (main_arg19 : FVec F S128x384 .f32) (main_arg20 : FVec F S128x384 .f32) (main_arg21 : FVec F S384 .f32) (main_arg22 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg5
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩
abbrev S1x128 : Shape := ⟨2, ![1, 128]⟩
abbrev S50001x128 : Shape := ⟨2, ![50001, 128]⟩
abbrev S503808 : Shape := ⟨1, ![503808]⟩
abbrev S503808x128 : Shape := ⟨2, ![503808, 128]⟩
abbrev S503808x1 : Shape := ⟨2, ![503808, 1]⟩
abbrev S4096x128 : Shape := ⟨2, ![4096, 128]⟩
abbrev S1007616x128 : Shape := ⟨2, ![1007616, 128]⟩
abbrev S1007616 : Shape := ⟨1, ![1007616]⟩
abbrev S1007616x1 : Shape := ⟨2, ![1007616, 1]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 64
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S50000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S128x384, .f32⟩
  | .hbm, ⟨13, _⟩ => ⟨S384, .f32⟩
  | .hbm, ⟨14, _⟩ => ⟨S384, .f32⟩
  | .hbm, ⟨15, _⟩ => ⟨S128x384, .f32⟩
  | .hbm, ⟨16, _⟩ => ⟨S128x384, .f32⟩
  | .hbm, ⟨17, _⟩ => ⟨S384, .f32⟩
  | .hbm, ⟨18, _⟩ => ⟨S384, .f32⟩
  | .hbm, ⟨19, _⟩ => ⟨S128x384, .f32⟩
  | .hbm, ⟨20, _⟩ => ⟨S128x384, .f32⟩
  | .hbm, ⟨21, _⟩ => ⟨S384, .f32⟩
  | .hbm, ⟨22, _⟩ => ⟨S384, .f32⟩
  | .hbm, ⟨23, _⟩ => ⟨S_, .f32⟩
  | .hbm, ⟨24, _⟩ => ⟨S1x128, .f32⟩
  | .hbm, ⟨25, _⟩ => ⟨S50001x128, .f32⟩
  | .hbm, ⟨26, _⟩ => ⟨S_, .i32⟩
  | .hbm, ⟨27, _⟩ => ⟨S_, .i32⟩
  | .hbm, ⟨28, _⟩ => ⟨S503808, .i32⟩
  | .hbm, ⟨29, _⟩ => ⟨S_, .i32⟩
  | .hbm, ⟨30, _⟩ => ⟨S_, .i32⟩
  | .hbm, ⟨31, _⟩ => ⟨S503808, .i32⟩
  | .hbm, ⟨32, _⟩ => ⟨S_, .i32⟩
  | .hbm, ⟨33, _⟩ => ⟨S_, .f32⟩
  | .hbm, ⟨34, _⟩ => ⟨S503808x128, .f32⟩
  | .hbm, ⟨35, _⟩ => ⟨S50001x128, .bf16⟩
  | .hbm, ⟨36, _⟩ => ⟨S_, .i32⟩
  | .hbm, ⟨37, _⟩ => ⟨S503808, .i32⟩
  | .hbm, ⟨38, _⟩ => ⟨S503808, .i1⟩
  | .hbm, ⟨39, _⟩ => ⟨S_, .i32⟩
  | .hbm, ⟨40, _⟩ => ⟨S503808, .i32⟩
  | .hbm, ⟨41, _⟩ => ⟨S503808, .i32⟩
  | .hbm, ⟨42, _⟩ => ⟨S503808, .i32⟩
  | .hbm, ⟨43, _⟩ => ⟨S503808x1, .i32⟩
  | .hbm, ⟨44, _⟩ => ⟨S503808x128, .bf16⟩
  | .hbm, ⟨45, _⟩ => ⟨S_, .i32⟩
  | .hbm, ⟨46, _⟩ => ⟨S503808, .i32⟩
  | .hbm, ⟨47, _⟩ => ⟨S503808, .i1⟩
  | .hbm, ⟨48, _⟩ => ⟨S_, .i32⟩
  | .hbm, ⟨49, _⟩ => ⟨S503808, .i32⟩
  | .hbm, ⟨50, _⟩ => ⟨S503808, .i32⟩
  | .hbm, ⟨51, _⟩ => ⟨S503808, .i32⟩
  | .hbm, ⟨52, _⟩ => ⟨S503808x1, .i32⟩
  | .hbm, ⟨53, _⟩ => ⟨S503808x128, .bf16⟩
  | .hbm, ⟨54, _⟩ => ⟨S503808x128, .f32⟩
  | .hbm, ⟨55, _⟩ => ⟨S503808x128, .f32⟩
  | .hbm, ⟨56, _⟩ => ⟨S1007616x128, .f32⟩
  | .hbm, ⟨57, _⟩ => ⟨S1007616, .i32⟩
  | .hbm, ⟨58, _⟩ => ⟨S_, .f32⟩
  | .hbm, ⟨59, _⟩ => ⟨S50001x128, .f32⟩
  | .hbm, ⟨60, _⟩ => ⟨S1007616x1, .i32⟩
  | .hbm, ⟨61, _⟩ => ⟨S50001x128, .f32⟩
  | .hbm, ⟨62, _⟩ => ⟨S50000x128, .f32⟩
  | .hbm, ⟨63, _⟩ => ⟨S50000x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x384, .f32⟩
  | .local _ .vmem, ⟨21, _⟩ => ⟨S128x384, .f32⟩
  | .local _ .vmem, ⟨22, _⟩ => ⟨S384, .f32⟩
  | .local _ .vmem, ⟨23, _⟩ => ⟨S384, .f32⟩
  | .local _ .vmem, ⟨24, _⟩ => ⟨S128x384, .f32⟩
  | .local _ .vmem, ⟨25, _⟩ => ⟨S128x384, .f32⟩
  | .local _ .vmem, ⟨26, _⟩ => ⟨S384, .f32⟩
  | .local _ .vmem, ⟨27, _⟩ => ⟨S384, .f32⟩
  | .local _ .vmem, ⟨28, _⟩ => ⟨S128x384, .f32⟩
  | .local _ .vmem, ⟨29, _⟩ => ⟨S128x384, .f32⟩
  | .local _ .vmem, ⟨30, _⟩ => ⟨S384, .f32⟩
  | .local _ .vmem, ⟨31, _⟩ => ⟨S384, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_call0_v0 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_v3 : Ref sig .tc := ⟨.hbm, 31, rfl⟩
abbrev main_c_1 : Ref sig .tc := ⟨.hbm, 32, rfl⟩
abbrev main_call2_v0 : Ref sig .tc := ⟨.hbm, 33, rfl⟩
abbrev main_v4 : Ref sig .tc := ⟨.hbm, 34, rfl⟩
abbrev main_v5 : Ref sig .tc := ⟨.hbm, 35, rfl⟩
abbrev main_c_2 : Ref sig .tc := ⟨.hbm, 36, rfl⟩
abbrev main_v6 : Ref sig .tc := ⟨.hbm, 37, rfl⟩
abbrev main_v7 : Ref sig .tc := ⟨.hbm, 38, rfl⟩
abbrev main_c_3 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_4 : Ref sig .tc := ⟨.hbm, 45, rfl⟩
abbrev main_v13 : Ref sig .tc := ⟨.hbm, 46, rfl⟩
abbrev main_v14 : Ref sig .tc := ⟨.hbm, 47, rfl⟩
abbrev main_c_5 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20_0 : Ref sig .tc := ⟨.hbm, 54, rfl⟩
abbrev main_v20_1 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg14_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem14_1 : DmaSem sig := 33

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S384 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S384 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bcast_S_S1x128 : S_.BroadcastsInDim S1x128 (![] : Fin 0 → Fin S1x128.rank)
  concatenates_S50000x128_S1x128_S50001x128_d0 : Shape.Concatenates [S50000x128, S1x128] S50001x128 0
  pads_S500000_S503808_038080 : S500000.Pads (![0] : Fin 1 → Nat) ![3808] ![0] S503808
  h_S_ : 0 < S_.numel
  pads_S500000x128_S503808x128_038080_000 : S500000x128.Pads (![0, 0] : Fin 2 → Nat) ![3808, 0] ![0, 0] S503808x128
  bitsLt_bf16_f32 : FTy.bits .bf16 < FTy.bits .f32
  bcast_S_S503808 : S_.BroadcastsInDim S503808 (![] : Fin 0 → Fin S503808.rank)
  bcast_S503808_S503808x1_0 : S503808.BroadcastsInDim S503808x1 (![0] : Fin 1 → Fin S503808x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S384x128_S128x128_0_0 : ∀ a, (![0, 0] : Fin 2 → Nat) a + S128x128.size a ≤ S384x128.size a
  h_S128x128 : 0 < S128x128.numel
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  shapeCasts_S128_S1x128 : S128.ShapeCasts S1x128
  broadcasts_S1x128_S4096x128 : S1x128.Broadcasts S4096x128
  concatenates_S503808x128_S503808x128_S1007616x128_d0 : Shape.Concatenates [S503808x128, S503808x128] S1007616x128 0
  concatenates_S503808_S503808_S1007616_d0 : Shape.Concatenates [S503808, S503808] S1007616 0
  bcast_S_S50001x128 : S_.BroadcastsInDim S50001x128 (![] : Fin 0 → Fin S50001x128.rank)
  bcast_S1007616_S1007616x1_0 : S1007616.BroadcastsInDim S1007616x1 (![0] : Fin 1 → Fin S1007616x1.rank)
  slices_S50001x128_S50000x128_0_0 : S50001x128.Slices ![0, 0] S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S50001x128_S503808x1_S503808x128_1_0_n_n_0_1_1128_wf : GatherDims.WF S50001x128 S503808x1 S503808x128 [1] [0] [] [0] [] 1 ![1, 128]
  dot_S4096x128_S128x128_S4096x128_1_0_0_1_n_n_wf : DotDims.WF S4096x128 S128x128 S4096x128 [1] [0] [0] [1] [] []
  scatter_S50001x128_S1007616x1_S1007616x128_1_0_0_1_wf : ScatterDims.WF S50001x128 S1007616x1 S1007616x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .bf16 = 32 ∨ (Rect.block (s := S503808x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .bf16 = 32 ∨ (Rect.block (s := S503808x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .f32 = 32 ∨ (Rect.block (s := S503808x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S503808x128.size a
  hwx0_9 : ∀ i : grid0.Coords, EltTy.bits .f32 = 32 ∨ (Rect.block (s := S503808x128) S4096x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S503808x128.size a
  hwx0_10 : ∀ i : grid0.Coords, EltTy.bits .f32 = 32 ∨ (Rect.block (s := S503808x128) S4096x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x384.size a ≤ S128x384.size a
  hwx1_6 : ∀ i : grid1.Coords, EltTy.bits .f32 = 32 ∨ (Rect.block (s := S128x384) S128x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x384.size a ≤ S128x384.size a
  hwx1_7 : ∀ i : grid1.Coords, EltTy.bits .f32 = 32 ∨ (Rect.block (s := S128x384) S128x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S384.size a ≤ S384.size a
  hwx1_8 : ∀ i : grid1.Coords, EltTy.bits .f32 = 32 ∨ (Rect.block (s := S384) S384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S384.size a ≤ S384.size a
  hwx1_9 : ∀ i : grid1.Coords, EltTy.bits .f32 = 32 ∨ (Rect.block (s := S384) S384.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x384.size a ≤ S128x384.size a
  hwx1_10 : ∀ i : grid1.Coords, EltTy.bits .f32 = 32 ∨ (Rect.block (s := S128x384) S128x384.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x384.size a ≤ S128x384.size a
  hwx1_11 : ∀ i : grid1.Coords, EltTy.bits .f32 = 32 ∨ (Rect.block (s := S128x384) S128x384.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S384.size a ≤ S384.size a
  hwx1_12 : ∀ i : grid1.Coords, EltTy.bits .f32 = 32 ∨ (Rect.block (s := S384) S384.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S384.size a ≤ S384.size a
  hwx1_13 : ∀ i : grid1.Coords, EltTy.bits .f32 = 32 ∨ (Rect.block (s := S384) S384.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x128.size a ≤ S50000x128.size a
  hwx1_14 : ∀ i : grid1.Coords, EltTy.bits .f32 = 32 ∨ (Rect.block (s := S50000x128) S2000x128.size (cc1_transform_14 i) (hinb1_14 i)).WholeWords (EltTy.packing .f32)

variable [Facts₀]

def gather_S50001x128_S503808x1_S503808x128_1_0_n_n_0_1_1128 : GatherDims S50001x128 S503808x1 S503808x128 where
  offsetDims := [1]
  collapsedSliceDims := [0]
  operandBatchingDims := []
  startIndicesBatchingDims := []
  startIndexMap := [0]
  indexVectorDim := 1
  sliceSizes := ![1, 128]
  wf := gather_S50001x128_S503808x1_S503808x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50001x128_S1007616x1_S1007616x128_1_0_0_1 : ScatterDims S50001x128 S1007616x1 S1007616x128 where
  updateWindowDims := [1]
  insertedWindowDims := [0]
  scatterDimsToOperandDims := [0]
  indexVectorDim := 1
  wf := scatter_S50001x128_S1007616x1_S1007616x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v12) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_0) S4096x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_1) S4096x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg19) S128x384.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg20) S128x384.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg21) S384.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg22) S384.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v27) S2000x128.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000 : Shape := ⟨1, ![500000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x384 : Shape := ⟨2, ![128, 384]⟩
abbrev S384 : Shape := ⟨1, ![384]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S50000x384 : Shape := ⟨2, ![50000, 384]⟩
abbrev S1x384 : Shape := ⟨2, ![1, 384]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S500000x128, .f32⟩
  | 2 => ⟨S500000, .i32⟩
  | 3 => ⟨S500000, .i32⟩
  | 4 => ⟨S50000, .i32⟩
  | 5 => ⟨S384x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x384, .f32⟩
  | 12 => ⟨S128x384, .f32⟩
  | 13 => ⟨S384, .f32⟩
  | 14 => ⟨S384, .f32⟩
  | 15 => ⟨S128x384, .f32⟩
  | 16 => ⟨S128x384, .f32⟩
  | 17 => ⟨S384, .f32⟩
  | 18 => ⟨S384, .f32⟩
  | 19 => ⟨S128x384, .f32⟩
  | 20 => ⟨S128x384, .f32⟩
  | 21 => ⟨S384, .f32⟩
  | 22 => ⟨S384, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S500000x384, .f32⟩
  | 42 => ⟨S500000x128, .f32⟩
  | 43 => ⟨S1x128, .f32⟩
  | 44 => ⟨S500000x128, .f32⟩
  | 45 => ⟨S500000x128, .f32⟩
  | 46 => ⟨S_, .f32⟩
  | 47 => ⟨S500000x128, .f32⟩
  | 48 => ⟨S500000x128, .f32⟩
  | 49 => ⟨S500000x128, .f32⟩
  | 50 => ⟨S1x128, .f32⟩
  | 51 => ⟨S500000x128, .f32⟩
  | 52 => ⟨S500000x128, .f32⟩
  | 53 => ⟨S_, .f32⟩
  | 54 => ⟨S500000x128, .f32⟩
  | 55 => ⟨S500000x128, .f32⟩
  | 56 => ⟨S500000x128, .f32⟩
  | 57 => ⟨S1x128, .f32⟩
  | 58 => ⟨S500000x128, .f32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S500000x384, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S500000x128, .f32⟩
  | 89 => ⟨S500000x128, .f32⟩
  | 90 => ⟨S500000x128, .f32⟩
  | 91 => ⟨S1x128, .f32⟩
  | 92 => ⟨S500000x128, .f32⟩
  | 93 => ⟨S500000x128, .f32⟩
  | 94 => ⟨S_, .f32⟩
  | 95 => ⟨S500000x128, .f32⟩
  | 96 => ⟨S500000x128, .f32⟩
  | 97 => ⟨S500000x128, .f32⟩
  | 98 => ⟨S1x128, .f32⟩
  | 99 => ⟨S500000x128, .f32⟩
  | 100 => ⟨S500000x128, .f32⟩
  | 101 => ⟨S_, .f32⟩
  | 102 => ⟨S50000x128, .f32⟩
  | 103 => ⟨S500000x1, .i32⟩
  | 104 => ⟨S50000x128, .f32⟩
  | 105 => ⟨S50000x128, .f32⟩
  | 106 => ⟨S50000x384, .f32⟩
  | 107 => ⟨S1x384, .f32⟩
  | 108 => ⟨S50000x384, .f32⟩
  | 109 => ⟨S50000x384, .f32⟩
  | 110 => ⟨S50000x384, .f32⟩
  | 111 => ⟨S1x384, .f32⟩
  | 112 => ⟨S50000x384, .f32⟩
  | 113 => ⟨S50000x384, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S50000x128, .f32⟩
  | 18 => ⟨S50000x128, .f32⟩
  | 19 => ⟨S50000x384, .f32⟩
  | 20 => ⟨S1x384, .f32⟩
  | 21 => ⟨S50000x384, .f32⟩
  | 22 => ⟨S50000x384, .f32⟩
  | 23 => ⟨S50000x384, .f32⟩
  | 24 => ⟨S1x384, .f32⟩
  | 25 => ⟨S50000x384, .f32⟩
  | 26 => ⟨S50000x384, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S50000x384, .f32⟩
  | 61 => ⟨S1x384, .f32⟩
  | 62 => ⟨S50000x384, .f32⟩
  | 63 => ⟨S50000x384, .f32⟩
  | 64 => ⟨S50000x384, .f32⟩
  | 65 => ⟨S1x384, .f32⟩
  | 66 => ⟨S50000x384, .f32⟩
  | 67 => ⟨S50000x384, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_3 : Ref sig .tc := ⟨.hbm, 64, rfl⟩
abbrev main_v32 : Ref sig .tc := ⟨.hbm, 65, rfl⟩
abbrev main_v33 : Ref sig .tc := ⟨.hbm, 66, rfl⟩
abbrev main_c_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_5 : Ref sig .tc := ⟨.hbm, 73, rfl⟩
abbrev main_v39 : Ref sig .tc := ⟨.hbm, 74, rfl⟩
abbrev main_v40 : Ref sig .tc := ⟨.hbm, 75, rfl⟩
abbrev main_c_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_cst : Ref sig .tc := ⟨.hbm, 87, rfl⟩
abbrev main_call2_v0 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call3_cst : Ref sig .tc := ⟨.hbm, 94, rfl⟩
abbrev main_call3_v0 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_8 : Ref sig .tc := ⟨.hbm, 123, rfl⟩
abbrev main_v82 : Ref sig .tc := ⟨.hbm, 124, rfl⟩
abbrev main_v83 : Ref sig .tc := ⟨.hbm, 125, rfl⟩
abbrev main_cst_9 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_10 : Ref sig .tc := ⟨.hbm, 132, rfl⟩
abbrev main_v89 : Ref sig .tc := ⟨.hbm, 133, rfl⟩
abbrev main_v90 : Ref sig .tc := ⟨.hbm, 134, rfl⟩
abbrev main_cst_11 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_12 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_13 : Ref sig .tc := ⟨.hbm, 164, rfl⟩
abbrev main_v118 : Ref sig .tc := ⟨.hbm, 165, rfl⟩
abbrev main_v119 : Ref sig .tc := ⟨.hbm, 166, rfl⟩
abbrev main_cst_14 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_15 : Ref sig .tc := ⟨.hbm, 173, rfl⟩
abbrev main_v125 : Ref sig .tc := ⟨.hbm, 174, rfl⟩
abbrev main_v126 : Ref sig .tc := ⟨.hbm, 175, rfl⟩
abbrev main_cst_16 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_17 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_18 : Ref sig .tc := ⟨.hbm, 205, rfl⟩
abbrev main_v154 : Ref sig .tc := ⟨.hbm, 206, rfl⟩
abbrev main_v155 : Ref sig .tc := ⟨.hbm, 207, rfl⟩
abbrev main_cst_19 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_20 : Ref sig .tc := ⟨.hbm, 214, rfl⟩
abbrev main_v161 : Ref sig .tc := ⟨.hbm, 215, rfl⟩
abbrev main_v162 : Ref sig .tc := ⟨.hbm, 216, rfl⟩
abbrev main_cst_21 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_22 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x384_S50000x384_1_0_0_1_n_n_wf : DotDims.WF S50000x128 S128x384 S50000x384 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.KernelRun.lean ====
/-
  The idealized kernel's run with its RESULT named.  The program is two pallas_calls among stretches of host
  operations; the contents of every buffer at each boundary are a fold through the program from the launch memory
  (the valuations `W0 … W10` of the frame module).  The launch theorem for such a program ends at a thread state in
  which every unscoped buffer holds the last valuation, so the final memory can be read at ANY unscoped buffer: here
  at the result `main_v27` beside the 23 argument arrays.  What `W10` holds at the result is computed in the modules
  that follow.
-/
import proofs.«110696_j72730976190873_2_alg».proof.Proof.Gen.KernelIdeal.Frame

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates without a fault; the result array ends at the
    last boundary's contents and every argument array as launched. -/
theorem run_named : θ_run defs (onTc (τ := τ) (main (F := F))) ⟨m, fun _ => 0, ρ⟩ (fun r => ∀ c : Dev nD,
      r.2.mem ((c.tc : Thread nD τ).loc main_v27) = W10 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v27 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c)⟩)

end Cert.KernelIdeal.Run

end
-- ==== Proof.Spec.lean ====
/-
  The mathematics both programs compute, stated once over the extended reals and over literal index types.

  A node's row is a function `Fin 128 → EReal`.  Every edge `e` carries two node numbers `fi e` (its source) and
  `ti e` (its target) and a feature row.  An edge's message is a three-layer perceptron of the concatenation
  (source row, target row, feature row); each node sums the messages of the edges that end at it, taken in both
  directions; three gated recurrent cells then update the node rows.
-/
import Idealize.ShloMosaic.PureOps.Ideal
import Idealize.ShloMosaic.PureOps.Ideal.Laws
import Idealize.ShloMosaic.PureOps.IdealRules
import Idealize.ShloMosaic.Lib.ValueIdx

noncomputable section

namespace Cert.GNN

open Idealize.ShloMosaic Idealize.ShloMosaic.ValueIdx

/-- A matrix of extended reals with literal extents. -/
abbrev Arr2 (a b : Nat) : Type := (⟨2, ![a, b]⟩ : Shape).Idx → EReal
/-- A vector of extended reals with a literal extent. -/
abbrev Arr1 (a : Nat) : Type := (⟨1, ![a]⟩ : Shape).Idx → EReal

/-- The word of the float `0.0`. -/
def zeroF : EReal := Ideal.ofBits .f32 0x00000000#32
/-- The word of the float `1.0`. -/
def oneF : EReal := Ideal.ofBits .f32 0x3F800000#32

theorem zeroF_eq : zeroF = 0 := Ideal.ofBits_zero_f32
theorem oneF_eq : oneF = 1 := IdealRules.sign_bit.ideal_onePat .f32

/-- Row `r` of a matrix. -/
def row {a b : Nat} (A : Arr2 a b) (r : Fin a) : Fin b → EReal := fun k => A (ix2 r k)

/-- The rectifier: the larger of `x` and `0.0`. -/
def relu (x : EReal) : EReal := max x zeroF

/-- One affine layer on a row: `(∑ k, x k · W (k, j)) + b j`. -/
def dense {K N : Nat} (W : Arr2 K N) (b : Arr1 N) (x : Fin K → EReal) (j : Fin N) : EReal :=
  (∑ k : Fin K, x k * W (ix2 k j)) + b (ix1 j)

/-- Three rows of 128 entries laid end to end. -/
def cat3 (x y z : Fin 128 → EReal) (k : Fin 384) : EReal :=
  if h : k.val < 128 then x ⟨k.val, h⟩
  else if h2 : k.val < 256 then y ⟨k.val - 128, by omega⟩
  else z ⟨k.val - 256, by omega⟩

/-- The first layer's pre-activation, the weight matrix read in three blocks of 128 rows: the form in which a
    program that never concatenates computes it. -/
def pre1Split (W1 : Arr2 384 128) (b1 : Arr1 128) (x y z : Fin 128 → EReal) (j : Fin 128) : EReal :=
  (((∑ k : Fin 128, x k * W1 (ix2 (⟨k.val, by omega⟩ : Fin 384) j))
      + (∑ k : Fin 128, y k * W1 (ix2 (⟨128 + k.val, by omega⟩ : Fin 384) j)))
    + (∑ k : Fin 128, z k * W1 (ix2 (⟨256 + k.val, by omega⟩ : Fin 384) j))) + b1 (ix1 j)

/-- The second and third layers on a first-layer pre-activation. -/
def mlpTail (W2 : Arr2 128 128) (b2 : Arr1 128) (W3 : Arr2 128 128) (b3 : Arr1 128) (pre : Fin 128 → EReal)
    (j : Fin 128) : EReal :=
  dense W3 b3 (fun k => relu (dense W2 b2 (fun k' => relu (pre k')) k)) j

/-- An edge's message from the three rows it reads. -/
def mlp (W1 : Arr2 384 128) (b1 : Arr1 128) (W2 : Arr2 128 128) (b2 : Arr1 128) (W3 : Arr2 128 128) (b3 : Arr1 128)
    (x y z : Fin 128 → EReal) (j : Fin 128) : EReal :=
  mlpTail W2 b2 W3 b3 (dense W1 b1 (cat3 x y z)) j

/-- The same message with the first layer computed block by block. -/
def mlpSplit (W1 : Arr2 384 128) (b1 : Arr1 128) (W2 : Arr2 128 128) (b2 : Arr1 128) (W3 : Arr2 128 128) (b3 : Arr1 128)
    (x y z : Fin 128 → EReal) (j : Fin 128) : EReal :=
  mlpTail W2 b2 W3 b3 (pre1Split W1 b1 x y z) j

/-- A sum over 384 terms is the sum of its three thirds. -/
theorem sum_384 (f : Fin 384 → EReal) :
    ∑ k : Fin 384, f k = ((∑ k : Fin 128, f ⟨k.val, by omega⟩) + (∑ k : Fin 128, f ⟨128 + k.val, by omega⟩))
      + (∑ k : Fin 128, f ⟨256 + k.val, by omega⟩) := by
  have h1 := Fin.sum_univ_add (a := 128) (b := 256) (f : Fin (128 + 256) → EReal)
  have h2 := Fin.sum_univ_add (a := 128) (b := 128) (fun i : Fin (128 + 128) => f (Fin.natAdd 128 i))
  rw [h1, h2, add_assoc]
  rfl

/-- Concatenating the rows and multiplying once is multiplying block by block and adding: additions of extended
    reals may be regrouped freely. -/
theorem pre1Split_eq (W1 : Arr2 384 128) (b1 : Arr1 128) (x y z : Fin 128 → EReal) (j : Fin 128) :
    pre1Split W1 b1 x y z j = dense W1 b1 (cat3 x y z) j := by
  have e1 : ∀ k : Fin 128, cat3 x y z ⟨k.val, by omega⟩ = x k := fun k => by
    have hk : (⟨k.val, by omega⟩ : Fin 384).val < 128 := k.isLt
    simp only [cat3, dif_pos hk]
  have e2 : ∀ k : Fin 128, cat3 x y z ⟨128 + k.val, by omega⟩ = y k := fun k => by
    have hk1 : ¬ (⟨128 + k.val, by omega⟩ : Fin 384).val < 128 := by simp only; omega
    have hk2 : (⟨128 + k.val, by omega⟩ : Fin 384).val < 256 := by have := k.isLt; simp only; omega
    simp only [cat3, dif_neg hk1, dif_pos hk2, Nat.add_sub_cancel_left]
  have e3 : ∀ k : Fin 128, cat3 x y z ⟨256 + k.val, by omega⟩ = z k := fun k => by
    have hk1 : ¬ (⟨256 + k.val, by omega⟩ : Fin 384).val < 128 := by simp only; omega
    have hk2 : ¬ (⟨256 + k.val, by omega⟩ : Fin 384).val < 256 := by simp only; omega
    simp only [cat3, dif_neg hk1, dif_neg hk2, Nat.add_sub_cancel_left]
  unfold pre1Split dense
  rw [sum_384]
  simp only [e1, e2, e3]

theorem mlpSplit_eq (W1 : Arr2 384 128) (b1 : Arr1 128) (W2 : Arr2 128 128) (b2 : Arr1 128) (W3 : Arr2 128 128)
    (b3 : Arr1 128) (x y z : Fin 128 → EReal) : mlpSplit W1 b1 W2 b2 W3 b3 x y z = mlp W1 b1 W2 b2 W3 b3 x y z := by
  funext j
  unfold mlpSplit mlp
  rw [show pre1Split W1 b1 x y z = dense W1 b1 (cat3 x y z) from funext (pre1Split_eq W1 b1 x y z)]

/-- The logistic function spelt with the float words of `1.0`, as a program that expands it writes it. -/
theorem logistic_words (x : EReal) : Ideal.div oneF (oneF + Ideal.exp (-x)) = Ideal.logistic x := by
  rw [oneF_eq]; rfl

/-- One gated recurrent cell on an input row `x` and a state row `h`: gates `r`, `z`, candidate `n`, and the new
    state `(1 − z) · n + z · h`.  The two gate matrices have 384 columns: reset, update, candidate. -/
def gru (W U : Arr2 128 384) (b c : Arr1 384) (x h : Fin 128 → EReal) (j : Fin 128) : EReal :=
  let gi : Fin 384 → EReal := dense W b x
  let gh : Fin 384 → EReal := dense U c h
  let r : EReal := Ideal.logistic (gi ⟨j.val, by omega⟩ + gh ⟨j.val, by omega⟩)
  let z : EReal := Ideal.logistic (gi ⟨128 + j.val, by omega⟩ + gh ⟨128 + j.val, by omega⟩)
  let n : EReal := Ideal.tanh (gi ⟨256 + j.val, by omega⟩ + r * gh ⟨256 + j.val, by omega⟩)
  (oneF - z) * n + z * h j

/-- The three cells in sequence on a node's row `x` and its aggregated message row `a`. -/
def gru3 (W0 U0 : Arr2 128 384) (b0 c0 : Arr1 384) (W1 U1 : Arr2 128 384) (b1 c1 : Arr1 384)
    (W2 U2 : Arr2 128 384) (b2 c2 : Arr1 384) (x a : Fin 128 → EReal) : Fin 128 → EReal :=
  let h1 : Fin 128 → EReal := gru W0 U0 b0 c0 x a
  let h2 : Fin 128 → EReal := gru W1 U1 b1 c1 a h1
  gru W2 U2 b2 c2 h1 h2

/-- What node `n` receives: the messages of the edges whose target is `n` (source row first), plus the messages
    of the edges whose source is `n` taken the other way round (target row first). -/
def agg (ns : Arr2 50000 128) (ef : Arr2 500000 128) (fi ti : Fin 500000 → Fin 50000)
    (W1 : Arr2 384 128) (b1 : Arr1 128) (W2 : Arr2 128 128) (b2 : Arr1 128) (W3 : Arr2 128 128) (b3 : Arr1 128)
    (n : Fin 50000) (d : Fin 128) : EReal :=
  (zeroF + ∑ e ∈ Finset.univ.filter (fun e : Fin 500000 => ti e = n),
      mlp W1 b1 W2 b2 W3 b3 (row ns (fi e)) (row ns (ti e)) (row ef e) d)
  + (zeroF + ∑ e ∈ Finset.univ.filter (fun e : Fin 500000 => fi e = n),
      mlp W1 b1 W2 b2 W3 b3 (row ns (ti e)) (row ns (fi e)) (row ef e) d)

/-- The layer's result: every node's row after the three cells. -/
def out (ns : Arr2 50000 128) (ef : Arr2 500000 128) (fi ti : Fin 500000 → Fin 50000)
    (W1 : Arr2 384 128) (b1 : Arr1 128) (W2 : Arr2 128 128) (b2 : Arr1 128) (W3 : Arr2 128 128) (b3 : Arr1 128)
    (W0g U0g : Arr2 128 384) (b0g c0g : Arr1 384) (W1g U1g : Arr2 128 384) (b1g c1g : Arr1 384)
    (W2g U2g : Arr2 128 384) (b2g c2g : Arr1 384) : Arr2 50000 128 :=
  fun i => gru3 W0g U0g b0g c0g W1g U1g b1g c1g W2g U2g b2g c2g
    (row ns ⟨(i 0).val, idx2_lt0 i⟩) (agg ns ef fi ti W1 b1 W2 b2 W3 b3 ⟨(i 0).val, idx2_lt0 i⟩) ⟨(i 1).val, idx2_lt1 i⟩

end Cert.GNN

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.LibSumSplit.lean ====
/-
  Sums over an initial segment and the rest: a filtered sum over `Fin (a + b)` is the filtered sum over the first
  `a` positions plus the filtered sum over the last `b`; and a filtered sum whose filter holds nowhere is zero.
  Stated in any commutative additive monoid (the extended reals are one: no finiteness is involved).
-/
import Mathlib.Algebra.BigOperators.Fin
import Mathlib.Algebra.BigOperators.Group.Finset.Basic

namespace Cert.GNN.SumSplit

open Finset

variable {M : Type*} [AddCommMonoid M]

/-- A filtered sum over `Fin (a + b)`, split at position `a`. -/
theorem sum_filter_fin_add (a b : Nat) (p : Fin (a + b) → Prop) [DecidablePred p] (f : Fin (a + b) → M) :
    ∑ r ∈ univ.filter p, f r
      = (∑ r ∈ univ.filter (fun r : Fin a => p (Fin.castAdd b r)), f (Fin.castAdd b r))
        + ∑ r ∈ univ.filter (fun r : Fin b => p (Fin.natAdd a r)), f (Fin.natAdd a r) := by
  rw [Finset.sum_filter, Fin.sum_univ_add, Finset.sum_filter, Finset.sum_filter]

/-- A filtered sum whose filter holds nowhere is zero. -/
theorem sum_filter_of_forall_not {ι : Type*} [Fintype ι] (p : ι → Prop) [DecidablePred p] (f : ι → M)
    (h : ∀ r, ¬ p r) : ∑ r ∈ univ.filter p, f r = 0 := by
  rw [Finset.filter_false_of_mem (fun r _ => h r), Finset.sum_empty]

/-- Two filtered sums over one index type agree when the filters agree and the terms agree where they hold. -/
theorem sum_filter_congr {ι : Type*} [Fintype ι] (p q : ι → Prop) [DecidablePred p] [DecidablePred q] (f g : ι → M)
    (hpq : ∀ r, p r ↔ q r) (hfg : ∀ r, q r → f r = g r) : ∑ r ∈ univ.filter p, f r = ∑ r ∈ univ.filter q, g r := by
  rw [Finset.filter_congr (fun r _ => hpq r)]
  exact Finset.sum_congr rfl fun r hr => hfg r (Finset.mem_filter.mp hr).2

end Cert.GNN.SumSplit
-- ==== Proof.KernelHostDefs.lean ====
/-
  The values the kernel's host operations compute before the first pallas_call, as functions of the argument arrays:
  the index arrays padded with the node number 50000 (the row of zeros appended to the node states), the edge
  features padded with rows of zeros, and the rows of the padded node states gathered at a padded index array.
-/
import proofs.«110696_j72730976190873_2_alg».proof.Proof.Gen.KernelIdeal
import Idealize.ShloMosaic.PureOps.Ideal

noncomputable section

namespace Cert.KernelIdeal.Host
open Cert.KernelIdeal Cert.KernelIdeal.Gen
open Idealize.ShloMosaic

/-- An index array padded with the node number 50000 up to 503808 entries. -/
def padIdx (x : IVec S500000 32) : IVec S503808 32 :=
  pad S503808 ![0] ![3808] ![0] x (id (constantI S_ 32 50000#32) : IVec S_ 32) pads_S500000_S503808_038080 h_S_

/-- jnp's reading of an index: a negative one counts from the end (50001 rows), then one column of start indices. -/
def wrapIdx (p : IVec S503808 32) : IVec S503808x1 32 :=
  broadcastInDim S503808x1 ![0] bcast_S503808_S503808x1_0
    (select (cmpi .slt p (broadcastInDim S503808 ![] bcast_S_S503808 (constantI S_ 32 0#32)))
      (addi p (broadcastInDim S503808 ![] bcast_S_S503808 (constantI S_ 32 50001#32))) p)

/-- The node states with one row of zeros appended (a change of float format is the identity here). -/
def nsPad (a0 : FVec Ideal S50000x128 .f32) : FVec Ideal S50001x128 .bf16 :=
  truncf .bf16 (concatenate S50001x128 0 [⟨S50000x128, a0⟩,
    ⟨S1x128, (broadcastInDim S1x128 ![] bcast_S_S1x128 (constant (F := Ideal) S_ .f32 0x00000000#32) : FVec Ideal S1x128 .f32)⟩]
    concatenates_S50000x128_S1x128_S50001x128_d0) bitsLt_bf16_f32

/-- The rows of the padded node states at a padded index array. -/
def gathered (a0 : FVec Ideal S50000x128 .f32) (x : IVec S500000 32) : FVec Ideal S503808x128 .bf16 :=
  Host.gather gather_S50001x128_S503808x1_S503808x128_1_0_n_n_0_1_1128 (nsPad a0) (wrapIdx (padIdx x))

/-- The edge features padded with rows of zeros up to 503808 rows. -/
def efPad (a1 : FVec Ideal S500000x128 .f32) : FVec Ideal S503808x128 .f32 :=
  pad S503808x128 ![0, 0] ![3808, 0] ![0, 0] a1 (sitofp .f32 (constantI S_ 32 0#32) : FVec Ideal S_ .f32)
    pads_S500000x128_S503808x128_038080_000 h_S_

end Cert.KernelIdeal.Host
end
-- ==== Proof.KernelHost.lean ====
/-
  What the host operations of the kernel's program compute, read buffer by buffer.

  Before the first pallas_call: the two index arrays are padded from 500000 to 503808 entries with the node
  number 50000 (the row of zeros appended to the node states), the edge features are padded with rows of zeros,
  and the rows of the (padded) node states are gathered at the padded index arrays.  Between the two pallas_calls:
  the two arrays of messages are laid end to end, as are the two index arrays (targets first), the messages are
  added into an array of zeros of 50001 rows at their index, and the first 50000 rows are kept.
-/
import proofs.«110696_j72730976190873_2_alg».proof.Proof.Gen.KernelIdeal.Frame
import proofs.«110696_j72730976190873_2_alg».proof.Proof.Spec
import proofs.«110696_j72730976190873_2_alg».proof.Proof.KernelHostDefs
import proofs.«110696_j72730976190873_2_alg».proof.Proof.LibRowIndex
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Host
open Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

theorem W7_v2 (c : Dev nD) : W7 (F := Ideal) m ρ c (Proc.devRef .tc main_v2) = padIdx (m ((c : Thread nD τ).loc main_arg2)) := by
  after_results; rfl

theorem W7_v3 (c : Dev nD) : W7 (F := Ideal) m ρ c (Proc.devRef .tc main_v3) = padIdx (m ((c : Thread nD τ).loc main_arg3)) := by
  after_results; rfl

set_option maxHeartbeats 4000000 in
theorem W7_v4 (c : Dev nD) : W7 (F := Ideal) m ρ c (Proc.devRef .tc main_v4) = efPad (m ((c : Thread nD τ).loc main_arg1)) := by
  after_results_simp <;> rfl

set_option maxHeartbeats 4000000 in
theorem W7_v12 (c : Dev nD) : W7 (F := Ideal) m ρ c (Proc.devRef .tc main_v12)
    = gathered (m ((c : Thread nD τ).loc main_arg0)) (m ((c : Thread nD τ).loc main_arg2)) := by
  after_results_simp <;> rfl

set_option maxHeartbeats 4000000 in
theorem W7_v19 (c : Dev nD) : W7 (F := Ideal) m ρ c (Proc.devRef .tc main_v19)
    = gathered (m ((c : Thread nD τ).loc main_arg0)) (m ((c : Thread nD τ).loc main_arg3)) := by
  after_results_simp <;> rfl

end Cert.KernelIdeal.Host
end
-- ==== Proof.KernelBetween.lean ====
/-
  Between the two pallas_calls.  The forward and reverse messages are laid end to end (1007616 rows), and so are
  the two padded index arrays (targets first, sources second); every message row is added into an array of zeros of
  50001 rows at its index; the first 50000 rows are kept.  Read at node `n` and column `d`: the sum of the
  forward messages whose target is `n` plus the sum of the reverse messages whose source is `n` — the padded
  positions, whose index is 50000, land in the row that is cut off.
-/
import proofs.«110696_j72730976190873_2_alg».proof.Proof.Gen.KernelIdeal.Frame
import proofs.«110696_j72730976190873_2_alg».proof.Proof.Spec
import proofs.«110696_j72730976190873_2_alg».proof.Proof.LibRowIndex
import proofs.«110696_j72730976190873_2_alg».proof.Proof.LibSumSplit
import proofs.«110696_j72730976190873_2_alg».proof.Proof.KernelHost
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Host
open Cert.KernelIdeal.Gen
open Idealize.ShloMosaic Idealize.ShloMosaic.TcCoe Idealize.ShloMosaic.StableHlo Idealize.ShloMosaic.ValueIdx Idealize.SL.Sem
open Cert.GNN Cert.GNN.RowIndex Cert.GNN.SumSplit

/-- The two index arrays end to end, as one column of start indices. -/
def idxCat (tgt src : IVec S503808 32) : IVec S1007616x1 32 :=
  broadcastInDim S1007616x1 ![0] bcast_S1007616_S1007616x1_0
    (concatenate S1007616 0 [⟨S503808, tgt⟩, ⟨S503808, src⟩] concatenates_S503808_S503808_S1007616_d0)

/-- The two message arrays end to end. -/
def msgCat (mf mr : FVec Ideal S503808x128 .f32) : FVec Ideal S1007616x128 .f32 :=
  concatenate S1007616x128 0 [⟨S503808x128, mf⟩, ⟨S503808x128, mr⟩] concatenates_S503808x128_S503808x128_S1007616x128_d0

/-- The messages added into 50001 rows of zeros at their indices, the first 50000 rows kept. -/
def aggK (tgt src : IVec S503808 32) (mf mr : FVec Ideal S503808x128 .f32) : FVec Ideal S50000x128 .f32 :=
  extractStridedSlice S50000x128 ![0, 0]
    (Host.scatterAdd scatter_S50001x128_S1007616x1_S1007616x128_1_0_0_1
      (broadcastInDim S50001x128 ![] bcast_S_S50001x128 (constant (F := Ideal) S_ .f32 0x00000000#32) : FVec Ideal S50001x128 .f32)
      (idxCat tgt src) (msgCat mf mr))
    slices_S50001x128_S50000x128_0_0

variable (m : (ℓ : Loc nD τ sig) → Buf (Elt Ideal) ℓ) (ρ : Dev nD → PrngReg)

set_option maxHeartbeats 4000000 in
/-- What the second region finds in its second window's array. -/
theorem W9_v26 (c : Dev nD) : W9 (F := Ideal) m ρ c (Proc.devRef .tc main_v26)
    = aggK (W8 (F := Ideal) m ρ c (Proc.devRef .tc main_v3)) (W8 (F := Ideal) m ρ c (Proc.devRef .tc main_v2))
        (W8 (F := Ideal) m ρ c (Proc.devRef .tc main_v20_0)) (W8 (F := Ideal) m ρ c (Proc.devRef .tc main_v20_1)) := by
  after_results_simp <;> rfl

/-- The first region leaves the padded index arrays alone. -/
theorem W8_v3 (c : Dev nD) : W8 (F := Ideal) m ρ c (Proc.devRef .tc main_v3) = padIdx (m ((c : Thread nD τ).loc main_arg3)) :=
  (W8_of_ne m ρ c main_v3 (by decide)).trans (W7_v3 m ρ c)
theorem W8_v2 (c : Dev nD) : W8 (F := Ideal) m ρ c (Proc.devRef .tc main_v2) = padIdx (m ((c : Thread nD τ).loc main_arg2)) :=
  (W8_of_ne m ρ c main_v2 (by decide)).trans (W7_v2 m ρ c)

/-- Its two output arrays are what its write-backs leave. -/
theorem W8_v20_0 (c : Dev nD) : W8 (F := Ideal) m ρ c (Proc.devRef .tc main_v20_0) = (dat0 (V7 m ρ) c).arrAt 9 cfg0.N :=
  W8_arr m ρ c 9
theorem W8_v20_1 (c : Dev nD) : W8 (F := Ideal) m ρ c (Proc.devRef .tc main_v20_1) = (dat0 (V7 m ρ) c).arrAt 10 cfg0.N :=
  W8_arr m ρ c 10

end Cert.KernelIdeal.Host
end
-- ==== Proof.KernelAggIdx.lean ====
/-
  The aggregation between the two pallas_calls, read at a node and a column: the sum of the forward messages whose
  (padded) target index is the node plus the sum of the reverse messages whose (padded) source index is the node.
-/
import proofs.«110696_j72730976190873_2_alg».proof.Proof.Gen.KernelIdeal.Frame
import proofs.«110696_j72730976190873_2_alg».proof.Proof.Spec
import proofs.«110696_j72730976190873_2_alg».proof.Proof.LibRowIndex
import proofs.«110696_j72730976190873_2_alg».proof.Proof.LibSumSplit
import proofs.«110696_j72730976190873_2_alg».proof.Proof.KernelBetween
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Host
open Cert.KernelIdeal.Gen
open Idealize.ShloMosaic Idealize.ShloMosaic.TcCoe Idealize.ShloMosaic.ValueIdx
open Cert.GNN Cert.GNN.RowIndex Cert.GNN.SumSplit

/-- A position in the first half of the joined index column reads the target indices. -/
theorem idxCat_left (tgt src : IVec S503808 32) (q : Fin 1007616) (r : Fin 503808) (h : q.val = r.val) :
    idxCat tgt src (ix2 q (0 : Fin 1)) = tgt (ix1 r) := by
  unfold idxCat
  rw [broadcastInDim_apply _ bcast_S1007616_S1007616x1_0 _ (ix2 q (0 : Fin 1)) (ix1 q)
    (fun a => by match a with | ⟨0, _⟩ => rfl)]
  exact concatenate_pair_apply_left (0 : Fin 1) tgt src concatenates_S503808_S503808_S1007616_d0 (ix1 q) rfl (ix1 r)
    (fun b => by match b with | ⟨0, _⟩ => exact h.symm)

/-- A position in the second half reads the source indices. -/
theorem idxCat_right (tgt src : IVec S503808 32) (q : Fin 1007616) (r : Fin 503808) (h : q.val = 503808 + r.val) :
    idxCat tgt src (ix2 q (0 : Fin 1)) = src (ix1 r) := by
  unfold idxCat
  rw [broadcastInDim_apply _ bcast_S1007616_S1007616x1_0 _ (ix2 q (0 : Fin 1)) (ix1 q)
    (fun a => by match a with | ⟨0, _⟩ => rfl)]
  exact concatenate_pair_apply_right (0 : Fin 1) tgt src concatenates_S503808_S503808_S1007616_d0 (ix1 q) rfl rfl (ix1 r)
    (fun b hb => by match b with | ⟨0, _⟩ => exact absurd rfl hb)
    (by show r.val + 503808 = q.val; omega)

/-- A row in the first half of the joined messages is a forward message. -/
theorem msgCat_left (mf mr : FVec Ideal S503808x128 .f32) (q : Fin 1007616) (r : Fin 503808) (h : q.val = r.val) (d : Fin 128) :
    msgCat mf mr (ix2 q d) = mf (ix2 r d) := by
  unfold msgCat
  exact concatenate_pair_apply_left (0 : Fin 2) mf mr concatenates_S503808x128_S503808x128_S1007616x128_d0 (ix2 q d) rfl (ix2 r d)
    (fun b => by match b with | ⟨0, _⟩ => exact h.symm | ⟨1, _⟩ => rfl)

/-- A row in the second half is a reverse message. -/
theorem msgCat_right (mf mr : FVec Ideal S503808x128 .f32) (q : Fin 1007616) (r : Fin 503808) (h : q.val = 503808 + r.val) (d : Fin 128) :
    msgCat mf mr (ix2 q d) = mr (ix2 r d) := by
  unfold msgCat
  exact concatenate_pair_apply_right (0 : Fin 2) mf mr concatenates_S503808x128_S503808x128_S1007616x128_d0 (ix2 q d) rfl rfl (ix2 r d)
    (fun b hb => by match b with | ⟨0, _⟩ => exact absurd rfl hb | ⟨1, _⟩ => rfl)
    (by show r.val + 503808 = q.val; omega)

/-- The aggregated array at node `n`, column `d`. -/
theorem aggK_apply (tgt src : IVec S503808 32) (mf mr : FVec Ideal S503808x128 .f32) (n : Fin 50000) (d : Fin 128) :
    aggK tgt src mf mr (ix2 n d)
      = zeroF + ((∑ r ∈ Finset.univ.filter (fun r : Fin 503808 => (tgt (ix1 r)).toInt = (n.val : Int)), mf (ix2 r d))
          + (∑ r ∈ Finset.univ.filter (fun r : Fin 503808 => (src (ix1 r)).toInt = (n.val : Int)), mr (ix2 r d))) := by
  unfold aggK
  rw [extractStridedSlice_apply _ _ slices_S50001x128_S50000x128_0_0 (ix2 n d) (ix2 (⟨n.val, by omega⟩ : Fin 50001) d)
    (fun a => by match a with | ⟨0, _⟩ => exact (Nat.zero_add _).symm | ⟨1, _⟩ => exact (Nat.zero_add _).symm)]
  refine (host_scatterAdd_row_apply (N := 50001) (E := 1007616) (C := 128) scatter_S50001x128_S1007616x1_S1007616x128_1_0_0_1_wf
    _ (idxCat tgt src) (msgCat mf mr) (⟨n.val, by omega⟩ : Fin 50001) d).trans ?_
  refine congrArg₂ (· + ·) rfl ?_
  rw [sum_filter_fin_add 503808 503808]
  refine congrArg₂ (· + ·) ?_ ?_
  · exact sum_filter_congr _ _ _ _
      (fun r => by rw [idxCat_left tgt src (Fin.castAdd 503808 r) r rfl])
      (fun r _ => msgCat_left mf mr (Fin.castAdd 503808 r) r rfl d)
  · exact sum_filter_congr _ _ _ _
      (fun r => by rw [idxCat_right tgt src (Fin.natAdd 503808 r) r rfl])
      (fun r _ => msgCat_right mf mr (Fin.natAdd 503808 r) r rfl d)

end Cert.KernelIdeal.Host
end
-- ==== Proof.KernelHostIdx.lean ====
/-
  The kernel's host operations before the first pallas_call, read at an index: the padded index arrays, the padded
  edge features, and the gathered rows of the padded node states at an edge whose node number is in range.
-/
import proofs.«110696_j72730976190873_2_alg».proof.Proof.KernelHostDefs
import proofs.«110696_j72730976190873_2_alg».proof.Proof.LibRowIndex
import Idealize.ShloMosaic.Lib.KernelVsHost
import Idealize.ShloMosaic.Lib.Pipeline.Value
import Idealize.ShloMosaic.Lib.ValueIdx
import Idealize.ShloMosaic.Lib.Affine

noncomputable section

namespace Cert.KernelIdeal.Host
open Cert.KernelIdeal Cert.KernelIdeal.Gen
open Idealize.ShloMosaic Idealize.ShloMosaic.ValueIdx

/-- Below entry 500000 the padded index array is the index array. -/
theorem padIdx_lt (x : IVec S500000 32) (e : Fin 500000) :
    padIdx x (ix1 (⟨e.val, by have := e.isLt; omega⟩ : Fin 503808)) = x (ix1 e) := by
  unfold padIdx
  refine pad_apply_of_inside _ _ _ x _ _ _ _ (ix1 e) (fun a => ?_)
  match a with
  | ⟨0, _⟩ =>
    show e.val = 0 + e.val * (0 + 1)
    omega

/-- From entry 500000 on the padded index array holds the node number 50000. -/
theorem padIdx_ge (x : IVec S500000 32) (r : Fin 503808) (h : 500000 ≤ r.val) : padIdx x (ix1 r) = 50000#32 := by
  unfold padIdx
  refine (pad_apply_of_not_inside _ _ _ x _ _ _ (ix1 r) 0 (fun hh => ?_)).trans rfl
  have h3 : (r.val - 0) / (0 + 1) < 500000 := hh.2.2
  rw [Nat.zero_add, Nat.div_one, Nat.sub_zero] at h3
  omega

/-- Below row 500000 the padded edge features are the edge features. -/
theorem efPad_lt (a1 : FVec Ideal S500000x128 .f32) (e : Fin 500000) (k : Fin 128) :
    efPad a1 (ix2 (⟨e.val, by have := e.isLt; omega⟩ : Fin 503808) k) = a1 (ix2 e k) := by
  unfold efPad
  refine pad_apply_of_inside _ _ _ a1 _ _ _ _ (ix2 e k) (fun a => ?_)
  match a with
  | ⟨0, _⟩ =>
    show e.val = 0 + e.val * (0 + 1)
    omega
  | ⟨1, _⟩ =>
    show k.val = 0 + k.val * (0 + 1)
    omega

/-- An index that is not negative is kept as it is; the column of start indices holds it at `(i, 0)`. -/
theorem wrapIdx_nonneg (p : IVec S503808 32) (i : Fin 503808) (h0 : 0 ≤ (p (ix1 i)).toInt) :
    wrapIdx p (ix2 i (0 : Fin 1)) = p (ix1 i) := by
  unfold wrapIdx
  refine (broadcastInDim_apply _ _ _ (ix2 i (0 : Fin 1)) (ix1 i) (fun a => ?_)).trans ?_
  · match a with
    | ⟨0, _⟩ =>
      show i.val = if (503808 : Nat) = 1 then 0 else i.val
      rw [if_neg (by decide)]
  · rw [select_apply]
    have hc : cmpi .slt p (broadcastInDim S503808 ![] bcast_S_S503808 (constantI S_ 32 0#32)) (ix1 i) = 0#1 := by
      refine eq_zero_of_ne_one (fun hh => ?_)
      have hlt : (p (ix1 i)).toInt < (0#32 : BitVec 32).toInt := IntOp.cmpi_slt.1 hh
      rw [show (0#32 : BitVec 32).toInt = 0 by decide] at hlt
      omega
    rw [hc, select_zero]

/-- A row of the padded node states below row 50000 is the node's row. -/
theorem nsPad_lt (a0 : FVec Ideal S50000x128 .f32) (r : Fin 50000) (k : Fin 128) :
    nsPad a0 (ix2 (⟨r.val, by have := r.isLt; omega⟩ : Fin 50001) k) = a0 (ix2 r k) := by
  unfold nsPad
  rw [truncf_apply]
  refine concatenate_pair_apply_left 0 a0 _ concatenates_S50000x128_S1x128_S50001x128_d0 _ rfl (ix2 r k) (fun b => ?_)
  match b with
  | ⟨0, _⟩ => rfl
  | ⟨1, _⟩ => rfl

/-- THE GATHERED ROWS at an edge below 500000 whose node number, read signed, is `r`: row `r` of the node states. -/
theorem gathered_lt (a0 : FVec Ideal S50000x128 .f32) (x : IVec S500000 32) (e : Fin 500000) (r : Fin 50000)
    (h : (x (ix1 e)).toInt = (r.val : Int)) (k : Fin 128) :
    gathered a0 x (ix2 (⟨e.val, by have := e.isLt; omega⟩ : Fin 503808) k) = a0 (ix2 r k) := by
  unfold gathered
  have hp : padIdx x (ix1 (⟨e.val, by have := e.isLt; omega⟩ : Fin 503808)) = x (ix1 e) := padIdx_lt x e
  have hw : (wrapIdx (padIdx x) (ix2 (⟨e.val, by have := e.isLt; omega⟩ : Fin 503808) (0 : Fin 1))).toInt
      = (((⟨r.val, by have := r.isLt; omega⟩ : Fin 50001).val : Nat) : Int) := by
    rw [wrapIdx_nonneg _ _ (by rw [hp, h]; omega), hp, h]
  refine (Cert.GNN.RowIndex.gather_row_apply_of_eq _ (nsPad a0) (wrapIdx (padIdx x)) _ k _ hw).trans ?_
  exact nsPad_lt a0 r k

end Cert.KernelIdeal.Host

end
-- ==== Proof.KernelArgs.lean ====
/-
  The argument arrays as the two pallas_calls find them: no host operation and no pallas_call writes an argument, so
  at the entry of either region an argument's buffer holds what it held at the launch.
-/
import proofs.«110696_j72730976190873_2_alg».proof.Proof.Gen.KernelIdeal.Frame
import Idealize.ShloMosaic.Lib.StableHlo.Run
import Idealize.ShloMosaic.PureOps.Ideal

set_option maxRecDepth 16384

noncomputable section

namespace Cert.KernelIdeal.Host
open Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## At the entry of the first region: the perceptron's weights -/

set_option maxHeartbeats 4000000 in
theorem W7_arg5 (c : Dev nD) : W7 (F := Ideal) m ρ c (Proc.devRef .tc main_arg5) = m ((c : Thread nD τ).loc main_arg5) := by
  after_results_simp <;> rfl

set_option maxHeartbeats 4000000 in
theorem W7_arg6 (c : Dev nD) : W7 (F := Ideal) m ρ c (Proc.devRef .tc main_arg6) = m ((c : Thread nD τ).loc main_arg6) := by
  after_results_simp <;> rfl

set_option maxHeartbeats 4000000 in
theorem W7_arg7 (c : Dev nD) : W7 (F := Ideal) m ρ c (Proc.devRef .tc main_arg7) = m ((c : Thread nD τ).loc main_arg7) := by
  after_results_simp <;> rfl

set_option maxHeartbeats 4000000 in
theorem W7_arg8 (c : Dev nD) : W7 (F := Ideal) m ρ c (Proc.devRef .tc main_arg8) = m ((c : Thread nD τ).loc main_arg8) := by
  after_results_simp <;> rfl

set_option maxHeartbeats 4000000 in
theorem W7_arg9 (c : Dev nD) : W7 (F := Ideal) m ρ c (Proc.devRef .tc main_arg9) = m ((c : Thread nD τ).loc main_arg9) := by
  after_results_simp <;> rfl

set_option maxHeartbeats 4000000 in
theorem W7_arg10 (c : Dev nD) : W7 (F := Ideal) m ρ c (Proc.devRef .tc main_arg10) = m ((c : Thread nD τ).loc main_arg10) := by
  after_results_simp <;> rfl

/-! ## At the entry of the second region: the node states and the cells' weights -/

set_option maxHeartbeats 4000000 in
theorem W9_arg0 (c : Dev nD) : W9 (F := Ideal) m ρ c (Proc.devRef .tc main_arg0) = m ((c : Thread nD τ).loc main_arg0) := by
  have h : W9 (F := Ideal) m ρ c (Proc.devRef .tc main_arg0) = W8 (F := Ideal) m ρ c (Proc.devRef .tc main_arg0) := by
    after_results_simp <;> rfl
  rw [h, W8_of_ne m ρ c main_arg0 (by decide)]
  after_results_simp <;> rfl

set_option maxHeartbeats 4000000 in
theorem W9_arg11 (c : Dev nD) : W9 (F := Ideal) m ρ c (Proc.devRef .tc main_arg11) = m ((c : Thread nD τ).loc main_arg11) := by
  have h : W9 (F := Ideal) m ρ c (Proc.devRef .tc main_arg11) = W8 (F := Ideal) m ρ c (Proc.devRef .tc main_arg11) := by
    after_results_simp <;> rfl
  rw [h, W8_of_ne m ρ c main_arg11 (by decide)]
  after_results_simp <;> rfl

set_option maxHeartbeats 4000000 in
theorem W9_arg12 (c : Dev nD) : W9 (F := Ideal) m ρ c (Proc.devRef .tc main_arg12) = m ((c : Thread nD τ).loc main_arg12) := by
  have h : W9 (F := Ideal) m ρ c (Proc.devRef .tc main_arg12) = W8 (F := Ideal) m ρ c (Proc.devRef .tc main_arg12) := by
    after_results_simp <;> rfl
  rw [h, W8_of_ne m ρ c main_arg12 (by decide)]
  after_results_simp <;> rfl

set_option maxHeartbeats 4000000 in
theorem W9_arg13 (c : Dev nD) : W9 (F := Ideal) m ρ c (Proc.devRef .tc main_arg13) = m ((c : Thread nD τ).loc main_arg13) := by
  have h : W9 (F := Ideal) m ρ c (Proc.devRef .tc main_arg13) = W8 (F := Ideal) m ρ c (Proc.devRef .tc main_arg13) := by
    after_results_simp <;> rfl
  rw [h, W8_of_ne m ρ c main_arg13 (by decide)]
  after_results_simp <;> rfl

set_option maxHeartbeats 4000000 in
theorem W9_arg14 (c : Dev nD) : W9 (F := Ideal) m ρ c (Proc.devRef .tc main_arg14) = m ((c : Thread nD τ).loc main_arg14) := by
  have h : W9 (F := Ideal) m ρ c (Proc.devRef .tc main_arg14) = W8 (F := Ideal) m ρ c (Proc.devRef .tc main_arg14) := by
    after_results_simp <;> rfl
  rw [h, W8_of_ne m ρ c main_arg14 (by decide)]
  after_results_simp <;> rfl

set_option maxHeartbeats 4000000 in
theorem W9_arg15 (c : Dev nD) : W9 (F := Ideal) m ρ c (Proc.devRef .tc main_arg15) = m ((c : Thread nD τ).loc main_arg15) := by
  have h : W9 (F := Ideal) m ρ c (Proc.devRef .tc main_arg15) = W8 (F := Ideal) m ρ c (Proc.devRef .tc main_arg15) := by
    after_results_simp <;> rfl
  rw [h, W8_of_ne m ρ c main_arg15 (by decide)]
  after_results_simp <;> rfl

set_option maxHeartbeats 4000000 in
theorem W9_arg16 (c : Dev nD) : W9 (F := Ideal) m ρ c (Proc.devRef .tc main_arg16) = m ((c : Thread nD τ).loc main_arg16) := by
  have h : W9 (F := Ideal) m ρ c (Proc.devRef .tc main_arg16) = W8 (F := Ideal) m ρ c (Proc.devRef .tc main_arg16) := by
    after_results_simp <;> rfl
  rw [h, W8_of_ne m ρ c main_arg16 (by decide)]
  after_results_simp <;> rfl

set_option maxHeartbeats 4000000 in
theorem W9_arg17 (c : Dev nD) : W9 (F := Ideal) m ρ c (Proc.devRef .tc main_arg17) = m ((c : Thread nD τ).loc main_arg17) := by
  have h : W9 (F := Ideal) m ρ c (Proc.devRef .tc main_arg17) = W8 (F := Ideal) m ρ c (Proc.devRef .tc main_arg17) := by
    after_results_simp <;> rfl
  rw [h, W8_of_ne m ρ c main_arg17 (by decide)]
  after_results_simp <;> rfl

set_option maxHeartbeats 4000000 in
theorem W9_arg18 (c : Dev nD) : W9 (F := Ideal) m ρ c (Proc.devRef .tc main_arg18) = m ((c : Thread nD τ).loc main_arg18) := by
  have h : W9 (F := Ideal) m ρ c (Proc.devRef .tc main_arg18) = W8 (F := Ideal) m ρ c (Proc.devRef .tc main_arg18) := by
    after_results_simp <;> rfl
  rw [h, W8_of_ne m ρ c main_arg18 (by decide)]
  after_results_simp <;> rfl

set_option maxHeartbeats 4000000 in
theorem W9_arg19 (c : Dev nD) : W9 (F := Ideal) m ρ c (Proc.devRef .tc main_arg19) = m ((c : Thread nD τ).loc main_arg19) := by
  have h : W9 (F := Ideal) m ρ c (Proc.devRef .tc main_arg19) = W8 (F := Ideal) m ρ c (Proc.devRef .tc main_arg19) := by
    after_results_simp <;> rfl
  rw [h, W8_of_ne m ρ c main_arg19 (by decide)]
  after_results_simp <;> rfl

set_option maxHeartbeats 4000000 in
theorem W9_arg20 (c : Dev nD) : W9 (F := Ideal) m ρ c (Proc.devRef .tc main_arg20) = m ((c : Thread nD τ).loc main_arg20) := by
  have h : W9 (F := Ideal) m ρ c (Proc.devRef .tc main_arg20) = W8 (F := Ideal) m ρ c (Proc.devRef .tc main_arg20) := by
    after_results_simp <;> rfl
  rw [h, W8_of_ne m ρ c main_arg20 (by decide)]
  after_results_simp <;> rfl

set_option maxHeartbeats 4000000 in
theorem W9_arg21 (c : Dev nD) : W9 (F := Ideal) m ρ c (Proc.devRef .tc main_arg21) = m ((c : Thread nD τ).loc main_arg21) := by
  have h : W9 (F := Ideal) m ρ c (Proc.devRef .tc main_arg21) = W8 (F := Ideal) m ρ c (Proc.devRef .tc main_arg21) := by
    after_results_simp <;> rfl
  rw [h, W8_of_ne m ρ c main_arg21 (by decide)]
  after_results_simp <;> rfl

set_option maxHeartbeats 4000000 in
theorem W9_arg22 (c : Dev nD) : W9 (F := Ideal) m ρ c (Proc.devRef .tc main_arg22) = m ((c : Thread nD τ).loc main_arg22) := by
  have h : W9 (F := Ideal) m ρ c (Proc.devRef .tc main_arg22) = W8 (F := Ideal) m ρ c (Proc.devRef .tc main_arg22) := by
    after_results_simp <;> rfl
  rw [h, W8_of_ne m ρ c main_arg22 (by decide)]
  after_results_simp <;> rfl

end Cert.KernelIdeal.Host
end
-- ==== Proof.KernelValue.lean ====
/-
  The kernel's result as one function of the argument arrays.

  The second region's output is, row by row, the three cells applied to the node's row and its aggregated row.
  The aggregated row is the sum of the first region's forward messages at the edges whose target is the node plus its
  reverse messages at the edges whose source is the node: the 3808 padded edges carry the index 50000 and never
  count.  An edge's forward message is the perceptron of (source row, target row, feature row) with the first layer
  computed block by block, which is the perceptron of the concatenated row; the gathered rows are the node states'
  rows at the edge's two nodes because the indices are in range.
-/
import proofs.«110696_j72730976190873_2_alg».proof.Proof.Gen.KernelIdeal.Frame
import proofs.«110696_j72730976190873_2_alg».proof.Proof.Spec
import proofs.«110696_j72730976190873_2_alg».proof.Proof.LibRowIndex
import proofs.«110696_j72730976190873_2_alg».proof.Proof.LibSumSplit
import proofs.«110696_j72730976190873_2_alg».proof.Proof.KernelAggIdx
import proofs.«110696_j72730976190873_2_alg».proof.Proof.KernelHostIdx
import proofs.«110696_j72730976190873_2_alg».proof.Proof.KernelArgs
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Host
open Cert.KernelIdeal.Gen
open Idealize.ShloMosaic Idealize.ShloMosaic.TcCoe Idealize.ShloMosaic.ValueIdx Idealize.SL.Sem
open Cert.GNN Cert.GNN.RowIndex Cert.GNN.SumSplit

variable (m : (ℓ : Loc nD τ sig) → Buf (Elt Ideal) ℓ) (ρ : Dev nD → PrngReg)

/-- The padded index 50000 is no node. -/
theorem toInt_50000_ne (n : Fin 50000) : ¬ ((50000#32 : BitVec 32).toInt = (n.val : Int)) := by
  have h : (50000#32 : BitVec 32).toInt = 50000 := by decide
  rw [h]; have := n.isLt; omega

/-- A sum over the 503808 padded positions filtered by "the padded index is node `n`" is the sum over the 500000
    real edges filtered by "the edge's node is `n`". -/
theorem sum_padded (x : IVec S500000 32) (f : Fin 500000 → Fin 50000) (hf : ∀ e, (x (ix1 e)).toInt = ((f e).val : Int))
    (g : Fin 503808 → EReal) (g' : Fin 500000 → EReal) (hg : ∀ e : Fin 500000, g (Fin.castAdd 3808 e) = g' e) (n : Fin 50000) :
    ∑ r ∈ Finset.univ.filter (fun r : Fin 503808 => (padIdx x (ix1 r)).toInt = (n.val : Int)), g r
      = ∑ e ∈ Finset.univ.filter (fun e : Fin 500000 => f e = n), g' e := by
  rw [sum_filter_fin_add 500000 3808]
  rw [sum_filter_of_forall_not (fun r : Fin 3808 => (padIdx x (ix1 (Fin.natAdd 500000 r))).toInt = (n.val : Int)) _
    (fun r => by rw [padIdx_ge x (Fin.natAdd 500000 r) (by show 500000 ≤ 500000 + r.val; omega)]; exact toInt_50000_ne n), add_zero]
  refine sum_filter_congr _ _ _ _ (fun e => ?_) (fun e _ => hg e)
  rw [show (ix1 (Fin.castAdd 3808 e) : S503808.Idx) = ix1 (⟨e.val, by omega⟩ : Fin 503808) from rfl, padIdx_lt x e, hf e]
  exact ⟨fun h => Fin.ext (by exact_mod_cast h), fun h => by rw [h]⟩

/-- A gathered row at a real edge is the node states' row at the edge's node. -/
theorem row_gathered (a0 : FVec Ideal S50000x128 .f32) (x : IVec S500000 32) (f : Fin 500000 → Fin 50000)
    (hf : ∀ e, (x (ix1 e)).toInt = ((f e).val : Int)) (e : Fin 500000) :
    row (gathered a0 x) (⟨e.val, by omega⟩ : Fin 503808) = row a0 (f e) :=
  funext fun k => gathered_lt a0 x e (f e) (hf e) k

/-- A padded feature row at a real edge is the edge's feature row. -/
theorem row_efPad (a1 : FVec Ideal S500000x128 .f32) (e : Fin 500000) :
    row (efPad a1) (⟨e.val, by omega⟩ : Fin 503808) = row a1 e :=
  funext fun k => efPad_lt a1 e k

/-- The aggregated array at a node, from its parts as VARIABLES: the two padded index arrays, the two message
    arrays as the perceptron (first layer block by block) of the gathered and padded rows. -/
theorem agg_of_parts (a0 : FVec Ideal S50000x128 .f32) (a1 : FVec Ideal S500000x128 .f32) (x2 x3 : IVec S500000 32)
    (fi ti : Fin 500000 → Fin 50000)
    (hfi : ∀ e : Fin 500000, (x2 (ix1 e)).toInt = ((fi e).val : Int)) (hti : ∀ e : Fin 500000, (x3 (ix1 e)).toInt = ((ti e).val : Int))
    (W1 : FVec Ideal S384x128 .f32) (b1 : FVec Ideal S128 .f32) (W2 : FVec Ideal S128x128 .f32) (b2 : FVec Ideal S128 .f32) (W3 : FVec Ideal S128x128 .f32) (b3 : FVec Ideal S128 .f32)
    (W1' : FVec Ideal S384x128 .f32) (b1' : FVec Ideal S128 .f32) (W2' : FVec Ideal S128x128 .f32) (b2' : FVec Ideal S128 .f32)
    (W3' : FVec Ideal S128x128 .f32) (b3' : FVec Ideal S128 .f32)
    (eW1 : W1' = W1) (eb1 : b1' = b1) (eW2 : W2' = W2) (eb2 : b2' = b2) (eW3 : W3' = W3) (eb3 : b3' = b3)
    (xf xt : FVec Ideal S503808x128 .bf16) (efp : FVec Ideal S503808x128 .f32)
    (hxf : xf = gathered a0 x2) (hxt : xt = gathered a0 x3) (hef : efp = efPad a1)
    (tgt src : IVec S503808 32) (htgt : tgt = padIdx x3) (hsrc : src = padIdx x2)
    (mf mr : FVec Ideal S503808x128 .f32)
    (hmf : mf = fun i : S503808x128.Idx => mlpSplit W1' b1' W2' b2' W3' b3'
      (row xf ⟨(i 0).val, idx2_lt0 i⟩) (row xt ⟨(i 0).val, idx2_lt0 i⟩) (row efp ⟨(i 0).val, idx2_lt0 i⟩) ⟨(i 1).val, idx2_lt1 i⟩)
    (hmr : mr = fun i : S503808x128.Idx => mlpSplit W1' b1' W2' b2' W3' b3'
      (row xt ⟨(i 0).val, idx2_lt0 i⟩) (row xf ⟨(i 0).val, idx2_lt0 i⟩) (row efp ⟨(i 0).val, idx2_lt0 i⟩) ⟨(i 1).val, idx2_lt1 i⟩)
    (n : Fin 50000) (d : Fin 128) :
    aggK tgt src mf mr (ix2 n d) = agg a0 a1 fi ti W1 b1 W2 b2 W3 b3 n d := by
  subst eW1 eb1 eW2 eb2 eW3 eb3 hxf hxt hef htgt hsrc hmf hmr
  rw [aggK_apply]
  unfold agg
  rw [zeroF_eq, zero_add, zero_add, zero_add]
  refine congrArg₂ (· + ·) ?_ ?_
  · refine sum_padded x3 ti hti _ _ (fun e => ?_) n
    show mlpSplit W1' b1' W2' b2' W3' b3' (row (gathered a0 x2) (⟨e.val, by omega⟩ : Fin 503808))
        (row (gathered a0 x3) (⟨e.val, by omega⟩ : Fin 503808)) (row (efPad a1) (⟨e.val, by omega⟩ : Fin 503808)) d = _
    rw [row_gathered a0 x2 fi hfi e, row_gathered a0 x3 ti hti e, row_efPad, mlpSplit_eq]
  · refine sum_padded x2 fi hfi _ _ (fun e => ?_) n
    show mlpSplit W1' b1' W2' b2' W3' b3' (row (gathered a0 x3) (⟨e.val, by omega⟩ : Fin 503808))
        (row (gathered a0 x2) (⟨e.val, by omega⟩ : Fin 503808)) (row (efPad a1) (⟨e.val, by omega⟩ : Fin 503808)) d = _
    rw [row_gathered a0 x3 ti hti e, row_gathered a0 x2 fi hfi e, row_efPad, mlpSplit_eq]

/-- The result at an index from its parts as VARIABLES: the cells' weights and the node states as the second region
    finds them, and the aggregated array. -/
theorem out_of_parts (a0 : FVec Ideal S50000x128 .f32) (a1 : FVec Ideal S500000x128 .f32) (fi ti : Fin 500000 → Fin 50000)
    (W1 : FVec Ideal S384x128 .f32) (b1 : FVec Ideal S128 .f32) (W2 : FVec Ideal S128x128 .f32) (b2 : FVec Ideal S128 .f32) (W3 : FVec Ideal S128x128 .f32) (b3 : FVec Ideal S128 .f32)
    (g0W g0U : FVec Ideal S128x384 .f32) (g0b g0c : FVec Ideal S384 .f32) (g1W g1U : FVec Ideal S128x384 .f32) (g1b g1c : FVec Ideal S384 .f32)
    (g2W g2U : FVec Ideal S128x384 .f32) (g2b g2c : FVec Ideal S384 .f32)
    (g0W' g0U' : FVec Ideal S128x384 .f32) (g0b' g0c' : FVec Ideal S384 .f32) (g1W' g1U' : FVec Ideal S128x384 .f32) (g1b' g1c' : FVec Ideal S384 .f32)
    (g2W' g2U' : FVec Ideal S128x384 .f32) (g2b' g2c' : FVec Ideal S384 .f32) (a0' : FVec Ideal S50000x128 .f32)
    (e0W : g0W' = g0W) (e0U : g0U' = g0U) (e0b : g0b' = g0b) (e0c : g0c' = g0c)
    (e1W : g1W' = g1W) (e1U : g1U' = g1U) (e1b : g1b' = g1b) (e1c : g1c' = g1c)
    (e2W : g2W' = g2W) (e2U : g2U' = g2U) (e2b : g2b' = g2b) (e2c : g2c' = g2c) (ea0 : a0' = a0)
    (v26 : FVec Ideal S50000x128 .f32)
    (hagg : ∀ (n : Fin 50000) (d : Fin 128), v26 (ix2 n d) = agg a0 a1 fi ti W1 b1 W2 b2 W3 b3 n d)
    (i : S50000x128.Idx) :
    gru3 g0W' g0U' g0b' g0c' g1W' g1U' g1b' g1c' g2W' g2U' g2b' g2c'
        (row a0' ⟨(i 0).val, idx2_lt0 i⟩) (row v26 ⟨(i 0).val, idx2_lt0 i⟩) ⟨(i 1).val, idx2_lt1 i⟩
      = out a0 a1 fi ti W1 b1 W2 b2 W3 b3 g0W g0U g0b g0c g1W g1U g1b g1c g2W g2U g2b g2c i := by
  subst e0W e0U e0b e0c e1W e1U e1b e1c e2W e2U e2b e2c ea0
  unfold out
  refine congrArg (fun a => gru3 g0W' g0U' g0b' g0c' g1W' g1U' g1b' g1c' g2W' g2U' g2b' g2c'
    (row a0' ⟨(i 0).val, idx2_lt0 i⟩) a ⟨(i 1).val, idx2_lt1 i⟩) ?_
  funext d
  exact hagg ⟨(i 0).val, idx2_lt0 i⟩ d

end Cert.KernelIdeal.Host
end
-- ==== Proof.MsgLayer.lean ====
import proofs.«110696_j72730976190873_2_alg».proof.Proof.Gen.KernelIdeal.Frame
import proofs.«110696_j72730976190873_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Msg

open Cert.KernelIdeal Cert.KernelIdeal.Gen
open Idealize.ShloMosaic Idealize.ShloMosaic.TcCoe Idealize.ShloMosaic.ValueIdx
open Idealize.SL.Sem
open Idealize.ShloMosaic.Pipeline (Dat)

/-! # One affine layer of the message perceptron, read at a row and a column

  A product of a block of 4096 rows with a 128 × 128 matrix, accumulated onto zero, is at row `r` and column `j` the
  sum over `k` of the row's entry `k` times the matrix's entry `(k, j)`; the bias, a vector of 128 entries laid as one
  row and repeated down the 4096 rows, is at `(r, j)` its entry `j`. -/

theorem lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product at `(r, j)`. -/
theorem matmul_at {φ ψ : FTy} (l : FVec Ideal S4096x128 φ) (w : FVec Ideal S128x128 ψ) (r : Fin 4096) (j : Fin 128) :
    matmul dot_S4096x128_S128x128_S4096x128_1_0_0_1_n_n none l w (constant S4096x128 .f32 0x00000000#32) (ix2 r j)
      = ∑ k : Fin 128, l (ix2 r k) * w (ix2 k j) := by
  refine (Ideal.matmul_constant_zero_apply dot_S4096x128_S128x128_S4096x128_1_0_0_1_n_n none l w (ix2 r j)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j) ((contrEquiv1 dot_S4096x128_S128x128_S4096x128_1_0_0_1_n_n 128 rfl rfl).symm k) = ix2 r k := funext fun a => Fin.ext (by
    match a with
    | ⟨0, _⟩ => exact lhs_0 _ _
    | ⟨1, _⟩ => exact (lhs_1 _ _).trans hk)
  have er : dot_S4096x128_S128x128_S4096x128_1_0_0_1_n_n.rhsIdx (ix2 r j) ((contrEquiv1 dot_S4096x128_S128x128_S4096x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- The bias row repeated down the block, at `(r, j)`. -/
theorem bias_at (b : Vec Ideal S128 .f32) (r : Fin 4096) (j : Fin 128) :
    broadcastTo S4096x128 (shapeCast S1x128 b shapeCasts_S128_S1x128) broadcasts_S1x128_S4096x128 (ix2 r j) = b (ix1 j) :=
  (broadcastTo_1b_ab_apply (shapeCast S1x128 b shapeCasts_S128_S1x128) broadcasts_S1x128_S4096x128 r j).trans
    (shapeCast_a_1a_apply b shapeCasts_S128_S1x128 (0 : Fin 1) j)

/-- One layer: product plus bias is `dense` of the row. -/
theorem dense_at {φ ψ : FTy} (l : FVec Ideal S4096x128 φ) (w : FVec Ideal S128x128 ψ) (b : Vec Ideal S128 .f32) (r : Fin 4096) (j : Fin 128) :
    addf (matmul dot_S4096x128_S128x128_S4096x128_1_0_0_1_n_n none l w (constant S4096x128 .f32 0x00000000#32))
        (broadcastTo S4096x128 (shapeCast S1x128 b shapeCasts_S128_S1x128) broadcasts_S1x128_S4096x128) (ix2 r j)
      = Cert.GNN.dense w b (fun k => l (ix2 r k)) j := by
  unfold Cert.GNN.dense
  exact congrArg₂ (· + ·) (matmul_at l w r j) (bias_at b r j)

end Cert.KernelIdeal.Msg

end
-- ==== Proof.MsgPayload.lean ====
import proofs.«110696_j72730976190873_2_alg».proof.Proof.MsgLayer

set_option maxRecDepth 16384

noncomputable section

namespace Cert.KernelIdeal.Msg

open Cert.KernelIdeal Cert.KernelIdeal.Gen
open Idealize.ShloMosaic Idealize.ShloMosaic.TcCoe Idealize.ShloMosaic.ValueIdx
open Idealize.SL.Sem
open Idealize.ShloMosaic.Pipeline (Dat)

open Cert.GNN (dense relu pre1Split mlpTail mlpSplit)

/-! # The message kernel's two stored blocks, read at a row and a column

  The body reads a block of 4096 edges: the rows `x` gathered at one end of each edge, the rows `y` gathered at the
  other end, the feature rows `z`; the first weight matrix in three blocks `A`, `B`, `C` of 128 rows.  It stores
  `tail (((x·A + y·B) + z·C) + b1)` and `tail (((y·A + x·B) + z·C) + b1)`, where `tail` is rectifier, second layer,
  rectifier, third layer.  Narrowing a float to fewer bits is the identity on the extended reals. -/

theorem hz2 : (![0, 0] : Fin 2 → Nat) = fun _ => 0 := funext fun a => by fin_cases a <;> rfl
theorem hz1 : (![0] : Fin 1 → Nat) = fun _ => 0 := funext fun a => by fin_cases a; rfl

/-- The first layer's pre-activation, the three blocks of the weight matrix given separately. -/
def pre1 (A B C : Cert.GNN.Arr2 128 128) (b1 : Cert.GNN.Arr1 128) (x y z : Fin 128 → EReal) (j : Fin 128) : EReal :=
  (((∑ k : Fin 128, x k * A (ix2 k j)) + (∑ k : Fin 128, y k * B (ix2 k j))) + (∑ k : Fin 128, z k * C (ix2 k j)))
    + b1 (ix1 j)

/-- A rectifier, a narrowing and one affine layer, at `(r, j)`. -/
theorem hidden_at (p : FVec Ideal S4096x128 .f32) (W : FVec Ideal S128x128 .bf16) (b : Vec Ideal S128 .f32)
    (r : Fin 4096) (j : Fin 128) :
    addf (matmul dot_S4096x128_S128x128_S4096x128_1_0_0_1_n_n none
          (truncf .bf16 (maximumf p (broadcast S4096x128 (Scalar.ofBits (F := Ideal) .f32 0x00000000#32))) bitsLt_bf16_f32) W
          (constant S4096x128 .f32 0x00000000#32))
        (broadcastTo S4096x128 (shapeCast S1x128 b shapeCasts_S128_S1x128) broadcasts_S1x128_S4096x128) (ix2 r j)
      = dense W b (fun k => relu (p (ix2 r k))) j :=
  (dense_at _ W b r j).trans rfl

/-- The reshape of a block to its own shape is the block. -/
theorem pay3_eq (v0 : Vec Ideal S4096x128 .bf16) : k0_pay3 (F := Ideal) v0 = v0 := by
  unfold k0_pay3; exact shapeCast_self v0 _
theorem pay4_eq (v2 : Vec Ideal S4096x128 .bf16) : k0_pay4 (F := Ideal) v2 = v2 := by
  unfold k0_pay4; exact shapeCast_self v2 _

/-- The feature rows times the third block. -/
theorem pay9_at (v4 : Vec Ideal S4096x128 .f32) (v11 : Vec Ideal S128x128 .f32) (r : Fin 4096) (j : Fin 128) :
    k0_pay9 (F := Ideal) v4 v11 (ix2 r j) = ∑ k : Fin 128, v4 (ix2 r k) * v11 (ix2 k j) := by
  unfold k0_pay9
  refine (matmul_at _ _ r j).trans ?_
  refine Finset.sum_congr rfl fun k _ => ?_
  exact congrArg (· * v11 (ix2 k j)) (congrFun (shapeCast_self v4 shapeCasts_S4096x128_S4096x128) (ix2 r k))

/-- The forward block's second-layer pre-activation. -/
theorem pay10_at (v0 v2 : Vec Ideal S4096x128 .bf16) (v4 : Vec Ideal S4096x128 .f32) (v7 v9 v11 : Vec Ideal S128x128 .f32)
    (v13 : Vec Ideal S128 .f32) (v14 : Vec Ideal S128x128 .f32) (v16 : Vec Ideal S128 .f32) (r : Fin 4096) (j : Fin 128) :
    k0_pay10 (F := Ideal) v0 v2 v4 v7 v9 v11 v13 v14 v16 (ix2 r j)
      = dense v14 v16 (fun k => relu (pre1 v7 v9 v11 v13 (fun a => v0 (ix2 r a)) (fun a => v2 (ix2 r a)) (fun a => v4 (ix2 r a)) k)) j := by
  unfold k0_pay10
  rw [pay3_eq, pay4_eq]
  refine (hidden_at _ (k0_pay7 v14) v16 r j).trans ?_
  refine congrArg (fun f => dense v14 v16 f j) (funext fun k => congrArg relu ?_)
  unfold pre1
  exact congrArg₂ (· + ·) (congrArg₂ (· + ·) (congrArg₂ (· + ·) (matmul_at v0 (k0_pay5 v7) r k) (matmul_at v2 (k0_pay6 v9) r k))
    (pay9_at v4 v11 r k)) (bias_at v13 r k)

/-- The forward block's third layer. -/
theorem pay1_at (v18 : FVec Ideal S128x128 .bf16) (v19 : Vec Ideal S128 .f32) (v34 : FVec Ideal S4096x128 .f32)
    (r : Fin 4096) (j : Fin 128) :
    k0_pay1 (F := Ideal) v18 v19 v34 (ix2 r j) = dense v18 v19 (fun k => relu (v34 (ix2 r k))) j := by
  unfold k0_pay1
  exact hidden_at v34 v18 v19 r j

/-- The reverse block, all three layers. -/
theorem pay2_at (v1 v3 : FVec Ideal S4096x128 .bf16) (v8 v10 : FVec Ideal S128x128 .bf16) (v13 : Vec Ideal S128 .f32)
    (v15 : FVec Ideal S128x128 .bf16) (v16 : Vec Ideal S128 .f32) (v18 : FVec Ideal S128x128 .bf16) (v19 : Vec Ideal S128 .f32)
    (v20 : FVec Ideal S4096x128 .f32) (r : Fin 4096) (j : Fin 128) :
    k0_pay2 (F := Ideal) v1 v3 v8 v10 v13 v15 v16 v18 v19 v20 (ix2 r j)
      = mlpTail v15 v16 v18 v19 (fun k => (((∑ a : Fin 128, v3 (ix2 r a) * v8 (ix2 a k)) + (∑ a : Fin 128, v1 (ix2 r a) * v10 (ix2 a k)))
          + v20 (ix2 r k)) + v13 (ix1 k)) j := by
  unfold k0_pay2 mlpTail
  refine (hidden_at _ v18 v19 r j).trans ?_
  refine congrArg (fun f => dense v18 v19 f j) (funext fun k => congrArg relu ?_)
  refine (hidden_at _ v15 v16 r k).trans ?_
  refine congrArg (fun f => dense v15 v16 f k) (funext fun k' => congrArg relu ?_)
  exact congrArg₂ (· + ·) (congrArg₂ (· + ·) (congrArg₂ (· + ·) (matmul_at v3 v8 r k') (matmul_at v1 v10 r k')) rfl) (bias_at v13 r k')

/-! ## The three blocks of the first weight matrix -/

theorem blockA_at (W1 : Vec Ideal S384x128 .f32) (k j : Fin 128) :
    View.ld W1 r0_1 (ix2 k j) = W1 (ix2 (⟨k.val, by omega⟩ : Fin 384) j) :=
  congrArg W1 (funext fun a => Fin.ext (by
    match a with
    | ⟨0, _⟩ => show 0 + 1 * k.val = k.val; omega
    | ⟨1, _⟩ => show 0 + 1 * j.val = j.val; omega))
theorem blockB_at (W1 : Vec Ideal S384x128 .f32) (k j : Fin 128) :
    View.ld W1 r0_2 (ix2 k j) = W1 (ix2 (⟨128 + k.val, by omega⟩ : Fin 384) j) :=
  congrArg W1 (funext fun a => Fin.ext (by
    match a with
    | ⟨0, _⟩ => show 128 + 1 * k.val = 128 + k.val; omega
    | ⟨1, _⟩ => show 0 + 1 * j.val = j.val; omega))
theorem blockC_at (W1 : Vec Ideal S384x128 .f32) (k j : Fin 128) :
    View.ld W1 r0_3 (ix2 k j) = W1 (ix2 (⟨256 + k.val, by omega⟩ : Fin 384) j) :=
  congrArg W1 (funext fun a => Fin.ext (by
    match a with
    | ⟨0, _⟩ => show 256 + 1 * k.val = 256 + k.val; omega
    | ⟨1, _⟩ => show 0 + 1 * j.val = j.val; omega))

/-- With the blocks read off the whole matrix, the pre-activation is the specification's. -/
theorem pre1_blocks (W1 : Vec Ideal S384x128 .f32) (b1 : Vec Ideal S128 .f32) (x y z : Fin 128 → EReal) (j : Fin 128) :
    pre1 (View.ld W1 r0_1) (View.ld W1 r0_2) (View.ld W1 r0_3) b1 x y z j = pre1Split W1 b1 x y z j := by
  unfold pre1 pre1Split
  exact congrArg₂ (· + ·) (congrArg₂ (· + ·) (congrArg₂ (· + ·)
      (Finset.sum_congr rfl fun k _ => congrArg (x k * ·) (blockA_at W1 k j))
      (Finset.sum_congr rfl fun k _ => congrArg (y k * ·) (blockB_at W1 k j)))
    (Finset.sum_congr rfl fun k _ => congrArg (z k * ·) (blockC_at W1 k j))) rfl

/-! ## The two stored blocks -/

/-- The first stored block holds the messages computed with the first gathered rows first. -/
theorem out9_at (x0 x1 : Vec Ideal S4096x128 .bf16) (x2 : Vec Ideal S4096x128 .f32) (x3 : Vec Ideal S384x128 .f32)
    (x4 : Vec Ideal S128 .f32) (x5 : Vec Ideal S128x128 .f32) (x6 : Vec Ideal S128 .f32) (x7 : Vec Ideal S128x128 .f32)
    (x8 : Vec Ideal S128 .f32) (r : Fin 4096) (j : Fin 128) :
    out0_9 (F := Ideal) x0 x1 x2 x3 x4 x5 x6 x7 x8 (ix2 r j)
      = mlpSplit x3 x4 x5 x6 x7 x8 (fun k => x0 (ix2 r k)) (fun k => x1 (ix2 r k)) (fun k => x2 (ix2 r k)) j := by
  unfold out0_9
  rw [View.canon_unit_zero hz2]
  simp only [View.ld_unit_zero (S := S4096x128) hz2, View.ld_unit_zero (S := S128x128) hz2, View.ld_unit_zero (S := S128) hz1]
  refine (pay1_at _ x8 _ r j).trans ?_
  unfold mlpSplit mlpTail
  refine congrArg (fun f => dense x7 x8 f j) (funext fun k => congrArg relu ?_)
  refine (pay10_at x0 x1 x2 _ _ _ x4 x5 x6 r k).trans ?_
  refine congrArg (fun f => dense x5 x6 f k) (funext fun k' => congrArg relu ?_)
  exact pre1_blocks x3 x4 _ _ _ k'

/-- The second stored block holds the messages computed with the second gathered rows first. -/
theorem out10_at (x0 x1 : Vec Ideal S4096x128 .bf16) (x2 : Vec Ideal S4096x128 .f32) (x3 : Vec Ideal S384x128 .f32)
    (x4 : Vec Ideal S128 .f32) (x5 : Vec Ideal S128x128 .f32) (x6 : Vec Ideal S128 .f32) (x7 : Vec Ideal S128x128 .f32)
    (x8 : Vec Ideal S128 .f32) (r : Fin 4096) (j : Fin 128) :
    out0_10 (F := Ideal) x0 x1 x2 x3 x4 x5 x6 x7 x8 (ix2 r j)
      = mlpSplit x3 x4 x5 x6 x7 x8 (fun k => x1 (ix2 r k)) (fun k => x0 (ix2 r k)) (fun k => x2 (ix2 r k)) j := by
  unfold out0_10
  rw [View.canon_unit_zero hz2]
  simp only [View.ld_unit_zero (S := S4096x128) hz2, View.ld_unit_zero (S := S128x128) hz2, View.ld_unit_zero (S := S128) hz1,
    pay3_eq, pay4_eq]
  refine (pay2_at x0 x1 _ _ x4 _ x6 _ x8 _ r j).trans ?_
  unfold mlpSplit
  refine congrArg (fun f => mlpTail x5 x6 x7 x8 f j) (funext fun k => ?_)
  refine Eq.trans ?_ (pre1_blocks x3 x4 _ _ _ k)
  unfold pre1
  exact congrArg (· + x4 (ix1 k)) (congrArg (_ + ·) (pay9_at x2 _ r k))

end Cert.KernelIdeal.Msg

end
-- ==== Proof.MsgBlocks.lean ====
import proofs.«110696_j72730976190873_2_alg».proof.Proof.MsgPayload

set_option maxRecDepth 16384

noncomputable section

namespace Cert.KernelIdeal.Msg

open Cert.KernelIdeal Cert.KernelIdeal.Gen
open Idealize.ShloMosaic Idealize.ShloMosaic.TcCoe Idealize.ShloMosaic.ValueIdx
open Idealize.SL.Sem
open Idealize.ShloMosaic.Pipeline (Dat)

open Cert.GNN (mlpSplit row Arr2 Arr1)

/-! # From the blocks to the arrays: the message kernel's two results

  The grid has 123 points; point `t` reads rows `4096·t … 4096·t + 4095` of the three edge arrays and the six weight
  arrays whole, and writes rows `4096·t … 4096·t + 4095` of the two result arrays.  Since `123 · 4096 = 503808` every
  row is written, by point `row / 4096`; so each result array ends holding, row by row, the perceptron of the
  corresponding rows of the edge arrays. -/

variable (V : (c : Dev nD) → (b : Ref sig .tc) → Buf (Elt Ideal) ((c : Thread nD τ).loc b))

/-! ## The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)

theorem point_lt (t : Fin cfg0.N) : t.val < 123 := lt_of_lt_of_eq t.isLt Gen.N_0

/-! ## The blocks the body reads -/

/-- Window 3's block is its whole array at every point. -/
theorem iblk3 (c : Dev nD) (t : Fin cfg0.N) : (Gen.iblk0 (F := Ideal) V c 3 t : Vec Ideal S384x128 .f32) = V c main_arg5 := by
  funext y
  show V c main_arg5 (((cfg0.win 3).blk t).view.emb y) = V c main_arg5 y
  refine congrArg (V c main_arg5) (funext fun a => Fin.ext ?_)
  have e := idx3 t
  match a with
  | ⟨0, _⟩ => show win0_3.index t (0 : Fin 2) * 384 + 1 * (y 0).val = (y 0).val; rw [e.1]; omega
  | ⟨1, _⟩ => show win0_3.index t (1 : Fin 2) * 128 + 1 * (y 1).val = (y 1).val; rw [e.2]; omega
/-- Window 4's block is its whole array at every point. -/
theorem iblk4 (c : Dev nD) (t : Fin cfg0.N) : (Gen.iblk0 (F := Ideal) V c 4 t : Vec Ideal S128 .f32) = V c main_arg6 := by
  funext y
  show V c main_arg6 (((cfg0.win 4).blk t).view.emb y) = V c main_arg6 y
  refine congrArg (V c main_arg6) (funext fun a => Fin.ext ?_)
  have e := idx4 t
  match a with
  | ⟨0, _⟩ => show win0_4.index t (0 : Fin 1) * 128 + 1 * (y 0).val = (y 0).val; rw [e]; omega
/-- Window 5's block is its whole array at every point. -/
theorem iblk5 (c : Dev nD) (t : Fin cfg0.N) : (Gen.iblk0 (F := Ideal) V c 5 t : Vec Ideal S128x128 .f32) = V c main_arg7 := by
  funext y
  show V c main_arg7 (((cfg0.win 5).blk t).view.emb y) = V c main_arg7 y
  refine congrArg (V c main_arg7) (funext fun a => Fin.ext ?_)
  have e := idx5 t
  match a with
  | ⟨0, _⟩ => show win0_5.index t (0 : Fin 2) * 128 + 1 * (y 0).val = (y 0).val; rw [e.1]; omega
  | ⟨1, _⟩ => show win0_5.index t (1 : Fin 2) * 128 + 1 * (y 1).val = (y 1).val; rw [e.2]; omega
/-- Window 6's block is its whole array at every point. -/
theorem iblk6 (c : Dev nD) (t : Fin cfg0.N) : (Gen.iblk0 (F := Ideal) V c 6 t : Vec Ideal S128 .f32) = V c main_arg8 := by
  funext y
  show V c main_arg8 (((cfg0.win 6).blk t).view.emb y) = V c main_arg8 y
  refine congrArg (V c main_arg8) (funext fun a => Fin.ext ?_)
  have e := idx6 t
  match a with
  | ⟨0, _⟩ => show win0_6.index t (0 : Fin 1) * 128 + 1 * (y 0).val = (y 0).val; rw [e]; omega
/-- Window 7's block is its whole array at every point. -/
theorem iblk7 (c : Dev nD) (t : Fin cfg0.N) : (Gen.iblk0 (F := Ideal) V c 7 t : Vec Ideal S128x128 .f32) = V c main_arg9 := by
  funext y
  show V c main_arg9 (((cfg0.win 7).blk t).view.emb y) = V c main_arg9 y
  refine congrArg (V c main_arg9) (funext fun a => Fin.ext ?_)
  have e := idx7 t
  match a with
  | ⟨0, _⟩ => show win0_7.index t (0 : Fin 2) * 128 + 1 * (y 0).val = (y 0).val; rw [e.1]; omega
  | ⟨1, _⟩ => show win0_7.index t (1 : Fin 2) * 128 + 1 * (y 1).val = (y 1).val; rw [e.2]; omega
/-- Window 8's block is its whole array at every point. -/
theorem iblk8 (c : Dev nD) (t : Fin cfg0.N) : (Gen.iblk0 (F := Ideal) V c 8 t : Vec Ideal S128 .f32) = V c main_arg10 := by
  funext y
  show V c main_arg10 (((cfg0.win 8).blk t).view.emb y) = V c main_arg10 y
  refine congrArg (V c main_arg10) (funext fun a => Fin.ext ?_)
  have e := idx8 t
  match a with
  | ⟨0, _⟩ => show win0_8.index t (0 : Fin 1) * 128 + 1 * (y 0).val = (y 0).val; rw [e]; omega

/-- Row `r` of window 0's block at point `t` is row `4096·t + r` of its array. -/
theorem iblk0_at (c : Dev nD) (t : Fin cfg0.N) (r : Fin 4096) (k : Fin 128) (q : Fin 503808) (hq : q.val = t.val * 4096 + r.val) :
    (Gen.iblk0 (F := Ideal) V c 0 t : Vec Ideal S4096x128 .bf16) (ix2 r k) = (V c main_v12 : S503808x128.Idx → EReal) (ix2 q k) := by
  show V c main_v12 (((cfg0.win 0).blk t).view.emb (ix2 r k)) = _
  refine congrArg (V c main_v12) (funext fun a => Fin.ext ?_)
  have e := idx0 t
  match a with
  | ⟨0, _⟩ => show win0_0.index t (0 : Fin 2) * 4096 + 1 * r.val = q.val; rw [e.1, hq]; omega
  | ⟨1, _⟩ => show win0_0.index t (1 : Fin 2) * 128 + 1 * k.val = k.val; rw [e.2]; omega
/-- Row `r` of window 1's block at point `t` is row `4096·t + r` of its array. -/
theorem iblk1_at (c : Dev nD) (t : Fin cfg0.N) (r : Fin 4096) (k : Fin 128) (q : Fin 503808) (hq : q.val = t.val * 4096 + r.val) :
    (Gen.iblk0 (F := Ideal) V c 1 t : Vec Ideal S4096x128 .bf16) (ix2 r k) = (V c main_v19 : S503808x128.Idx → EReal) (ix2 q k) := by
  show V c main_v19 (((cfg0.win 1).blk t).view.emb (ix2 r k)) = _
  refine congrArg (V c main_v19) (funext fun a => Fin.ext ?_)
  have e := idx1 t
  match a with
  | ⟨0, _⟩ => show win0_1.index t (0 : Fin 2) * 4096 + 1 * r.val = q.val; rw [e.1, hq]; omega
  | ⟨1, _⟩ => show win0_1.index t (1 : Fin 2) * 128 + 1 * k.val = k.val; rw [e.2]; omega
/-- Row `r` of window 2's block at point `t` is row `4096·t + r` of its array. -/
theorem iblk2_at (c : Dev nD) (t : Fin cfg0.N) (r : Fin 4096) (k : Fin 128) (q : Fin 503808) (hq : q.val = t.val * 4096 + r.val) :
    (Gen.iblk0 (F := Ideal) V c 2 t : Vec Ideal S4096x128 .f32) (ix2 r k) = (V c main_v4 : S503808x128.Idx → EReal) (ix2 q k) := by
  show V c main_v4 (((cfg0.win 2).blk t).view.emb (ix2 r k)) = _
  refine congrArg (V c main_v4) (funext fun a => Fin.ext ?_)
  have e := idx2 t
  match a with
  | ⟨0, _⟩ => show win0_2.index t (0 : Fin 2) * 4096 + 1 * r.val = q.val; rw [e.1, hq]; omega
  | ⟨1, _⟩ => show win0_2.index t (1 : Fin 2) * 128 + 1 * k.val = k.val; rw [e.2]; omega

/-! ## The two arrays -/

/-- Row by row: the perceptron of the rows of `X`, `Y` and `Z`. -/
abbrev msgs (W1 : Arr2 384 128) (b1 : Arr1 128) (W2 : Arr2 128 128) (b2 : Arr1 128) (W3 : Arr2 128 128) (b3 : Arr1 128)
    (X Y Z : Arr2 503808 128) : S503808x128.Idx → EReal := fun i =>
  mlpSplit W1 b1 W2 b2 W3 b3 (row X ⟨(i 0).val, idx2_lt0 i⟩) (row Y ⟨(i 0).val, idx2_lt0 i⟩) (row Z ⟨(i 0).val, idx2_lt0 i⟩)
    ⟨(i 1).val, idx2_lt1 i⟩

theorem mlpSplit_congr {W1 W1' : Arr2 384 128} {b1 b1' : Arr1 128} {W2 W2' : Arr2 128 128} {b2 b2' : Arr1 128}
    {W3 W3' : Arr2 128 128} {b3 b3' : Arr1 128} {x x' y y' z z' : Fin 128 → EReal} {j j' : Fin 128}
    (h1 : W1 = W1') (h2 : b1 = b1') (h3 : W2 = W2') (h4 : b2 = b2') (h5 : W3 = W3') (h6 : b3 = b3')
    (hx : x = x') (hy : y = y') (hz : z = z') (hj : j = j') :
    mlpSplit W1 b1 W2 b2 W3 b3 x y z j = mlpSplit W1' b1' W2' b2' W3' b3' x' y' z' j' := by
  subst h1 h2 h3 h4 h5 h6 hx hy hz hj; rfl

/-- What point `t` leaves in window 9's buffer, at row `r` and column `j`, is the array of messages at that element's place. -/
theorem point9 (c : Dev nD) (t : Fin cfg0.N) (r : Fin 4096) (j : Fin 128) :
    Gen.out0_9 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) (ix2 r j)
      = msgs (V c main_arg5) (V c main_arg6) (V c main_arg7) (V c main_arg8) (V c main_arg9) (V c main_arg10)
          (V c main_v12) (V c main_v19) (V c main_v4) (((cfg0.win 9).blk t).view.emb (ix2 r j)) := by
  have e := idx9 t
  have h0 : ((((cfg0.win 9).blk t).view.emb (ix2 r j)) 0).val = t.val * 4096 + r.val := by
    show win0_9.index t (0 : Fin 2) * 4096 + 1 * r.val = _; rw [e.1]; omega
  have h1 : ((((cfg0.win 9).blk t).view.emb (ix2 r j)) 1).val = j.val := by
    show win0_9.index t (1 : Fin 2) * 128 + 1 * j.val = _; rw [e.2]; omega
  refine (out9_at (Gen.iblk0 V c 0 t) (Gen.iblk0 V c 1 t) (Gen.iblk0 V c 2 t) (Gen.iblk0 V c 3 t) (Gen.iblk0 V c 4 t)
    (Gen.iblk0 V c 5 t) (Gen.iblk0 V c 6 t) (Gen.iblk0 V c 7 t) (Gen.iblk0 V c 8 t) r j).trans ?_
  exact mlpSplit_congr (iblk3 V c t) (iblk4 V c t) (iblk5 V c t) (iblk6 V c t) (iblk7 V c t) (iblk8 V c t)
    (funext fun k => iblk0_at V c t r k _ h0) (funext fun k => iblk1_at V c t r k _ h0) (funext fun k => iblk2_at V c t r k _ h0)
    (Fin.ext h1.symm)

theorem point9' (c : Dev nD) (t : Fin cfg0.N) (y : S4096x128.Idx) :
    Gen.out0_9 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) y
      = msgs (V c main_arg5) (V c main_arg6) (V c main_arg7) (V c main_arg8) (V c main_arg9) (V c main_arg10)
          (V c main_v12) (V c main_v19) (V c main_v4) (((cfg0.win 9).blk t).view.emb y) := by
  obtain ⟨r, j, rfl⟩ : ∃ (r : Fin 4096) (j : Fin 128), y = ix2 r j := ⟨y 0, y 1, eq_ix2 y⟩
  exact point9 V c t r j

/-- What point `t` writes back to result array one is its block of the array of messages. -/
theorem flushed9 (c : Dev nD) (t : Fin cfg0.N) :
    (Gen.dat0 (F := Ideal) V c).flushed 9 t = ((cfg0.win 9).blk t).view.read (Elt Ideal)
      (msgs (V c main_arg5) (V c main_arg6) (V c main_arg7) (V c main_arg8) (V c main_arg9) (V c main_arg10)
          (V c main_v12) (V c main_v19) (V c main_v4)) := by
  show (cfg0.win 9).cut (grid0.coords t) ((Gen.dat0 (F := Ideal) V c).after 9 t) = _
  rw [Gen.after0_9]
  funext y
  exact point9' V c t y

/-- An index is in point `t`'s block of window 9 iff each coordinate is in the block's range. -/
theorem mem_blk9 (t : Fin cfg0.N) (i : S503808x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v20_0).slice (win0_9.rect t)).set ↔ _
  rw [View.set_slice_whole, Rect.mem_set_unit]
  exact Iff.rfl

/-- Every row is written: row `n` by point `n / 4096`. -/
theorem cover9 (i : S503808x128.Idx) :
    ∃ t : Fin cfg0.N, (cfg0.win 9).flush t = true ∧ i ∈ ((cfg0.win 9).blk t).view.set := by
  have hi0 : (i 0).val < 503808 := (i 0).isLt
  have hi1 : (i 1).val < 128 := (i 1).isLt
  obtain ⟨t, ht⟩ : ∃ t : Fin cfg0.N, t.val = (i 0).val / 4096 :=
    ⟨⟨(i 0).val / 4096, lt_of_lt_of_eq (show (i 0).val / 4096 < 123 by omega) Gen.N_0.symm⟩, rfl⟩
  have e := idx9 t
  refine ⟨t, Gen.flush0_9 t, ?_⟩
  rw [mem_blk9]
  intro a
  match a with
  | ⟨0, _⟩ => show win0_9.index t (0 : Fin 2) * 4096 ≤ (i 0).val ∧ (i 0).val < win0_9.index t (0 : Fin 2) * 4096 + 4096; rw [e.1, ht]; omega
  | ⟨1, _⟩ => show win0_9.index t (1 : Fin 2) * 128 ≤ (i 1).val ∧ (i 1).val < win0_9.index t (1 : Fin 2) * 128 + 128; rw [e.2]; omega

/-- What point `t` leaves in window 10's buffer, at row `r` and column `j`, is the array of messages at that element's place. -/
theorem point10 (c : Dev nD) (t : Fin cfg0.N) (r : Fin 4096) (j : Fin 128) :
    Gen.out0_10 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) (ix2 r j)
      = msgs (V c main_arg5) (V c main_arg6) (V c main_arg7) (V c main_arg8) (V c main_arg9) (V c main_arg10)
          (V c main_v19) (V c main_v12) (V c main_v4) (((cfg0.win 10).blk t).view.emb (ix2 r j)) := by
  have e := idx10 t
  have h0 : ((((cfg0.win 10).blk t).view.emb (ix2 r j)) 0).val = t.val * 4096 + r.val := by
    show win0_10.index t (0 : Fin 2) * 4096 + 1 * r.val = _; rw [e.1]; omega
  have h1 : ((((cfg0.win 10).blk t).view.emb (ix2 r j)) 1).val = j.val := by
    show win0_10.index t (1 : Fin 2) * 128 + 1 * j.val = _; rw [e.2]; omega
  refine (out10_at (Gen.iblk0 V c 0 t) (Gen.iblk0 V c 1 t) (Gen.iblk0 V c 2 t) (Gen.iblk0 V c 3 t) (Gen.iblk0 V c 4 t)
    (Gen.iblk0 V c 5 t) (Gen.iblk0 V c 6 t) (Gen.iblk0 V c 7 t) (Gen.iblk0 V c 8 t) r j).trans ?_
  exact mlpSplit_congr (iblk3 V c t) (iblk4 V c t) (iblk5 V c t) (iblk6 V c t) (iblk7 V c t) (iblk8 V c t)
    (funext fun k => iblk1_at V c t r k _ h0) (funext fun k => iblk0_at V c t r k _ h0) (funext fun k => iblk2_at V c t r k _ h0)
    (Fin.ext h1.symm)

theorem point10' (c : Dev nD) (t : Fin cfg0.N) (y : S4096x128.Idx) :
    Gen.out0_10 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) y
      = msgs (V c main_arg5) (V c main_arg6) (V c main_arg7) (V c main_arg8) (V c main_arg9) (V c main_arg10)
          (V c main_v19) (V c main_v12) (V c main_v4) (((cfg0.win 10).blk t).view.emb y) := by
  obtain ⟨r, j, rfl⟩ : ∃ (r : Fin 4096) (j : Fin 128), y = ix2 r j := ⟨y 0, y 1, eq_ix2 y⟩
  exact point10 V c t r j

/-- What point `t` writes back to result array two is its block of the array of messages. -/
theorem flushed10 (c : Dev nD) (t : Fin cfg0.N) :
    (Gen.dat0 (F := Ideal) V c).flushed 10 t = ((cfg0.win 10).blk t).view.read (Elt Ideal)
      (msgs (V c main_arg5) (V c main_arg6) (V c main_arg7) (V c main_arg8) (V c main_arg9) (V c main_arg10)
          (V c main_v19) (V c main_v12) (V c main_v4)) := by
  show (cfg0.win 10).cut (grid0.coords t) ((Gen.dat0 (F := Ideal) V c).after 10 t) = _
  rw [Gen.after0_10]
  funext y
  exact point10' V c t y

/-- An index is in point `t`'s block of window 10 iff each coordinate is in the block's range. -/
theorem mem_blk10 (t : Fin cfg0.N) (i : S503808x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v20_1).slice (win0_10.rect t)).set ↔ _
  rw [View.set_slice_whole, Rect.mem_set_unit]
  exact Iff.rfl

/-- Every row is written: row `n` by point `n / 4096`. -/
theorem cover10 (i : S503808x128.Idx) :
    ∃ t : Fin cfg0.N, (cfg0.win 10).flush t = true ∧ i ∈ ((cfg0.win 10).blk t).view.set := by
  have hi0 : (i 0).val < 503808 := (i 0).isLt
  have hi1 : (i 1).val < 128 := (i 1).isLt
  obtain ⟨t, ht⟩ : ∃ t : Fin cfg0.N, t.val = (i 0).val / 4096 :=
    ⟨⟨(i 0).val / 4096, lt_of_lt_of_eq (show (i 0).val / 4096 < 123 by omega) Gen.N_0.symm⟩, rfl⟩
  have e := idx10 t
  refine ⟨t, Gen.flush0_10 t, ?_⟩
  rw [mem_blk10]
  intro a
  match a with
  | ⟨0, _⟩ => show win0_10.index t (0 : Fin 2) * 4096 ≤ (i 0).val ∧ (i 0).val < win0_10.index t (0 : Fin 2) * 4096 + 4096; rw [e.1, ht]; omega
  | ⟨1, _⟩ => show win0_10.index t (1 : Fin 2) * 128 ≤ (i 1).val ∧ (i 1).val < win0_10.index t (1 : Fin 2) * 128 + 128; rw [e.2]; omega

/-- Result array one after the region: the messages with the first gathered rows first. -/
theorem arr9 (c : Dev nD) : (Gen.dat0 (F := Ideal) V c).arrAt 9 cfg0.N = fun i : S503808x128.Idx =>
    Cert.GNN.mlpSplit (V c main_arg5) (V c main_arg6) (V c main_arg7) (V c main_arg8) (V c main_arg9) (V c main_arg10)
      (Cert.GNN.row (V c main_v12) ⟨(i 0).val, idx2_lt0 i⟩) (Cert.GNN.row (V c main_v19) ⟨(i 0).val, idx2_lt0 i⟩)
      (Cert.GNN.row (V c main_v4) ⟨(i 0).val, idx2_lt0 i⟩) ⟨(i 1).val, idx2_lt1 i⟩ :=
  (Gen.dat0 (F := Ideal) V c).arrAt_eq_of_cover 9 _ (fun t _ => flushed9 V c t) cover9

/-- Result array two after the region: the messages with the second gathered rows first. -/
theorem arr10 (c : Dev nD) : (Gen.dat0 (F := Ideal) V c).arrAt 10 cfg0.N = fun i : S503808x128.Idx =>
    Cert.GNN.mlpSplit (V c main_arg5) (V c main_arg6) (V c main_arg7) (V c main_arg8) (V c main_arg9) (V c main_arg10)
      (Cert.GNN.row (V c main_v19) ⟨(i 0).val, idx2_lt0 i⟩) (Cert.GNN.row (V c main_v12) ⟨(i 0).val, idx2_lt0 i⟩)
      (Cert.GNN.row (V c main_v4) ⟨(i 0).val, idx2_lt0 i⟩) ⟨(i 1).val, idx2_lt1 i⟩ :=
  (Gen.dat0 (F := Ideal) V c).arrAt_eq_of_cover 10 _ (fun t _ => flushed10 V c t) cover10

end Cert.KernelIdeal.Msg

end
-- ==== Proof.GruCell.lean ====
/-
  One gated recurrent cell of the node-update kernel, read at one entry.

  The kernel computes, for a block of 2000 node rows at once, two affine maps into 384 columns (the input row times
  a gate matrix plus a bias, the state row times a second gate matrix plus a second bias), cuts each into three
  bands of 128 columns (reset, update, candidate) and combines them entry by entry.  Read at row r and column j
  this is the cell of the specification on row r of the two operands.
-/
import proofs.«110696_j72730976190873_2_alg».proof.Proof.Gen.KernelIdeal.Frame
import proofs.«110696_j72730976190873_2_alg».proof.Proof.Spec
import Idealize.ShloMosaic.Lib.Pipeline.Value
import Idealize.ShloMosaic.Lib.ValueLayout

noncomputable section

namespace Cert.KernelIdeal.Gru

open Idealize.ShloMosaic Idealize.ShloMosaic.ValueIdx Cert.KernelIdeal Cert.KernelIdeal.Facts₀

/-- The product's left operand index at (i, q): row from the result index, -/
theorem lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl
/-- column the contraction index; -/
theorem lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- the right operand's row the contraction index, -/
theorem rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- column from the result index. -/
theorem rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- A product of a block of rows with a gate matrix into a zero accumulator, plus the bias laid over every row,
    read at row r and column k: the affine layer of the specification on row r. -/
theorem pre_apply (xb : FVec Ideal S2000x128 .bf16) (Wb : FVec Ideal S128x384 .bf16) (b : Vec Ideal S384 .f32)
    (r : Fin 2000) (k : Fin 384) :
    addf (matmul dot_S2000x128_S128x384_S2000x384_1_0_0_1_n_n none xb Wb (constant S2000x384 .f32 0x00000000#32))
        (broadcastTo S2000x384 (shapeCast S1x384 b shapeCasts_S384_S1x384) broadcasts_S1x384_S2000x384) (ix2 r k)
      = Cert.GNN.dense Wb b (fun k' => xb (ix2 r k')) k := by
  rw [addf_apply, broadcastTo_1b_ab_apply, shapeCast_a_1a_apply]
  unfold Cert.GNN.dense
  refine congrArg (· + b (ix1 k)) ?_
  refine (Ideal.matmul_constant_zero_apply dot_S2000x128_S128x384_S2000x384_1_0_0_1_n_n none xb Wb (ix2 r k)).trans ?_
  rw [← Equiv.sum_comp (contrEquiv1 dot_S2000x128_S128x384_S2000x384_1_0_0_1_n_n 128 rfl rfl).symm]
  refine Finset.sum_congr rfl fun q _ => ?_
  have hq := contrEquiv1_symm_val dot_S2000x128_S128x384_S2000x384_1_0_0_1_n_n 128 rfl rfl q
  have el : dot_S2000x128_S128x384_S2000x384_1_0_0_1_n_n.lhsIdx (ix2 r k)
      ((contrEquiv1 dot_S2000x128_S128x384_S2000x384_1_0_0_1_n_n 128 rfl rfl).symm q) = ix2 r q :=
    funext fun a => Fin.ext (by
      match a with
      | ⟨0, _⟩ => exact lhs_0 _ _
      | ⟨1, _⟩ => exact (lhs_1 _ _).trans hq)
  have er : dot_S2000x128_S128x384_S2000x384_1_0_0_1_n_n.rhsIdx (ix2 r k)
      ((contrEquiv1 dot_S2000x128_S128x384_S2000x384_1_0_0_1_n_n 128 rfl rfl).symm q) = ix2 q k :=
    funext fun a => Fin.ext (by
      match a with
      | ⟨0, _⟩ => exact (rhs_0 _ _).trans hq
      | ⟨1, _⟩ => exact rhs_1 _ _)
  rw [el, er]

/-- The three bands combined, read at row r and column j: with the two affine maps known on row r, the reset
    gate, the update gate, the candidate and the new state are those of the specification's cell. -/
theorem pay1_apply (h : FVec Ideal S2000x128 .f32) (gi gh : FVec Ideal S2000x384 .f32) (s0 s1 : FVec Ideal S2000x128 .f32)
    (W U : Cert.GNN.Arr2 128 384) (b c : Cert.GNN.Arr1 384) (xr hr : Fin 128 → EReal) (r : Fin 2000) (j : Fin 128)
    (hgi : ∀ k : Fin 384, gi (ix2 r k) = Cert.GNN.dense W b xr k)
    (hgh : ∀ k : Fin 384, gh (ix2 r k) = Cert.GNN.dense U c hr k)
    (hs0 : s0 (ix2 r j) = gi (ix2 r ⟨j.val, by omega⟩))
    (hs1 : s1 (ix2 r j) = gi (ix2 r ⟨128 + j.val, by omega⟩))
    (hh : h (ix2 r j) = hr j) :
    Gen.k1_pay1 h gi gh s0 s1 (ix2 r j) = Cert.GNN.gru W U b c xr hr j := by
  show (Cert.GNN.oneF - Ideal.logistic (s1 (ix2 r j)
          + extractStridedSlice S2000x128 ![0, 128] gh slices_S2000x384_o0_128_S2000x128 (ix2 r j)))
        * Ideal.tanh (extractStridedSlice S2000x128 ![0, 256] gi slices_S2000x384_o0_256_S2000x128 (ix2 r j)
          + Ideal.logistic (s0 (ix2 r j) + extractStridedSlice S2000x128 ![0, 0] gh slices_S2000x384_o0_0_S2000x128 (ix2 r j))
            * extractStridedSlice S2000x128 ![0, 256] gh slices_S2000x384_o0_256_S2000x128 (ix2 r j))
      + Ideal.logistic (s1 (ix2 r j)
          + extractStridedSlice S2000x128 ![0, 128] gh slices_S2000x384_o0_128_S2000x128 (ix2 r j)) * h (ix2 r j) = _
  rw [slice2_axis1_apply 0 gh slices_S2000x384_o0_0_S2000x128 r j ⟨j.val, by omega⟩ (Nat.zero_add _).symm,
    slice2_axis1_apply 128 gh slices_S2000x384_o0_128_S2000x128 r j ⟨128 + j.val, by omega⟩ rfl,
    slice2_axis1_apply 256 gh slices_S2000x384_o0_256_S2000x128 r j ⟨256 + j.val, by omega⟩ rfl,
    slice2_axis1_apply 256 gi slices_S2000x384_o0_256_S2000x128 r j ⟨256 + j.val, by omega⟩ rfl,
    hs0, hs1, hh, hgi, hgi, hgi, hgh, hgh, hgh]
  rfl

end Cert.KernelIdeal.Gru

end
-- ==== Proof.GruPayload.lean ====
/-
  The node-update kernel's body on a block of 2000 rows, read at one entry: three gated recurrent cells in
  sequence.  The first takes the node rows as input and the aggregated message rows as state; the second takes
  the message rows as input and the first cell's rows as state; the third takes the first cell's rows as input
  and the second cell's rows as state.  Every cell works row by row, so the entry at row r and column j depends
  only on row r of the two operand blocks.
-/
import proofs.«110696_j72730976190873_2_alg».proof.Proof.GruCell

noncomputable section

namespace Cert.KernelIdeal.Gru

open Idealize.ShloMosaic Idealize.ShloMosaic.ValueIdx Cert.KernelIdeal Cert.KernelIdeal.Facts₀

theorem zero2 : (![0, 0] : Fin 2 → Nat) = fun _ => 0 := funext fun a => by fin_cases a <;> rfl
theorem zero1 : (![0] : Fin 1 → Nat) = fun _ => 0 := funext fun a => by fin_cases a <;> rfl

/-- The first cell: input the node rows, state the message rows. -/
theorem cell1_apply (v0 v1 : Vec Ideal S2000x128 .f32) (v5 v7 : Vec Ideal S128x384 .f32) (v10 v15 : Vec Ideal S384 .f32)
    (r : Fin 2000) (j : Fin 128) :
    Gen.k1_pay3 v0 v1 v5 v7 v10 v15 (ix2 r j)
      = Cert.GNN.gru v5 v7 v10 v15 (fun k => v0 (ix2 r k)) (fun k => v1 (ix2 r k)) j := by
  have hself : ∀ i, Gen.k1_pay2 v1 i = v1 i := fun i =>
    congrFun (shapeCast_self v1 shapeCasts_S2000x128_S2000x128) i
  exact pay1_apply (Gen.k1_pay2 v1) _ _ _ _ v5 v7 v10 v15 (fun k => v0 (ix2 r k)) (fun k => v1 (ix2 r k)) r j
    (fun k => pre_apply (truncf .bf16 v0 bitsLt_bf16_f32) (truncf .bf16 v5 bitsLt_bf16_f32) v10 r k)
    (fun k => (pre_apply (truncf .bf16 (Gen.k1_pay2 v1) bitsLt_bf16_f32) (truncf .bf16 v7 bitsLt_bf16_f32) v15 r k).trans
      (by simp only [truncf_apply, hself]; rfl))
    (slice2_axis1_apply 0 _ slices_S2000x384_o0_0_S2000x128 r j ⟨j.val, by omega⟩ (Nat.zero_add _).symm)
    (slice2_axis1_apply 128 _ slices_S2000x384_o0_128_S2000x128 r j ⟨128 + j.val, by omega⟩ rfl)
    (hself _)

/-- The second cell, on operands already rounded to the narrow format (the identity on extended reals): its state
    row h is the row the update gate multiplies at the end (hh). -/
theorem cell2_apply (v36 : FVec Ideal S2000x128 .f32) (v37 v38 : FVec Ideal S2000x128 .bf16) (v40 : FVec Ideal S128x384 .bf16)
    (v41 : Vec Ideal S128x384 .f32) (v44 v49 : Vec Ideal S384 .f32) (r : Fin 2000) (j : Fin 128)
    (hh : v36 (ix2 r j) = v38 (ix2 r j)) :
    Gen.k1_pay7 v36 v37 v38 v40 v41 v44 v49 (ix2 r j)
      = Cert.GNN.gru v40 v41 v44 v49 (fun k => v37 (ix2 r k)) (fun k => v38 (ix2 r k)) j :=
  pay1_apply v36 _ _ _ _ v40 v41 v44 v49 (fun k => v37 (ix2 r k)) (fun k => v38 (ix2 r k)) r j
    (fun k => pre_apply v37 v40 v44 r k)
    (fun k => pre_apply v38 (truncf .bf16 v41 bitsLt_bf16_f32) v49 r k)
    (slice2_axis1_apply 0 _ slices_S2000x384_o0_0_S2000x128 r j ⟨j.val, by omega⟩ (Nat.zero_add _).symm)
    (slice2_axis1_apply 128 _ slices_S2000x384_o0_128_S2000x128 r j ⟨128 + j.val, by omega⟩ rfl)
    hh

/-- The third cell: its input's affine map, its state's affine map and the first two bands of the former arrive
    as separate values; its state is the second cell's result. -/
theorem cell3_apply (v36 : FVec Ideal S2000x128 .f32) (v37 v38 : FVec Ideal S2000x128 .bf16) (v40 : FVec Ideal S128x384 .bf16)
    (v41 : Vec Ideal S128x384 .f32) (v44 v49 : Vec Ideal S384 .f32) (v73 v75 : Vec Ideal S128x384 .f32)
    (v78 v83 : Vec Ideal S384 .f32) (r : Fin 2000) (j : Fin 128) :
    Gen.k1_pay1 (Gen.k1_pay7 v36 v37 v38 v40 v41 v44 v49) (Gen.k1_pay8 v36 v73 v78)
        (Gen.k1_pay9 v36 v37 v38 v40 v41 v44 v49 v75 v83) (Gen.k1_pay10 v36 v73 v78) (Gen.k1_pay11 v36 v73 v78) (ix2 r j)
      = Cert.GNN.gru v73 v75 v78 v83 (fun k => v36 (ix2 r k))
          (fun k => Gen.k1_pay7 v36 v37 v38 v40 v41 v44 v49 (ix2 r k)) j :=
  pay1_apply _ _ _ _ _ v73 v75 v78 v83 (fun k => v36 (ix2 r k))
    (fun k => Gen.k1_pay7 v36 v37 v38 v40 v41 v44 v49 (ix2 r k)) r j
    (fun k => pre_apply (truncf .bf16 v36 bitsLt_bf16_f32) (truncf .bf16 v73 bitsLt_bf16_f32) v78 r k)
    (fun k => pre_apply (truncf .bf16 (Gen.k1_pay7 v36 v37 v38 v40 v41 v44 v49) bitsLt_bf16_f32)
      (truncf .bf16 v75 bitsLt_bf16_f32) v83 r k)
    (slice2_axis1_apply 0 (Gen.k1_pay8 v36 v73 v78) slices_S2000x384_o0_0_S2000x128 r j ⟨j.val, by omega⟩ (Nat.zero_add _).symm)
    (slice2_axis1_apply 128 (Gen.k1_pay8 v36 v73 v78) slices_S2000x384_o0_128_S2000x128 r j ⟨128 + j.val, by omega⟩ rfl)
    rfl

/-- What the body stores in the output block, read at row r and column j: the three cells of the specification
    on row r of the node block and of the message block. -/
theorem out14_apply (x0 x1 : Vec Ideal S2000x128 .f32) (x2 x3 : Vec Ideal S128x384 .f32) (x4 x5 : Vec Ideal S384 .f32)
    (x6 x7 : Vec Ideal S128x384 .f32) (x8 x9 : Vec Ideal S384 .f32) (x10 x11 : Vec Ideal S128x384 .f32)
    (x12 x13 : Vec Ideal S384 .f32) (r : Fin 2000) (j : Fin 128) :
    Gen.out1_14 x0 x1 x2 x3 x4 x5 x6 x7 x8 x9 x10 x11 x12 x13 (ix2 r j)
      = Cert.GNN.gru3 x2 x3 x4 x5 x6 x7 x8 x9 x10 x11 x12 x13 (fun k => x0 (ix2 r k)) (fun k => x1 (ix2 r k)) j := by
  unfold Gen.out1_14
  rw [View.canon_unit_zero zero2]
  simp only [View.ld_unit_zero (S := S2000x128) zero2, View.ld_unit_zero (S := S128x384) zero2,
    View.ld_unit_zero (S := S384) zero1]
  refine (cell3_apply _ _ _ _ _ _ _ _ _ _ _ r j).trans ?_
  have e1 : (fun k => Gen.k1_pay3 x0 x1 x2 x3 x4 x5 (ix2 r k))
      = Cert.GNN.gru x2 x3 x4 x5 (fun k => x0 (ix2 r k)) (fun k => x1 (ix2 r k)) :=
    funext fun k => cell1_apply x0 x1 x2 x3 x4 x5 r k
  have e2 : (fun k => Gen.k1_pay7 (Gen.k1_pay3 x0 x1 x2 x3 x4 x5) (Gen.k1_pay4 x1) (Gen.k1_pay5 x0 x1 x2 x3 x4 x5)
        (Gen.k1_pay6 x6) x7 x8 x9 (ix2 r k))
      = Cert.GNN.gru x6 x7 x8 x9 (fun k => x1 (ix2 r k)) (fun k => Gen.k1_pay3 x0 x1 x2 x3 x4 x5 (ix2 r k)) :=
    funext fun k => (cell2_apply _ _ _ _ _ _ _ r k rfl).trans (by
      have hself : ∀ i, Gen.k1_pay4 x1 i = x1 i := fun i =>
        congrFun (shapeCast_self x1 shapeCasts_S2000x128_S2000x128) i
      simp only [hself]
      rfl)
  rw [e2, e1]
  rfl

end Cert.KernelIdeal.Gru

end
-- ==== Proof.GruBlocks.lean ====
/-
  From the blocks to the array.  The node-update kernel runs over 25 grid points; point t reads rows 2000·t …
  2000·t + 1999 of the node array and of the message array, reads the twelve gate parameters whole, and writes
  the same rows of the result.  Every row of the result is written by exactly the point its number divided by
  2000 names, so the array the region leaves is the three cells of the specification applied row by row.
-/
import proofs.«110696_j72730976190873_2_alg».proof.Proof.GruPayload

set_option maxRecDepth 16384

noncomputable section

namespace Cert.KernelIdeal.Gru

open Idealize.ShloMosaic Idealize.ShloMosaic.ValueIdx Cert.KernelIdeal Cert.KernelIdeal.Facts₀
open Idealize.ShloMosaic.TcCoe
open Idealize.ShloMosaic.Pipeline (Dat Cfg Window)

/-- The moving windows (node rows, message rows, result rows) sit at block t along the rows and block 0 along the
    columns at grid point t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0 :=
  (by decide +kernel : ∀ t : Fin grid1.N, _)

/-- The parameter windows sit at block 0 on every axis at every grid point. -/
theorem idx_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (0 : Fin 1) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 1) = 0
    ∧ win1_13.index t (0 : Fin 1) = 0 :=
  (by decide +kernel : ∀ t : Fin grid1.N, _)

section
variable (V : (c : Dev nD) → (b : Ref sig .tc) → Buf (Elt Ideal) ((c : Thread nD τ).loc b))

/-! A parameter window's block is its whole array. -/

theorem iblk_2 (c : Dev nD) (t : Fin cfg1.N) : Gen.iblk1 V c 2 t = V c main_arg11 := by
  have hw := idx_whole t
  funext y
  show V c main_arg11 (((cfg1.win 2).blk t).view.emb y) = V c main_arg11 y
  congr 1
  funext a; apply Fin.ext
  match a with
  | ⟨0, _⟩ => show win1_2.index t (0 : Fin 2) * 128 + 1 * (y 0).val = (y 0).val; omega
  | ⟨1, _⟩ => show win1_2.index t (1 : Fin 2) * 384 + 1 * (y 1).val = (y 1).val; omega

theorem iblk_3 (c : Dev nD) (t : Fin cfg1.N) : Gen.iblk1 V c 3 t = V c main_arg12 := by
  have hw := idx_whole t
  funext y
  show V c main_arg12 (((cfg1.win 3).blk t).view.emb y) = V c main_arg12 y
  congr 1
  funext a; apply Fin.ext
  match a with
  | ⟨0, _⟩ => show win1_3.index t (0 : Fin 2) * 128 + 1 * (y 0).val = (y 0).val; omega
  | ⟨1, _⟩ => show win1_3.index t (1 : Fin 2) * 384 + 1 * (y 1).val = (y 1).val; omega

theorem iblk_4 (c : Dev nD) (t : Fin cfg1.N) : Gen.iblk1 V c 4 t = V c main_arg13 := by
  have hw := idx_whole t
  funext y
  show V c main_arg13 (((cfg1.win 4).blk t).view.emb y) = V c main_arg13 y
  congr 1
  funext a; apply Fin.ext
  match a with
  | ⟨0, _⟩ => show win1_4.index t (0 : Fin 1) * 384 + 1 * (y 0).val = (y 0).val; omega

theorem iblk_5 (c : Dev nD) (t : Fin cfg1.N) : Gen.iblk1 V c 5 t = V c main_arg14 := by
  have hw := idx_whole t
  funext y
  show V c main_arg14 (((cfg1.win 5).blk t).view.emb y) = V c main_arg14 y
  congr 1
  funext a; apply Fin.ext
  match a with
  | ⟨0, _⟩ => show win1_5.index t (0 : Fin 1) * 384 + 1 * (y 0).val = (y 0).val; omega

theorem iblk_6 (c : Dev nD) (t : Fin cfg1.N) : Gen.iblk1 V c 6 t = V c main_arg15 := by
  have hw := idx_whole t
  funext y
  show V c main_arg15 (((cfg1.win 6).blk t).view.emb y) = V c main_arg15 y
  congr 1
  funext a; apply Fin.ext
  match a with
  | ⟨0, _⟩ => show win1_6.index t (0 : Fin 2) * 128 + 1 * (y 0).val = (y 0).val; omega
  | ⟨1, _⟩ => show win1_6.index t (1 : Fin 2) * 384 + 1 * (y 1).val = (y 1).val; omega

theorem iblk_7 (c : Dev nD) (t : Fin cfg1.N) : Gen.iblk1 V c 7 t = V c main_arg16 := by
  have hw := idx_whole t
  funext y
  show V c main_arg16 (((cfg1.win 7).blk t).view.emb y) = V c main_arg16 y
  congr 1
  funext a; apply Fin.ext
  match a with
  | ⟨0, _⟩ => show win1_7.index t (0 : Fin 2) * 128 + 1 * (y 0).val = (y 0).val; omega
  | ⟨1, _⟩ => show win1_7.index t (1 : Fin 2) * 384 + 1 * (y 1).val = (y 1).val; omega

theorem iblk_8 (c : Dev nD) (t : Fin cfg1.N) : Gen.iblk1 V c 8 t = V c main_arg17 := by
  have hw := idx_whole t
  funext y
  show V c main_arg17 (((cfg1.win 8).blk t).view.emb y) = V c main_arg17 y
  congr 1
  funext a; apply Fin.ext
  match a with
  | ⟨0, _⟩ => show win1_8.index t (0 : Fin 1) * 384 + 1 * (y 0).val = (y 0).val; omega

theorem iblk_9 (c : Dev nD) (t : Fin cfg1.N) : Gen.iblk1 V c 9 t = V c main_arg18 := by
  have hw := idx_whole t
  funext y
  show V c main_arg18 (((cfg1.win 9).blk t).view.emb y) = V c main_arg18 y
  congr 1
  funext a; apply Fin.ext
  match a with
  | ⟨0, _⟩ => show win1_9.index t (0 : Fin 1) * 384 + 1 * (y 0).val = (y 0).val; omega

theorem iblk_10 (c : Dev nD) (t : Fin cfg1.N) : Gen.iblk1 V c 10 t = V c main_arg19 := by
  have hw := idx_whole t
  funext y
  show V c main_arg19 (((cfg1.win 10).blk t).view.emb y) = V c main_arg19 y
  congr 1
  funext a; apply Fin.ext
  match a with
  | ⟨0, _⟩ => show win1_10.index t (0 : Fin 2) * 128 + 1 * (y 0).val = (y 0).val; omega
  | ⟨1, _⟩ => show win1_10.index t (1 : Fin 2) * 384 + 1 * (y 1).val = (y 1).val; omega

theorem iblk_11 (c : Dev nD) (t : Fin cfg1.N) : Gen.iblk1 V c 11 t = V c main_arg20 := by
  have hw := idx_whole t
  funext y
  show V c main_arg20 (((cfg1.win 11).blk t).view.emb y) = V c main_arg20 y
  congr 1
  funext a; apply Fin.ext
  match a with
  | ⟨0, _⟩ => show win1_11.index t (0 : Fin 2) * 128 + 1 * (y 0).val = (y 0).val; omega
  | ⟨1, _⟩ => show win1_11.index t (1 : Fin 2) * 384 + 1 * (y 1).val = (y 1).val; omega

theorem iblk_12 (c : Dev nD) (t : Fin cfg1.N) : Gen.iblk1 V c 12 t = V c main_arg21 := by
  have hw := idx_whole t
  funext y
  show V c main_arg21 (((cfg1.win 12).blk t).view.emb y) = V c main_arg21 y
  congr 1
  funext a; apply Fin.ext
  match a with
  | ⟨0, _⟩ => show win1_12.index t (0 : Fin 1) * 384 + 1 * (y 0).val = (y 0).val; omega

theorem iblk_13 (c : Dev nD) (t : Fin cfg1.N) : Gen.iblk1 V c 13 t = V c main_arg22 := by
  have hw := idx_whole t
  funext y
  show V c main_arg22 (((cfg1.win 13).blk t).view.emb y) = V c main_arg22 y
  congr 1
  funext a; apply Fin.ext
  match a with
  | ⟨0, _⟩ => show win1_13.index t (0 : Fin 1) * 384 + 1 * (y 0).val = (y 0).val; omega

/-- The node block at point t, read at (p, k), is the node array at row 2000·t + p. -/
theorem iblk_0_apply (c : Dev nD) (t : Fin cfg1.N) (p : Fin 2000) (k : Fin 128) (n : Fin 50000)
    (hn : n.val = 2000 * t.val + p.val) : Gen.iblk1 V c 0 t (ix2 p k) = V c main_arg0 (ix2 n k) := by
  obtain ⟨e0, e1, -, -, -, -⟩ := idx_facts t
  show V c main_arg0 (((cfg1.win 0).blk t).view.emb (ix2 p k)) = V c main_arg0 (ix2 n k)
  congr 1
  funext a; apply Fin.ext
  match a with
  | ⟨0, _⟩ => show win1_0.index t (0 : Fin 2) * 2000 + 1 * p.val = n.val; omega
  | ⟨1, _⟩ => show win1_0.index t (1 : Fin 2) * 128 + 1 * k.val = k.val; omega

/-- The message block at point t, read at (p, k), is the message array at row 2000·t + p. -/
theorem iblk_1_apply (c : Dev nD) (t : Fin cfg1.N) (p : Fin 2000) (k : Fin 128) (n : Fin 50000)
    (hn : n.val = 2000 * t.val + p.val) : Gen.iblk1 V c 1 t (ix2 p k) = V c main_v26 (ix2 n k) := by
  obtain ⟨-, -, e0, e1, -, -⟩ := idx_facts t
  show V c main_v26 (((cfg1.win 1).blk t).view.emb (ix2 p k)) = V c main_v26 (ix2 n k)
  congr 1
  funext a; apply Fin.ext
  match a with
  | ⟨0, _⟩ => show win1_1.index t (0 : Fin 2) * 2000 + 1 * p.val = n.val; omega
  | ⟨1, _⟩ => show win1_1.index t (1 : Fin 2) * 128 + 1 * k.val = k.val; omega

/-- The array the region leaves: at row n and column j, the three cells on row n of the node array and of the
    message array. -/
abbrev result (c : Dev nD) : S50000x128.Idx → EReal := fun i =>
  Cert.GNN.gru3 (V c main_arg11) (V c main_arg12) (V c main_arg13) (V c main_arg14) (V c main_arg15) (V c main_arg16) (V c main_arg17) (V c main_arg18) (V c main_arg19) (V c main_arg20) (V c main_arg21) (V c main_arg22)
    (Cert.GNN.row (V c main_arg0) ⟨(i 0).val, idx2_lt0 i⟩) (Cert.GNN.row (V c main_v26) ⟨(i 0).val, idx2_lt0 i⟩) ⟨(i 1).val, idx2_lt1 i⟩

/-- What point t writes back is block t of that array. -/
theorem flushed_eq (c : Dev nD) (t : Fin cfg1.N) :
    (Gen.dat1 (F := Ideal) V c).flushed 14 t = ((cfg1.win 14).blk t).view.read (Elt Ideal) (result V c) := by
  show (cfg1.win 14).cut (grid1.coords t) ((Gen.dat1 V c).after 14 t) = _
  rw [Gen.after1_14]
  funext y
  obtain ⟨p, q, rfl⟩ : ∃ (p : Fin 2000) (q : Fin 128), (y : S2000x128.Idx) = ix2 p q := ⟨y 0, y 1, eq_ix2 y⟩
  have hN : grid1.N = 25 := Gen.N_1
  have ht : t.val < grid1.N := t.isLt
  obtain ⟨-, -, -, -, e0, e1⟩ := idx_facts t
  have hn : 2000 * t.val + p.val < 50000 := by have := p.isLt; omega
  have hemb : ((cfg1.win 14).blk t).view.emb (ix2 p q) = (ix2 (⟨2000 * t.val + p.val, hn⟩ : Fin 50000) q : S50000x128.Idx) := by
    funext a; apply Fin.ext
    match a with
    | ⟨0, _⟩ => show win1_14.index t (0 : Fin 2) * 2000 + 1 * p.val = 2000 * t.val + p.val; omega
    | ⟨1, _⟩ => show win1_14.index t (1 : Fin 2) * 128 + 1 * q.val = q.val; omega
  show Gen.out1_14 (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t) (Gen.iblk1 V c 10 t)
      (Gen.iblk1 V c 11 t) (Gen.iblk1 V c 12 t) (Gen.iblk1 V c 13 t) (ix2 p q)
    = result V c (((cfg1.win 14).blk t).view.emb (ix2 p q))
  rw [hemb]
  refine (out14_apply _ _ _ _ _ _ _ _ _ _ _ _ _ _ p q).trans ?_
  rw [iblk_2 V c t, iblk_3 V c t, iblk_4 V c t, iblk_5 V c t, iblk_6 V c t, iblk_7 V c t, iblk_8 V c t, iblk_9 V c t,
    iblk_10 V c t, iblk_11 V c t, iblk_12 V c t, iblk_13 V c t]
  have r0 : (fun k => Gen.iblk1 V c 0 t (ix2 p k)) = Cert.GNN.row (V c main_arg0) ⟨2000 * t.val + p.val, hn⟩ :=
    funext fun k => iblk_0_apply V c t p k _ rfl
  have r1 : (fun k => Gen.iblk1 V c 1 t (ix2 p k)) = Cert.GNN.row (V c main_v26) ⟨2000 * t.val + p.val, hn⟩ :=
    funext fun k => iblk_1_apply V c t p k _ rfl
  rw [r0, r1]

/-- An index of the result array is in point t's block iff each coordinate is in the block's range. -/
theorem mem_blk (t : Fin cfg1.N) (i : S50000x128.Idx) :
    i ∈ ((cfg1.win 14).blk t).view.set ↔ ∀ a : Fin 2, win1_14.index t a * S2000x128.size a ≤ (i a).val
      ∧ (i a).val < win1_14.index t a * S2000x128.size a + S2000x128.size a := by
  show i ∈ ((View.whole main_v27).slice (win1_14.rect t)).set ↔ _
  rw [View.set_slice_whole, Rect.mem_set_unit]
  exact Iff.rfl

/-- Every index of the result array is in the block of the point its row number divided by 2000 names. -/
theorem cover (i : S50000x128.Idx) :
    ∃ t : Fin cfg1.N, (cfg1.win 14).flush t = true ∧ i ∈ ((cfg1.win 14).blk t).view.set := by
  have hN : grid1.N = 25 := Gen.N_1
  have hi0 : (i 0).val < 50000 := (i 0).isLt
  have hi1 : (i 1).val < 128 := (i 1).isLt
  have hlt : (i 0).val / 2000 < grid1.N := by rw [hN]; omega
  obtain ⟨-, -, -, -, e0, e1⟩ := idx_facts ⟨(i 0).val / 2000, hlt⟩
  refine ⟨⟨(i 0).val / 2000, hlt⟩, Gen.flush1_14 _, ?_⟩
  rw [mem_blk]
  intro a
  match a with
  | ⟨0, _⟩ =>
    show win1_14.index ⟨(i 0).val / 2000, hlt⟩ (0 : Fin 2) * 2000 ≤ (i 0).val
      ∧ (i 0).val < win1_14.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_14.index ⟨(i 0).val / 2000, hlt⟩ (1 : Fin 2) * 128 ≤ (i 1).val
      ∧ (i 1).val < win1_14.index ⟨(i 0).val / 2000, hlt⟩ (1 : Fin 2) * 128 + 128
    rw [e1]; omega

/-- The result array after the region: the three cells of the specification, row by row. -/
theorem arr14 (c : Dev nD) : (Gen.dat1 (F := Ideal) V c).arrAt 14 cfg1.N = fun i : S50000x128.Idx =>
    Cert.GNN.gru3 (V c main_arg11) (V c main_arg12) (V c main_arg13) (V c main_arg14) (V c main_arg15) (V c main_arg16) (V c main_arg17) (V c main_arg18) (V c main_arg19) (V c main_arg20) (V c main_arg21) (V c main_arg22)
      (Cert.GNN.row (V c main_arg0) ⟨(i 0).val, idx2_lt0 i⟩) (Cert.GNN.row (V c main_v26) ⟨(i 0).val, idx2_lt0 i⟩) ⟨(i 1).val, idx2_lt1 i⟩ :=
  (Gen.dat1 V c).arrAt_eq_of_cover 14 (result V c) (fun t _ => flushed_eq V c t) (cover)

end

end Cert.KernelIdeal.Gru

end
-- ==== Proof.KernelFinal.lean ====
/-
  The kernel's result array as the specification's function of the argument arrays: the second region's output is
  the three cells on each node's row and aggregated row; the aggregated array is the host's scatter-add of the first
  region's two message arrays; each part is what the earlier modules computed, put together at the buffers' actual
  contents.
-/
import proofs.«110696_j72730976190873_2_alg».proof.Proof.KernelValue
import proofs.«110696_j72730976190873_2_alg».proof.Proof.MsgBlocks
import proofs.«110696_j72730976190873_2_alg».proof.Proof.GruBlocks

set_option maxRecDepth 16384

noncomputable section

namespace Cert.KernelIdeal.Host
open Cert.KernelIdeal.Gen
open Idealize.ShloMosaic Idealize.ShloMosaic.TcCoe Idealize.ShloMosaic.ValueIdx Idealize.SL.Sem
open Cert.GNN

variable (m : (ℓ : Loc nD τ sig) → Buf (Elt Ideal) ℓ) (ρ : Dev nD → PrngReg)

set_option maxHeartbeats 4000000 in
/-- What the second region finds in its aggregated-messages array, at a node and a column. -/
theorem W9_v26_apply (c : Dev nD) (fi ti : Fin 500000 → Fin 50000)
    (hfi : ∀ e : Fin 500000, (((m ((c : Thread nD τ).loc main_arg2)) : IVec S500000 32) (ix1 e)).toInt = ((fi e).val : Int))
    (hti : ∀ e : Fin 500000, (((m ((c : Thread nD τ).loc main_arg3)) : IVec S500000 32) (ix1 e)).toInt = ((ti e).val : Int))
    (n : Fin 50000) (d : Fin 128) :
    W9 (F := Ideal) m ρ c (Proc.devRef .tc main_v26) (ix2 n d)
      = agg (m ((c : Thread nD τ).loc main_arg0)) (m ((c : Thread nD τ).loc main_arg1)) fi ti (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n d :=
  (congrFun (W9_v26 m ρ c) (ix2 n d)).trans
    (agg_of_parts (m ((c : Thread nD τ).loc main_arg0)) (m ((c : Thread nD τ).loc main_arg1)) (m ((c : Thread nD τ).loc main_arg2)) (m ((c : Thread nD τ).loc main_arg3)) fi ti hfi hti (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      _ _ _ _ _ _ (W7_arg5 m ρ c) (W7_arg6 m ρ c) (W7_arg7 m ρ c) (W7_arg8 m ρ c) (W7_arg9 m ρ c) (W7_arg10 m ρ c)
      _ _ _ (W7_v12 m ρ c) (W7_v19 m ρ c) (W7_v4 m ρ c)
      _ _ (W8_v3 m ρ c) (W8_v2 m ρ c)
      _ _ ((W8_v20_0 m ρ c).trans (Cert.KernelIdeal.Msg.arr9 (V7 m ρ) c)) ((W8_v20_1 m ρ c).trans (Cert.KernelIdeal.Msg.arr10 (V7 m ρ) c))
      n d)

set_option maxHeartbeats 4000000 in
/-- THE KERNEL'S RESULT as the specification's function of the argument arrays. -/
theorem kernel_value (c : Dev nD) (fi ti : Fin 500000 → Fin 50000)
    (hfi : ∀ e : Fin 500000, (((m ((c : Thread nD τ).loc main_arg2)) : IVec S500000 32) (ix1 e)).toInt = ((fi e).val : Int))
    (hti : ∀ e : Fin 500000, (((m ((c : Thread nD τ).loc main_arg3)) : IVec S500000 32) (ix1 e)).toInt = ((ti e).val : Int)) :
    W10 (F := Ideal) m ρ c (Proc.devRef .tc main_v27)
      = out (m ((c : Thread nD τ).loc main_arg0)) (m ((c : Thread nD τ).loc main_arg1)) fi ti (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W10_arr m ρ c 14).trans ((Cert.KernelIdeal.Gru.arr14 (V9 m ρ) c).trans ?_)
  funext i
  exact out_of_parts (m ((c : Thread nD τ).loc main_arg0)) (m ((c : Thread nD τ).loc main_arg1)) fi ti (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
    _ _ _ _ _ _ _ _ _ _ _ _ _
    (W9_arg11 m ρ c) (W9_arg12 m ρ c) (W9_arg13 m ρ c) (W9_arg14 m ρ c) (W9_arg15 m ρ c) (W9_arg16 m ρ c) (W9_arg17 m ρ c) (W9_arg18 m ρ c) (W9_arg19 m ρ c) (W9_arg20 m ρ c) (W9_arg21 m ρ c) (W9_arg22 m ρ c) (W9_arg0 m ρ c)
    _ (W9_v26_apply m ρ c fi ti hfi hti) i

end Cert.KernelIdeal.Host
end
-- ==== Proof.PreIndex.lean ====
/-
  What the precondition says of the two index arrays: every source and every target node number, read signed,
  lies in `[0, 50000)`.  The precondition is a conjunction of "all finite" tests of the float inputs followed by the
  two range tests; only the range tests are opened.
-/
import proofs.«110696_j72730976190873_2_alg».proof.Pre_finite_inputs
import Idealize.ShloMosaic.Lib.ReduceAll
import Idealize.ShloMosaic.Lib.ValueIdx

noncomputable section

namespace Cert.GNN

open Idealize.ShloMosaic Idealize.ShloMosaic.ValueIdx
open Cert.Pre_finite_inputs

variable [Cert.Pre_finite_inputs.Facts]
open Cert.Pre_finite_inputs.Facts

/-- The scalar shape has one index. -/
instance subsingleton_scalar_idx : Subsingleton S_.Idx := ⟨fun a b => funext fun d => d.elim0⟩

/-- An `all` over the conjunction of `lo ≤ x` and `x < hi` (signed), when it is one, gives both at every index. -/
theorem all_range (a : IVec S500000 32) (lo hi : IVec S500000 32)
    (h : Host.reduce IntOp.andi (andi (cmpi .sge a lo) (cmpi .slt a hi)) (constantI S_ 1 1#1)
      reducesTo_S500000_S_d0 h_S_ ix0 = 1#1) (i : S500000.Idx) :
    (lo i).toInt ≤ (a i).toInt ∧ (a i).toInt < (hi i).toInt := by
  have e : IntOp.andi (IntOp.cmpi .sge (a i) (lo i)) (IntOp.cmpi .slt (a i) (hi i)) = 1#1 :=
    Host.reduce_andi_all _ _ _ _ ix0 h i
  obtain ⟨e1, e2⟩ := IntOp.andi_eq_one.1 e
  exact ⟨IntOp.cmpi_sge.1 e1, IntOp.cmpi_slt.1 e2⟩

/-- The last part of the precondition, when it is one: the two range tests hold at every index (the conjunct `X`
    of the earlier tests is left alone). -/
theorem part6_range {F : FTy → Type} [FloatOps F] (a2 a3 : IVec S500000 32) (X : IVec S_ 1)
    (h : fn_part6 (F := F) a2 a3 X
        (cmpi .sge a2 (broadcastInDim S500000 ![] bcast_S_S500000 (constantI S_ 32 0#32)))
        (broadcastInDim S500000 ![] bcast_S_S500000 (constantI S_ 32 50000#32)) = fun _ => 1#1) :
    (∀ i : S500000.Idx, 0 ≤ (a2 i).toInt ∧ (a2 i).toInt < 50000) ∧
      (∀ i : S500000.Idx, 0 ≤ (a3 i).toInt ∧ (a3 i).toInt < 50000) := by
  have e := congrFun h ix0
  unfold fn_part6 at e
  dsimp only at e
  obtain ⟨e1, e3⟩ := IntOp.andi_eq_one.1 e
  obtain ⟨-, e2⟩ := IntOp.andi_eq_one.1 e1
  have h0 : (0#32 : BitVec 32).toInt = 0 := by decide
  have h5 : (50000#32 : BitVec 32).toInt = 50000 := by decide
  refine ⟨fun i => ?_, fun i => ?_⟩
  · have t : (0#32 : BitVec 32).toInt ≤ (a2 i).toInt ∧ (a2 i).toInt < (50000#32 : BitVec 32).toInt :=
      all_range a2 _ _ e2 i
    rw [h0, h5] at t
    exact t
  · have t : (0#32 : BitVec 32).toInt ≤ (a3 i).toInt ∧ (a3 i).toInt < (50000#32 : BitVec 32).toInt :=
      all_range a3 _ _ e3 i
    rw [h0, h5] at t
    exact t

/-- THE INDEX RANGES: under the precondition every entry of the two index arrays, read signed, is a node number. -/
theorem index_range {F : FTy → Type} [FloatOps F] {a0 : FVec F S50000x128 .f32} {a1 : FVec F S500000x128 .f32} {a2 : IVec S500000 32} {a3 : IVec S500000 32} {a4 : IVec S50000 32} {a5 : FVec F S384x128 .f32} {a6 : FVec F S128 .f32} {a7 : FVec F S128x128 .f32} {a8 : FVec F S128 .f32} {a9 : FVec F S128x128 .f32} {a10 : FVec F S128 .f32} {a11 : FVec F S128x384 .f32} {a12 : FVec F S128x384 .f32} {a13 : FVec F S384 .f32} {a14 : FVec F S384 .f32} {a15 : FVec F S128x384 .f32} {a16 : FVec F S128x384 .f32} {a17 : FVec F S384 .f32} {a18 : FVec F S384 .f32} {a19 : FVec F S128x384 .f32} {a20 : FVec F S128x384 .f32} {a21 : FVec F S384 .f32} {a22 : FVec F S384 .f32}
    (h : Cert.Pre_finite_inputs.fn (F := F) a0 a1 a2 a3 a4 a5 a6 a7 a8 a9 a10 a11 a12 a13 a14 a15 a16 a17 a18 a19 a20 a21 a22 = fun _ => 1#1) :
    (∀ e : Fin 500000, 0 ≤ (a2 (ix1 e)).toInt ∧ (a2 (ix1 e)).toInt < 50000) ∧
      (∀ e : Fin 500000, 0 ≤ (a3 (ix1 e)).toInt ∧ (a3 (ix1 e)).toInt < 50000) := by
  have t := part6_range (F := F) a2 a3 _ h
  exact ⟨fun e => t.1 (ix1 e), fun e => t.2 (ix1 e)⟩

/-- The same as two maps into the node numbers: `fi e` and `ti e` are the entries of the index arrays. -/
theorem index_maps {F : FTy → Type} [FloatOps F] {a0 : FVec F S50000x128 .f32} {a1 : FVec F S500000x128 .f32} {a2 : IVec S500000 32} {a3 : IVec S500000 32} {a4 : IVec S50000 32} {a5 : FVec F S384x128 .f32} {a6 : FVec F S128 .f32} {a7 : FVec F S128x128 .f32} {a8 : FVec F S128 .f32} {a9 : FVec F S128x128 .f32} {a10 : FVec F S128 .f32} {a11 : FVec F S128x384 .f32} {a12 : FVec F S128x384 .f32} {a13 : FVec F S384 .f32} {a14 : FVec F S384 .f32} {a15 : FVec F S128x384 .f32} {a16 : FVec F S128x384 .f32} {a17 : FVec F S384 .f32} {a18 : FVec F S384 .f32} {a19 : FVec F S128x384 .f32} {a20 : FVec F S128x384 .f32} {a21 : FVec F S384 .f32} {a22 : FVec F S384 .f32}
    (h : Cert.Pre_finite_inputs.fn (F := F) a0 a1 a2 a3 a4 a5 a6 a7 a8 a9 a10 a11 a12 a13 a14 a15 a16 a17 a18 a19 a20 a21 a22 = fun _ => 1#1) :
    ∃ fi ti : Fin 500000 → Fin 50000, (∀ e, (a2 (ix1 e)).toInt = ((fi e).val : Int)) ∧
      (∀ e, (a3 (ix1 e)).toInt = ((ti e).val : Int)) := by
  obtain ⟨r2, r3⟩ := index_range h
  refine ⟨fun e => ⟨(a2 (ix1 e)).toInt.toNat, by have := r2 e; omega⟩,
    fun e => ⟨(a3 (ix1 e)).toInt.toNat, by have := r3 e; omega⟩, fun e => ?_, fun e => ?_⟩
  · have := r2 e
    show (a2 (ix1 e)).toInt = (((a2 (ix1 e)).toInt.toNat : Nat) : Int)
    omega
  · have := r3 e
    show (a3 (ix1 e)).toInt = (((a3 (ix1 e)).toInt.toNat : Nat) : Int)
    omega

end Cert.GNN

end
-- ==== Proof.RefOps.lean ====
/-
  The reference's layout operations read at an index: a matrix product is the sum over the shared axis, a bias
  vector laid under every row reads the vector, a float word spread over an array reads the word.
-/
import proofs.«110696_j72730976190873_2_alg».proof.Proof.Gen.ReferenceIdeal
import proofs.«110696_j72730976190873_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.StableHlo Cert.GNN

/-- The product of a 500000×384 and a 384×128 matrix at an entry is the sum over the shared axis. -/
theorem dotE384_lhs0 (i : S500000x128.Idx) (q : dot_S500000x384_S384x128_S500000x128_1_0_0_1_n_n.contr.Idx) : (dot_S500000x384_S384x128_S500000x128_1_0_0_1_n_n.lhsIdx i q 0).val = (i 0).val := by
  unfold DotDims.lhsIdx
  rw [dif_neg (show ¬(0 : Fin S500000x384.rank) ∈ dot_S500000x384_S384x128_S500000x128_1_0_0_1_n_n.lhsBatch by decide), dif_pos (show (0 : Fin S500000x384.rank) ∈ dot_S500000x384_S384x128_S500000x128_1_0_0_1_n_n.lhsNonContracting by decide)]
  rfl
theorem dotE384_lhs1 (i : S500000x128.Idx) (q : dot_S500000x384_S384x128_S500000x128_1_0_0_1_n_n.contr.Idx) : (dot_S500000x384_S384x128_S500000x128_1_0_0_1_n_n.lhsIdx i q 1).val = (q ⟨0, by decide⟩).val :=
  dot_S500000x384_S384x128_S500000x128_1_0_0_1_n_n.lhsIdx_val_of_single rfl i q
theorem dotE384_rhs0 (i : S500000x128.Idx) (q : dot_S500000x384_S384x128_S500000x128_1_0_0_1_n_n.contr.Idx) : (dot_S500000x384_S384x128_S500000x128_1_0_0_1_n_n.rhsIdx i q 0).val = (q ⟨0, by decide⟩).val :=
  dot_S500000x384_S384x128_S500000x128_1_0_0_1_n_n.rhsIdx_val_of_single rfl i q
theorem dotE384_rhs1 (i : S500000x128.Idx) (q : dot_S500000x384_S384x128_S500000x128_1_0_0_1_n_n.contr.Idx) : (dot_S500000x384_S384x128_S500000x128_1_0_0_1_n_n.rhsIdx i q 1).val = (i 1).val := by
  unfold DotDims.rhsIdx
  rw [dif_neg (show ¬(1 : Fin S384x128.rank) ∈ dot_S500000x384_S384x128_S500000x128_1_0_0_1_n_n.rhsBatch by decide), dif_pos (show (1 : Fin S384x128.rank) ∈ dot_S500000x384_S384x128_S500000x128_1_0_0_1_n_n.rhsNonContracting by decide)]
  rfl
theorem dotE384_apply (l : FVec Ideal S500000x384 .f32) (r : FVec Ideal S384x128 .f32) (e : Fin 500000) (j : Fin 128) :
    Host.dotGeneral dot_S500000x384_S384x128_S500000x128_1_0_0_1_n_n none l r (ix2 e j) = ∑ k : Fin 384, l (ix2 e k) * r (ix2 k j) := by
  simp only [Host.dotGeneral]
  rw [Ideal.dotGeneral_apply, ← Equiv.sum_comp (ValueIdx.contrEquiv1 dot_S500000x384_S384x128_S500000x128_1_0_0_1_n_n 384 rfl rfl).symm]
  refine Finset.sum_congr rfl fun k _ => ?_
  have hk := ValueIdx.contrEquiv1_symm_val dot_S500000x384_S384x128_S500000x128_1_0_0_1_n_n 384 rfl rfl k
  have el : dot_S500000x384_S384x128_S500000x128_1_0_0_1_n_n.lhsIdx (ix2 e j) ((ValueIdx.contrEquiv1 dot_S500000x384_S384x128_S500000x128_1_0_0_1_n_n 384 rfl rfl).symm k) = ix2 e k := funext fun a => Fin.ext (by
    match a with
    | ⟨0, _⟩ => exact dotE384_lhs0 _ _
    | ⟨1, _⟩ => exact (dotE384_lhs1 _ _).trans hk)
  have er : dot_S500000x384_S384x128_S500000x128_1_0_0_1_n_n.rhsIdx (ix2 e j) ((ValueIdx.contrEquiv1 dot_S500000x384_S384x128_S500000x128_1_0_0_1_n_n 384 rfl rfl).symm k) = ix2 k j := funext fun a => Fin.ext (by
    match a with
    | ⟨0, _⟩ => exact (dotE384_rhs0 _ _).trans hk
    | ⟨1, _⟩ => exact dotE384_rhs1 _ _)
  rw [el, er]

/-- The product of a 500000×128 and a 128×128 matrix at an entry is the sum over the shared axis. -/
theorem dotE128_lhs0 (i : S500000x128.Idx) (q : dot_S500000x128_S128x128_S500000x128_1_0_0_1_n_n.contr.Idx) : (dot_S500000x128_S128x128_S500000x128_1_0_0_1_n_n.lhsIdx i q 0).val = (i 0).val := by
  unfold DotDims.lhsIdx
  rw [dif_neg (show ¬(0 : Fin S500000x128.rank) ∈ dot_S500000x128_S128x128_S500000x128_1_0_0_1_n_n.lhsBatch by decide), dif_pos (show (0 : Fin S500000x128.rank) ∈ dot_S500000x128_S128x128_S500000x128_1_0_0_1_n_n.lhsNonContracting by decide)]
  rfl
theorem dotE128_lhs1 (i : S500000x128.Idx) (q : dot_S500000x128_S128x128_S500000x128_1_0_0_1_n_n.contr.Idx) : (dot_S500000x128_S128x128_S500000x128_1_0_0_1_n_n.lhsIdx i q 1).val = (q ⟨0, by decide⟩).val :=
  dot_S500000x128_S128x128_S500000x128_1_0_0_1_n_n.lhsIdx_val_of_single rfl i q
theorem dotE128_rhs0 (i : S500000x128.Idx) (q : dot_S500000x128_S128x128_S500000x128_1_0_0_1_n_n.contr.Idx) : (dot_S500000x128_S128x128_S500000x128_1_0_0_1_n_n.rhsIdx i q 0).val = (q ⟨0, by decide⟩).val :=
  dot_S500000x128_S128x128_S500000x128_1_0_0_1_n_n.rhsIdx_val_of_single rfl i q
theorem dotE128_rhs1 (i : S500000x128.Idx) (q : dot_S500000x128_S128x128_S500000x128_1_0_0_1_n_n.contr.Idx) : (dot_S500000x128_S128x128_S500000x128_1_0_0_1_n_n.rhsIdx i q 1).val = (i 1).val := by
  unfold DotDims.rhsIdx
  rw [dif_neg (show ¬(1 : Fin S128x128.rank) ∈ dot_S500000x128_S128x128_S500000x128_1_0_0_1_n_n.rhsBatch by decide), dif_pos (show (1 : Fin S128x128.rank) ∈ dot_S500000x128_S128x128_S500000x128_1_0_0_1_n_n.rhsNonContracting by decide)]
  rfl
theorem dotE128_apply (l : FVec Ideal S500000x128 .f32) (r : FVec Ideal S128x128 .f32) (e : Fin 500000) (j : Fin 128) :
    Host.dotGeneral dot_S500000x128_S128x128_S500000x128_1_0_0_1_n_n none l r (ix2 e j) = ∑ k : Fin 128, l (ix2 e k) * r (ix2 k j) := by
  simp only [Host.dotGeneral]
  rw [Ideal.dotGeneral_apply, ← Equiv.sum_comp (ValueIdx.contrEquiv1 dot_S500000x128_S128x128_S500000x128_1_0_0_1_n_n 128 rfl rfl).symm]
  refine Finset.sum_congr rfl fun k _ => ?_
  have hk := ValueIdx.contrEquiv1_symm_val dot_S500000x128_S128x128_S500000x128_1_0_0_1_n_n 128 rfl rfl k
  have el : dot_S500000x128_S128x128_S500000x128_1_0_0_1_n_n.lhsIdx (ix2 e j) ((ValueIdx.contrEquiv1 dot_S500000x128_S128x128_S500000x128_1_0_0_1_n_n 128 rfl rfl).symm k) = ix2 e k := funext fun a => Fin.ext (by
    match a with
    | ⟨0, _⟩ => exact dotE128_lhs0 _ _
    | ⟨1, _⟩ => exact (dotE128_lhs1 _ _).trans hk)
  have er : dot_S500000x128_S128x128_S500000x128_1_0_0_1_n_n.rhsIdx (ix2 e j) ((ValueIdx.contrEquiv1 dot_S500000x128_S128x128_S500000x128_1_0_0_1_n_n 128 rfl rfl).symm k) = ix2 k j := funext fun a => Fin.ext (by
    match a with
    | ⟨0, _⟩ => exact (dotE128_rhs0 _ _).trans hk
    | ⟨1, _⟩ => exact dotE128_rhs1 _ _)
  rw [el, er]

/-- The product of a 50000×128 and a 128×384 matrix at an entry is the sum over the shared axis. -/
theorem dotN_lhs0 (i : S50000x384.Idx) (q : dot_S50000x128_S128x384_S50000x384_1_0_0_1_n_n.contr.Idx) : (dot_S50000x128_S128x384_S50000x384_1_0_0_1_n_n.lhsIdx i q 0).val = (i 0).val := by
  unfold DotDims.lhsIdx
  rw [dif_neg (show ¬(0 : Fin S50000x128.rank) ∈ dot_S50000x128_S128x384_S50000x384_1_0_0_1_n_n.lhsBatch by decide), dif_pos (show (0 : Fin S50000x128.rank) ∈ dot_S50000x128_S128x384_S50000x384_1_0_0_1_n_n.lhsNonContracting by decide)]
  rfl
theorem dotN_lhs1 (i : S50000x384.Idx) (q : dot_S50000x128_S128x384_S50000x384_1_0_0_1_n_n.contr.Idx) : (dot_S50000x128_S128x384_S50000x384_1_0_0_1_n_n.lhsIdx i q 1).val = (q ⟨0, by decide⟩).val :=
  dot_S50000x128_S128x384_S50000x384_1_0_0_1_n_n.lhsIdx_val_of_single rfl i q
theorem dotN_rhs0 (i : S50000x384.Idx) (q : dot_S50000x128_S128x384_S50000x384_1_0_0_1_n_n.contr.Idx) : (dot_S50000x128_S128x384_S50000x384_1_0_0_1_n_n.rhsIdx i q 0).val = (q ⟨0, by decide⟩).val :=
  dot_S50000x128_S128x384_S50000x384_1_0_0_1_n_n.rhsIdx_val_of_single rfl i q
theorem dotN_rhs1 (i : S50000x384.Idx) (q : dot_S50000x128_S128x384_S50000x384_1_0_0_1_n_n.contr.Idx) : (dot_S50000x128_S128x384_S50000x384_1_0_0_1_n_n.rhsIdx i q 1).val = (i 1).val := by
  unfold DotDims.rhsIdx
  rw [dif_neg (show ¬(1 : Fin S128x384.rank) ∈ dot_S50000x128_S128x384_S50000x384_1_0_0_1_n_n.rhsBatch by decide), dif_pos (show (1 : Fin S128x384.rank) ∈ dot_S50000x128_S128x384_S50000x384_1_0_0_1_n_n.rhsNonContracting by decide)]
  rfl
theorem dotN_apply (l : FVec Ideal S50000x128 .f32) (r : FVec Ideal S128x384 .f32) (e : Fin 50000) (j : Fin 384) :
    Host.dotGeneral dot_S50000x128_S128x384_S50000x384_1_0_0_1_n_n none l r (ix2 e j) = ∑ k : Fin 128, l (ix2 e k) * r (ix2 k j) := by
  simp only [Host.dotGeneral]
  rw [Ideal.dotGeneral_apply, ← Equiv.sum_comp (ValueIdx.contrEquiv1 dot_S50000x128_S128x384_S50000x384_1_0_0_1_n_n 128 rfl rfl).symm]
  refine Finset.sum_congr rfl fun k _ => ?_
  have hk := ValueIdx.contrEquiv1_symm_val dot_S50000x128_S128x384_S50000x384_1_0_0_1_n_n 128 rfl rfl k
  have el : dot_S50000x128_S128x384_S50000x384_1_0_0_1_n_n.lhsIdx (ix2 e j) ((ValueIdx.contrEquiv1 dot_S50000x128_S128x384_S50000x384_1_0_0_1_n_n 128 rfl rfl).symm k) = ix2 e k := funext fun a => Fin.ext (by
    match a with
    | ⟨0, _⟩ => exact dotN_lhs0 _ _
    | ⟨1, _⟩ => exact (dotN_lhs1 _ _).trans hk)
  have er : dot_S50000x128_S128x384_S50000x384_1_0_0_1_n_n.rhsIdx (ix2 e j) ((ValueIdx.contrEquiv1 dot_S50000x128_S128x384_S50000x384_1_0_0_1_n_n 128 rfl rfl).symm k) = ix2 k j := funext fun a => Fin.ext (by
    match a with
    | ⟨0, _⟩ => exact (dotN_rhs0 _ _).trans hk
    | ⟨1, _⟩ => exact dotN_rhs1 _ _)
  rw [el, er]

/-- A bias vector of 128 entries laid under each of 500000 rows. -/
def biasE (b : FVec Ideal S128 .f32) : FVec Ideal S500000x128 .f32 :=
  broadcastInDim S500000x128 ![0, 1] bcast_S1x128_S500000x128_0_1 (broadcastInDim S1x128 ![1] bcast_S128_S1x128_1 b)
theorem biasE_apply (b : FVec Ideal S128 .f32) (e : Fin 500000) (j : Fin 128) : biasE b (ix2 e j) = b (ix1 j) := by
  unfold biasE
  refine (broadcastInDim_apply _ bcast_S1x128_S500000x128_0_1 _ (ix2 e j) (ix2 (0 : Fin 1) j) (fun a => match a with
    | ⟨0, _⟩ => by show 0 = if (1 : Nat) = 1 then 0 else e.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- A bias vector of 384 entries laid under each of 50000 rows. -/
def biasN (b : FVec Ideal S384 .f32) : FVec Ideal S50000x384 .f32 :=
  broadcastInDim S50000x384 ![0, 1] bcast_S1x384_S50000x384_0_1 (broadcastInDim S1x384 ![1] bcast_S384_S1x384_1 b)
theorem biasN_apply (b : FVec Ideal S384 .f32) (e : Fin 50000) (j : Fin 384) : biasN b (ix2 e j) = b (ix1 j) := by
  unfold biasN
  refine (broadcastInDim_apply _ bcast_S1x384_S50000x384_0_1 _ (ix2 e j) (ix2 (0 : Fin 1) j) (fun a => match a with
    | ⟨0, _⟩ => by show 0 = if (1 : Nat) = 1 then 0 else e.val; rw [if_pos rfl]
    | ⟨1, _⟩ => by show j.val = if (384 : Nat) = 1 then 0 else j.val; rw [if_neg (by decide)])).trans ?_
  exact broadcastInDim_apply _ bcast_S384_S1x384_1 b (ix2 (0 : Fin 1) j) (ix1 j) (fun a => match a with
    | ⟨0, _⟩ => by show j.val = if (384 : Nat) = 1 then 0 else j.val; rw [if_neg (by decide)])

/-- A float word spread over a whole array. -/
def spreadE (w : BitVec 32) : FVec Ideal S500000x128 .f32 :=
  broadcastInDim S500000x128 ![] bcast_S_S500000x128 (constant S_ .f32 w)
theorem spreadE_apply (w : BitVec 32) (i : S500000x128.Idx) : spreadE w i = Ideal.ofBits .f32 w := by
  unfold spreadE
  exact broadcastInDim_apply _ bcast_S_S500000x128 _ i (fun a => a.elim0) (fun a => a.elim0)

/-- A float word spread over a whole array. -/
def spreadN (w : BitVec 32) : FVec Ideal S50000x128 .f32 :=
  broadcastInDim S50000x128 ![] bcast_S_S50000x128 (constant S_ .f32 w)
theorem spreadN_apply (w : BitVec 32) (i : S50000x128.Idx) : spreadN w i = Ideal.ofBits .f32 w := by
  unfold spreadN
  exact broadcastInDim_apply _ bcast_S_S50000x128 _ i (fun a => a.elim0) (fun a => a.elim0)

end Cert.ReferenceIdeal.RefValue

end
-- ==== Proof.RefMlp.lean ====
/-
  The reference's message stage read at an index.  The three row blocks laid side by side read at (e, k) are the
  spec's cat3 of the three rows; an affine layer followed by the rectifier reads as dense and relu; the whole stage at
  (e, j) is the spec's mlp of the three rows of edge e.
-/
import proofs.«110696_j72730976190873_2_alg».proof.Proof.RefOps

noncomputable section

namespace Cert.ReferenceIdeal.RefValue

open Cert.ReferenceIdeal Cert.ReferenceIdeal.Gen Idealize.ShloMosaic Idealize.ShloMosaic.ValueIdx Idealize.ShloMosaic.StableHlo Cert.GNN

/-- The three blocks of 128 columns laid side by side. -/
def catStage (g1 g2 ef : FVec Ideal S500000x128 .f32) : FVec Ideal S500000x384 .f32 :=
  concatenate S500000x384 1 [⟨S500000x128, g1⟩, ⟨S500000x128, g2⟩, ⟨S500000x128, ef⟩] concatenates_S500000x128_S500000x128_S500000x128_S500000x384_d1

theorem catStage_apply (g1 g2 ef : FVec Ideal S500000x128 .f32) (e : Fin 500000) (k : Fin 384) :
    catStage g1 g2 ef (ix2 e k) = cat3 (row g1 e) (row g2 e) (row ef e) k := by
  unfold catStage cat3
  have hk := k.isLt
  by_cases h1 : k.val < 128
  · rw [dif_pos h1]
    exact concatenate_apply_piece (1 : Fin S500000x384.rank) [⟨S500000x128, g1⟩, ⟨S500000x128, g2⟩, ⟨S500000x128, ef⟩]
          concatenates_S500000x128_S500000x128_S500000x128_S500000x384_d1 (ix2 e k) 0 (by show (0 : Nat) < 3; omega) S500000x128 g1 rfl rfl 0 rfl
          (ix2 e (⟨k.val, by omega⟩ : Fin 128))
          (fun b => match b with
            | ⟨0, _⟩ => fun _ => rfl
            | ⟨1, _⟩ => fun hb => absurd rfl hb)
          (by show 0 + (k.val) = k.val; omega)
  · rw [dif_neg h1]
    by_cases h2 : k.val < 256
    · rw [dif_pos h2]
      exact concatenate_apply_piece (1 : Fin S500000x384.rank) [⟨S500000x128, g1⟩, ⟨S500000x128, g2⟩, ⟨S500000x128, ef⟩]
          concatenates_S500000x128_S500000x128_S500000x128_S500000x384_d1 (ix2 e k) 1 (by show (1 : Nat) < 3; omega) S500000x128 g2 rfl rfl 128 rfl
          (ix2 e (⟨k.val - 128, by omega⟩ : Fin 128))
          (fun b => match b with
            | ⟨0, _⟩ => fun _ => rfl
            | ⟨1, _⟩ => fun hb => absurd rfl hb)
          (by show 128 + (k.val - 128) = k.val; omega)
    · rw [dif_neg h2]
      exact concatenate_apply_piece (1 : Fin S500000x384.rank) [⟨S500000x128, g1⟩, ⟨S500000x128, g2⟩, ⟨S500000x128, ef⟩]
          concatenates_S500000x128_S500000x128_S500000x128_S500000x384_d1 (ix2 e k) 2 (by show (2 : Nat) < 3; omega) S500000x128 ef rfl rfl 256 rfl
          (ix2 e (⟨k.val - 256, by omega⟩ : Fin 128))
          (fun b => match b with
            | ⟨0, _⟩ => fun _ => rfl
            | ⟨1, _⟩ => fun hb => absurd rfl hb)
          (by show 256 + (k.val - 256) = k.val; omega)

/-- The rectifier as the program writes it: the larger of the value and a spread zero word. -/
theorem reluE_apply (y : FVec Ideal S500000x128 .f32) (e : Fin 500000) (k : Fin 128) :
    maximumf y (spreadE 0x00000000#32) (ix2 e k) = relu (y (ix2 e k)) := by
  rw [maximumf_apply, spreadE_apply]; rfl

/-- The first affine layer (384 inputs). -/
theorem layer384_apply (y : FVec Ideal S500000x384 .f32) (W : FVec Ideal S384x128 .f32) (b : FVec Ideal S128 .f32)
    (e : Fin 500000) (j : Fin 128) :
    addf (Host.dotGeneral dot_S500000x384_S384x128_S500000x128_1_0_0_1_n_n none y W) (biasE b) (ix2 e j)
      = dense W b (fun k => y (ix2 e k)) j := by
  rw [addf_apply, dotE384_apply, biasE_apply]; rfl

/-- An affine layer with 128 inputs. -/
theorem layer128_apply (y : FVec Ideal S500000x128 .f32) (W : FVec Ideal S128x128 .f32) (b : FVec Ideal S128 .f32)
    (e : Fin 500000) (j : Fin 128) :
    addf (Host.dotGeneral dot_S500000x128_S128x128_S500000x128_1_0_0_1_n_n none y W) (biasE b) (ix2 e j)
      = dense W b (fun k => y (ix2 e k)) j := by
  rw [addf_apply, dotE128_apply, biasE_apply]; rfl

/-- The message stage: three layers with two rectifiers on the three blocks laid side by side. -/
def mlpStage (g1 g2 ef : FVec Ideal S500000x128 .f32) (W1 : FVec Ideal S384x128 .f32) (b1 : FVec Ideal S128 .f32)
    (W2 : FVec Ideal S128x128 .f32) (b2 : FVec Ideal S128 .f32) (W3 : FVec Ideal S128x128 .f32) (b3 : FVec Ideal S128 .f32) :
    FVec Ideal S500000x128 .f32 :=
  addf (Host.dotGeneral dot_S500000x128_S128x128_S500000x128_1_0_0_1_n_n none
    (maximumf (addf (Host.dotGeneral dot_S500000x128_S128x128_S500000x128_1_0_0_1_n_n none
      (maximumf (addf (Host.dotGeneral dot_S500000x384_S384x128_S500000x128_1_0_0_1_n_n none (catStage g1 g2 ef) W1) (biasE b1))
        (spreadE 0x00000000#32)) W2) (biasE b2)) (spreadE 0x00000000#32)) W3) (biasE b3)

theorem mlpStage_apply (g1 g2 ef : FVec Ideal S500000x128 .f32) (W1 : FVec Ideal S384x128 .f32) (b1 : FVec Ideal S128 .f32)
    (W2 : FVec Ideal S128x128 .f32) (b2 : FVec Ideal S128 .f32) (W3 : FVec Ideal S128x128 .f32) (b3 : FVec Ideal S128 .f32)
    (e : Fin 500000) (j : Fin 128) :
    mlpStage g1 g2 ef W1 b1 W2 b2 W3 b3 (ix2 e j) = mlp W1 b1 W2 b2 W3 b3 (row g1 e) (row g2 e) (row ef e) j := by
  unfold mlpStage mlp mlpTail
  rw [layer128_apply]
  refine congrArg (fun f => dense W3 b3 f j) (funext fun k => ?_)
  rw [reluE_apply, layer128_apply]
  refine congrArg (fun f => relu (dense W2 b2 f k)) (funext fun k' => ?_)
  rw [reluE_apply, layer384_apply]
  refine congrArg (fun f => relu (dense W1 b1 f k')) (funext fun k'' => ?_)
  exact catStage_apply g1 g2 ef e k''

end Cert.ReferenceIdeal.RefValue

end
-- ==== Proof.RefAgg.lean ====
/-
  The reference's aggregation read at an index.  An index word that is a node number is not negative, so the
  wrap-around of negative indices leaves it alone and the clamping row gather reads that node's row; a scatter-add of
  edge rows into zeros at node n sums the rows of the edges whose index word is n.  The two directions added are the
  spec's agg.
-/
import proofs.«110696_j72730976190873_2_alg».proof.Proof.RefMlp
import proofs.«110696_j72730976190873_2_alg».proof.Proof.LibRowIndex

noncomputable section

namespace Cert.ReferenceIdeal.RefValue

open Cert.ReferenceIdeal Cert.ReferenceIdeal.Gen Idealize.ShloMosaic Idealize.ShloMosaic.ValueIdx Idealize.ShloMosaic.StableHlo Cert.GNN

open Cert.GNN.RowIndex

/-- A word whose signed value is a natural number is not below zero. -/
theorem slt_zero_of_toInt_nat (x : BitVec 32) (v : Nat) (h : x.toInt = (v : Int)) : IntOp.cmpi .slt x 0#32 = 0#1 := by
  have h0 : x.slt 0#32 = false := by
    show decide (x.toInt < (0#32 : BitVec 32).toInt) = false
    rw [h, BitVec.toInt_zero]
    exact decide_eq_false (by omega)
  show BitVec.ofBool (x.slt 0#32) = 0#1
  rw [h0]; rfl

/-- A column of index words. -/
def colIdx (x : IVec S500000 32) : IVec S500000x1 32 :=
  broadcastInDim S500000x1 ![0] bcast_S500000_S500000x1_0 x
theorem colIdx_apply (x : IVec S500000 32) (e : Fin 500000) : colIdx x (ix2 e (0 : Fin 1)) = x (ix1 e) := by
  unfold colIdx
  exact broadcastInDim_apply _ bcast_S500000_S500000x1_0 x (ix2 e (0 : Fin 1)) (ix1 e) (fun a => match a with
    | ⟨0, _⟩ => by show e.val = if (500000 : Nat) = 1 then 0 else e.val; rw [if_neg (by decide)])

/-- The index words with negative ones moved up by the number of nodes. -/
def wrapIdx (x : IVec S500000 32) : IVec S500000 32 :=
  select (cmpi .slt x (broadcastInDim S500000 ![] bcast_S_S500000 (constantI S_ 32 0#32)))
    (addi x (broadcastInDim S500000 ![] bcast_S_S500000 (constantI S_ 32 50000#32))) x
theorem wrapIdx_apply (x : IVec S500000 32) (e : Fin 500000) (v : Nat) (h : (x (ix1 e)).toInt = (v : Int)) :
    wrapIdx x (ix1 e) = x (ix1 e) := by
  unfold wrapIdx
  rw [select_apply]
  have hc : cmpi .slt x (broadcastInDim S500000 ![] bcast_S_S500000 (constantI S_ 32 0#32)) (ix1 e) = 0#1 := by
    show IntOp.cmpi .slt (x (ix1 e)) (broadcastInDim S500000 ![] bcast_S_S500000 (constantI S_ 32 0#32) (ix1 e)) = 0#1
    rw [broadcastInDim_apply _ bcast_S_S500000 (constantI S_ 32 0#32) (ix1 e) (fun a => a.elim0) (fun a => a.elim0)]
    exact slt_zero_of_toInt_nat _ v h
  rw [hc, select_zero]

/-- The rows of the node array at the (wrapped, clamped) index words. -/
def gatherStage (x0 : FVec Ideal S50000x128 .f32) (x : IVec S500000 32) : FVec Ideal S500000x128 .f32 :=
  Host.gather gather_S50000x128_S500000x1_S500000x128_1_0_n_n_0_1_1128 x0 (colIdx (wrapIdx x))
theorem gatherStage_row (x0 : FVec Ideal S50000x128 .f32) (x : IVec S500000 32) (f : Fin 500000 → Fin 50000)
    (hf : ∀ e : Fin 500000, (x (ix1 e)).toInt = ((f e).val : Int)) (e : Fin 500000) :
    row (gatherStage x0 x) e = row x0 (f e) := by
  funext k
  unfold row gatherStage
  refine gather_row_apply_of_eq _ x0 (colIdx (wrapIdx x)) e k (f e) ?_
  rw [colIdx_apply, wrapIdx_apply x e (f e).val (hf e)]
  exact hf e

/-- Edge rows summed into zeros at the node their index word names. -/
def scatStage (x : IVec S500000 32) (upd : FVec Ideal S500000x128 .f32) : FVec Ideal S50000x128 .f32 :=
  Host.scatterAdd scatter_S50000x128_S500000x1_S500000x128_1_0_0_1 (spreadN 0x00000000#32) (colIdx x) upd
theorem scatStage_apply (x : IVec S500000 32) (f : Fin 500000 → Fin 50000)
    (hf : ∀ e : Fin 500000, (x (ix1 e)).toInt = ((f e).val : Int)) (upd : FVec Ideal S500000x128 .f32)
    (n : Fin 50000) (d : Fin 128) :
    scatStage x upd (ix2 n d) = zeroF + ∑ e ∈ Finset.univ.filter (fun e : Fin 500000 => f e = n), upd (ix2 e d) := by
  unfold scatStage
  refine (host_scatterAdd_row_apply _ (spreadN 0x00000000#32) (colIdx x) upd n d).trans ?_
  rw [spreadN_apply]
  have hfilt : (Finset.univ.filter (fun e : Fin 500000 => (colIdx x (ix2 e (0 : Fin 1))).toInt = (n.val : Int)))
      = Finset.univ.filter (fun e : Fin 500000 => f e = n) := by
    refine Finset.filter_congr (fun e _ => ?_)
    rw [colIdx_apply, hf e]
    constructor
    · intro h; exact Fin.ext (by omega)
    · intro h; rw [h]
  rw [hfilt]; rfl

/-- Both directions of messages, each summed at its receiving node, added. -/
def aggStage (x0 : FVec Ideal S50000x128 .f32) (x1 : FVec Ideal S500000x128 .f32) (x2 x3 : IVec S500000 32)
    (W1 : FVec Ideal S384x128 .f32) (b1 : FVec Ideal S128 .f32) (W2 : FVec Ideal S128x128 .f32) (b2 : FVec Ideal S128 .f32)
    (W3 : FVec Ideal S128x128 .f32) (b3 : FVec Ideal S128 .f32) : FVec Ideal S50000x128 .f32 :=
  addf (scatStage x3 (mlpStage (gatherStage x0 x2) (gatherStage x0 x3) x1 W1 b1 W2 b2 W3 b3))
    (scatStage x2 (mlpStage (gatherStage x0 x3) (gatherStage x0 x2) x1 W1 b1 W2 b2 W3 b3))

theorem aggStage_apply (x0 : FVec Ideal S50000x128 .f32) (x1 : FVec Ideal S500000x128 .f32) (x2 x3 : IVec S500000 32)
    (W1 : FVec Ideal S384x128 .f32) (b1 : FVec Ideal S128 .f32) (W2 : FVec Ideal S128x128 .f32) (b2 : FVec Ideal S128 .f32)
    (W3 : FVec Ideal S128x128 .f32) (b3 : FVec Ideal S128 .f32) (fi ti : Fin 500000 → Fin 50000)
    (hfi : ∀ e : Fin 500000, (x2 (ix1 e)).toInt = ((fi e).val : Int))
    (hti : ∀ e : Fin 500000, (x3 (ix1 e)).toInt = ((ti e).val : Int)) (n : Fin 50000) (d : Fin 128) :
    aggStage x0 x1 x2 x3 W1 b1 W2 b2 W3 b3 (ix2 n d) = agg x0 x1 fi ti W1 b1 W2 b2 W3 b3 n d := by
  unfold aggStage agg
  rw [addf_apply, scatStage_apply x3 ti hti, scatStage_apply x2 fi hfi]
  have e1 : ∀ e : Fin 500000, mlpStage (gatherStage x0 x2) (gatherStage x0 x3) x1 W1 b1 W2 b2 W3 b3 (ix2 e d)
      = mlp W1 b1 W2 b2 W3 b3 (row x0 (fi e)) (row x0 (ti e)) (row x1 e) d := fun e => by
    rw [mlpStage_apply, gatherStage_row x0 x2 fi hfi e, gatherStage_row x0 x3 ti hti e]
  have e2 : ∀ e : Fin 500000, mlpStage (gatherStage x0 x3) (gatherStage x0 x2) x1 W1 b1 W2 b2 W3 b3 (ix2 e d)
      = mlp W1 b1 W2 b2 W3 b3 (row x0 (ti e)) (row x0 (fi e)) (row x1 e) d := fun e => by
    rw [mlpStage_apply, gatherStage_row x0 x3 ti hti e, gatherStage_row x0 x2 fi hfi e]
  rw [Finset.sum_congr rfl (fun e _ => e1 e), Finset.sum_congr rfl (fun e _ => e2 e)]

end Cert.ReferenceIdeal.RefValue

end
-- ==== Proof.RefGru.lean ====
/-
  One gated recurrent cell of the reference read at an index.  The gate pre-activations are an affine layer with 384
  outputs; the three gates read its three blocks of 128 columns; the logistic function is spelt with the float word of
  1.0; the cell at (n, j) is the spec's gru of row n of the input and row n of the state.
-/
import proofs.«110696_j72730976190873_2_alg».proof.Proof.RefOps

noncomputable section

namespace Cert.ReferenceIdeal.RefValue

open Cert.ReferenceIdeal Cert.ReferenceIdeal.Gen Idealize.ShloMosaic Idealize.ShloMosaic.ValueIdx Idealize.ShloMosaic.StableHlo Cert.GNN

/-- The gate pre-activations of every row: an affine layer with 384 outputs. -/
def giStage (x : FVec Ideal S50000x128 .f32) (W : FVec Ideal S128x384 .f32) (b : FVec Ideal S384 .f32) :
    FVec Ideal S50000x384 .f32 :=
  addf (Host.dotGeneral dot_S50000x128_S128x384_S50000x384_1_0_0_1_n_n none x W) (biasN b)
theorem giStage_apply (x : FVec Ideal S50000x128 .f32) (W : FVec Ideal S128x384 .f32) (b : FVec Ideal S384 .f32)
    (n : Fin 50000) (c : Fin 384) : giStage x W b (ix2 n c) = dense W b (row x n) c := by
  unfold giStage
  rw [addf_apply, dotN_apply, biasN_apply]; rfl

/-- The block of 128 columns starting at column 0. -/
def sl0 (y : FVec Ideal S50000x384 .f32) : FVec Ideal S50000x128 .f32 :=
  extractStridedSlice S50000x128 ![0, 0] y slices_S50000x384_S50000x128_0_0
theorem sl0_apply (y : FVec Ideal S50000x384 .f32) (n : Fin 50000) (j : Fin 128) :
    sl0 y (ix2 n j) = y (ix2 n (⟨j.val, by omega⟩ : Fin 384)) := by
  unfold sl0
  exact extractStridedSlice_apply ![0, 0] y slices_S50000x384_S50000x128_0_0 (ix2 n j)
    (ix2 n (⟨j.val, by omega⟩ : Fin 384)) (fun a => match a with
      | ⟨0, _⟩ => by show n.val = 0 + n.val; omega
      | ⟨1, _⟩ => by show j.val = 0 + j.val; omega)

/-- The block of 128 columns starting at column 128. -/
def sl128 (y : FVec Ideal S50000x384 .f32) : FVec Ideal S50000x128 .f32 :=
  extractStridedSlice S50000x128 ![0, 128] y slices_S50000x384_S50000x128_0_128
theorem sl128_apply (y : FVec Ideal S50000x384 .f32) (n : Fin 50000) (j : Fin 128) :
    sl128 y (ix2 n j) = y (ix2 n (⟨128 + j.val, by omega⟩ : Fin 384)) := by
  unfold sl128
  exact extractStridedSlice_apply ![0, 128] y slices_S50000x384_S50000x128_0_128 (ix2 n j)
    (ix2 n (⟨128 + j.val, by omega⟩ : Fin 384)) (fun a => match a with
      | ⟨0, _⟩ => by show n.val = 0 + n.val; omega
      | ⟨1, _⟩ => by show 128 + j.val = 128 + j.val; omega)

/-- The block of 128 columns starting at column 256. -/
def sl256 (y : FVec Ideal S50000x384 .f32) : FVec Ideal S50000x128 .f32 :=
  extractStridedSlice S50000x128 ![0, 256] y slices_S50000x384_S50000x128_0_256
theorem sl256_apply (y : FVec Ideal S50000x384 .f32) (n : Fin 50000) (j : Fin 128) :
    sl256 y (ix2 n j) = y (ix2 n (⟨256 + j.val, by omega⟩ : Fin 384)) := by
  unfold sl256
  exact extractStridedSlice_apply ![0, 256] y slices_S50000x384_S50000x128_0_256 (ix2 n j)
    (ix2 n (⟨256 + j.val, by omega⟩ : Fin 384)) (fun a => match a with
      | ⟨0, _⟩ => by show n.val = 0 + n.val; omega
      | ⟨1, _⟩ => by show 256 + j.val = 256 + j.val; omega)

/-- The logistic function as the program spells it: 1.0 / (1.0 + exp (−y)). -/
def sigStage (y : FVec Ideal S50000x128 .f32) : FVec Ideal S50000x128 .f32 :=
  Host.divf (spreadN 0x3F800000#32) (addf (spreadN 0x3F800000#32) (Host.exp (Host.negf y)))
theorem sigStage_apply (y : FVec Ideal S50000x128 .f32) (i : S50000x128.Idx) : sigStage y i = Ideal.logistic (y i) := by
  unfold sigStage
  show Ideal.div (spreadN 0x3F800000#32 i) (spreadN 0x3F800000#32 i + Ideal.exp (-(y i))) = Ideal.logistic (y i)
  rw [spreadN_apply]
  exact logistic_words (y i)

theorem tanhN_apply (y : FVec Ideal S50000x128 .f32) (i : S50000x128.Idx) : Host.tanh y i = Ideal.tanh (y i) := rfl

/-- One cell on all rows: gates r, z, candidate n, new state (1 − z) · n + z · h. -/
def gruStage (x h : FVec Ideal S50000x128 .f32) (W U : FVec Ideal S128x384 .f32) (b c : FVec Ideal S384 .f32) :
    FVec Ideal S50000x128 .f32 :=
  addf
    (mulf (subf (spreadN 0x3F800000#32) (sigStage (addf (sl128 (giStage x W b)) (sl128 (giStage h U c)))))
      (Host.tanh (addf (sl256 (giStage x W b))
        (mulf (sigStage (addf (sl0 (giStage x W b)) (sl0 (giStage h U c)))) (sl256 (giStage h U c))))))
    (mulf (sigStage (addf (sl128 (giStage x W b)) (sl128 (giStage h U c)))) h)

theorem gruStage_apply (x h : FVec Ideal S50000x128 .f32) (W U : FVec Ideal S128x384 .f32) (b c : FVec Ideal S384 .f32)
    (n : Fin 50000) (j : Fin 128) :
    gruStage x h W U b c (ix2 n j) = gru W U b c (row x n) (row h n) j := by
  unfold gruStage gru
  simp only [addf_apply, mulf_apply, subf_apply, spreadN_apply, sigStage_apply, tanhN_apply, sl0_apply, sl128_apply,
    sl256_apply, giStage_apply]
  rfl

end Cert.ReferenceIdeal.RefValue

end
-- ==== Proof.RefValue.lean ====
/-
  The reference's value.  Its operations, one definition each in the imported generated module, are grouped into
  the stages read at an index earlier: row gathers, the message stage, scatter-adds, three recurrent cells.  Read at
  (n, j) the composition is the spec's out; the run of the reference therefore ends with out of its arguments.
-/
import proofs.«110696_j72730976190873_2_alg».proof.Proof.RefAgg
import proofs.«110696_j72730976190873_2_alg».proof.Proof.RefGru
import proofs.«110696_j72730976190873_2_alg».proof.Proof.RunP

noncomputable section

namespace Cert.ReferenceIdeal.RefValue

open Cert.ReferenceIdeal Cert.ReferenceIdeal.Gen Idealize.ShloMosaic Idealize.ShloMosaic.ValueIdx Idealize.ShloMosaic.StableHlo Cert.GNN

open Cert.ReferenceIdeal.ReadP Idealize.ShloMosaic.TcCoe Idealize.SL.Sem

section Stages

variable (a0 : FVec Ideal S50000x128 .f32) (a1 : FVec Ideal S500000x128 .f32) (a2 a3 : IVec S500000 32)
  (a5 : FVec Ideal S384x128 .f32) (a6 : FVec Ideal S128 .f32) (a7 : FVec Ideal S128x128 .f32) (a8 : FVec Ideal S128 .f32)
  (a9 : FVec Ideal S128x128 .f32) (a10 : FVec Ideal S128 .f32)
  (a11 a12 : FVec Ideal S128x384 .f32) (a13 a14 : FVec Ideal S384 .f32)
  (a15 a16 : FVec Ideal S128x384 .f32) (a17 a18 : FVec Ideal S384 .f32)
  (a19 a20 : FVec Ideal S128x384 .f32) (a21 a22 : FVec Ideal S384 .f32)

/-! ### The operations grouped into stages (each side unfolds to the same operations on the same operands) -/

theorem v6_eq : (val_main_v6 (F := Ideal) a0 a2) = gatherStage a0 a2 := rfl
theorem v13_eq : (val_main_v13 (F := Ideal) a0 a3) = gatherStage a0 a3 := rfl
theorem v38_eq : (val_main_v38 (F := Ideal) a0 a3) = gatherStage a0 a3 := rfl
theorem v45_eq : (val_main_v45 (F := Ideal) a0 a2) = gatherStage a0 a2 := rfl
theorem v28_eq : (val_main_v28 (F := Ideal) a0 a1 a2 a3 a5 a6 a7 a8 a9 a10) = mlpStage (val_main_v6 (F := Ideal) a0 a2) (val_main_v13 (F := Ideal) a0 a3) a1 a5 a6 a7 a8 a9 a10 := rfl
theorem v60_eq : (val_main_v60 (F := Ideal) a0 a1 a2 a3 a5 a6 a7 a8 a9 a10) = mlpStage (val_main_v38 (F := Ideal) a0 a3) (val_main_v45 (F := Ideal) a0 a2) a1 a5 a6 a7 a8 a9 a10 := rfl
theorem v31_eq : (val_main_v31 (F := Ideal) a0 a1 a2 a3 a5 a6 a7 a8 a9 a10) = scatStage a3 (val_main_v28 (F := Ideal) a0 a1 a2 a3 a5 a6 a7 a8 a9 a10) := rfl
theorem v63_eq : (val_main_v63 (F := Ideal) a0 a1 a2 a3 a5 a6 a7 a8 a9 a10) = scatStage a2 (val_main_v60 (F := Ideal) a0 a1 a2 a3 a5 a6 a7 a8 a9 a10) := rfl
theorem v64_eq : (val_main_v64 (F := Ideal) a0 a1 a2 a3 a5 a6 a7 a8 a9 a10) = aggStage a0 a1 a2 a3 a5 a6 a7 a8 a9 a10 := by
  unfold val_main_v64
  rw [v31_eq, v63_eq, v28_eq, v60_eq, v6_eq, v13_eq, v38_eq, v45_eq]
  rfl
theorem v100_eq : (val_main_v100 (F := Ideal) a0 a1 a2 a3 a5 a6 a7 a8 a9 a10 a11 a12 a13 a14) = gruStage a0 (val_main_v64 (F := Ideal) a0 a1 a2 a3 a5 a6 a7 a8 a9 a10) a11 a12 a13 a14 := rfl
theorem v136_eq : (val_main_v136 (F := Ideal) a0 a1 a2 a3 a5 a6 a7 a8 a9 a10 a11 a12 a13 a14 a15 a16 a17 a18) = gruStage (val_main_v64 (F := Ideal) a0 a1 a2 a3 a5 a6 a7 a8 a9 a10) (val_main_v100 (F := Ideal) a0 a1 a2 a3 a5 a6 a7 a8 a9 a10 a11 a12 a13 a14) a15 a16 a17 a18 := rfl
theorem v172_eq : (val_main_v172 (F := Ideal) a0 a1 a2 a3 a5 a6 a7 a8 a9 a10 a11 a12 a13 a14 a15 a16 a17 a18 a19 a20 a21 a22) = gruStage (val_main_v100 (F := Ideal) a0 a1 a2 a3 a5 a6 a7 a8 a9 a10 a11 a12 a13 a14) (val_main_v136 (F := Ideal) a0 a1 a2 a3 a5 a6 a7 a8 a9 a10 a11 a12 a13 a14 a15 a16 a17 a18) a19 a20 a21 a22 := rfl

/-! ### The stages read at (n, j) -/

variable (fi ti : Fin 500000 → Fin 50000)
  (hfi : ∀ e : Fin 500000, (a2 (ix1 e)).toInt = ((fi e).val : Int))
  (hti : ∀ e : Fin 500000, (a3 (ix1 e)).toInt = ((ti e).val : Int))

include hfi hti in
theorem rowA (n : Fin 50000) : row (aggStage a0 a1 a2 a3 a5 a6 a7 a8 a9 a10) n = agg a0 a1 fi ti a5 a6 a7 a8 a9 a10 n :=
  funext fun d => aggStage_apply a0 a1 a2 a3 a5 a6 a7 a8 a9 a10 fi ti hfi hti n d

include hfi hti in
theorem rowH1 (n : Fin 50000) : row (gruStage a0 (aggStage a0 a1 a2 a3 a5 a6 a7 a8 a9 a10) a11 a12 a13 a14) n = (gru a11 a12 a13 a14 (row a0 n) (agg a0 a1 fi ti a5 a6 a7 a8 a9 a10 n)) := by
  funext j
  refine (gruStage_apply a0 (aggStage a0 a1 a2 a3 a5 a6 a7 a8 a9 a10) a11 a12 a13 a14 n j).trans ?_
  rw [rowA a0 a1 a2 a3 a5 a6 a7 a8 a9 a10 fi ti hfi hti n]

include hfi hti in
theorem rowH2 (n : Fin 50000) : row (gruStage (aggStage a0 a1 a2 a3 a5 a6 a7 a8 a9 a10) (gruStage a0 (aggStage a0 a1 a2 a3 a5 a6 a7 a8 a9 a10) a11 a12 a13 a14) a15 a16 a17 a18) n = (gru a15 a16 a17 a18 (agg a0 a1 fi ti a5 a6 a7 a8 a9 a10 n) (gru a11 a12 a13 a14 (row a0 n) (agg a0 a1 fi ti a5 a6 a7 a8 a9 a10 n))) := by
  funext j
  refine (gruStage_apply (aggStage a0 a1 a2 a3 a5 a6 a7 a8 a9 a10) (gruStage a0 (aggStage a0 a1 a2 a3 a5 a6 a7 a8 a9 a10) a11 a12 a13 a14) a15 a16 a17 a18 n j).trans ?_
  rw [rowA a0 a1 a2 a3 a5 a6 a7 a8 a9 a10 fi ti hfi hti n, rowH1 a0 a1 a2 a3 a5 a6 a7 a8 a9 a10 a11 a12 a13 a14 fi ti hfi hti n]

include hfi hti in
/-- The reference's result, as a function of its argument arrays, is the spec's out. -/
theorem result_eq : val_main_v172 (F := Ideal) a0 a1 a2 a3 a5 a6 a7 a8 a9 a10 a11 a12 a13 a14 a15 a16 a17 a18 a19 a20 a21 a22 = Cert.GNN.out a0 a1 fi ti a5 a6 a7 a8 a9 a10 a11 a12 a13 a14 a15 a16 a17 a18 a19 a20 a21 a22 := by
  rw [v172_eq, v136_eq, v100_eq, v64_eq]
  funext i
  obtain ⟨n, j, rfl⟩ : ∃ (n : Fin 50000) (j : Fin 128), i = ix2 n j := ⟨i 0, i 1, eq_ix2 i⟩
  refine (gruStage_apply (gruStage a0 (aggStage a0 a1 a2 a3 a5 a6 a7 a8 a9 a10) a11 a12 a13 a14) (gruStage (aggStage a0 a1 a2 a3 a5 a6 a7 a8 a9 a10) (gruStage a0 (aggStage a0 a1 a2 a3 a5 a6 a7 a8 a9 a10) a11 a12 a13 a14) a15 a16 a17 a18) a19 a20 a21 a22 n j).trans ?_
  rw [rowH1 a0 a1 a2 a3 a5 a6 a7 a8 a9 a10 a11 a12 a13 a14 fi ti hfi hti n,
    rowH2 a0 a1 a2 a3 a5 a6 a7 a8 a9 a10 a11 a12 a13 a14 a15 a16 a17 a18 fi ti hfi hti n]
  rfl

end Stages

/-- Every weakly fair execution of the reference ends with its result at the spec's out of the argument arrays, and
    the arguments unchanged. -/
theorem run_out (m : (ℓ : Loc nD τ sig) → Buf (Elt Ideal) ℓ) (ρ : Dev nD → PrngReg) (fi ti : Dev nD → Fin 500000 → Fin 50000)
    (hfi : ∀ (c : Dev nD) (e : Fin 500000),
      ((m ((c.tc : Thread nD τ).loc main_arg2) : IVec S500000 32) (ix1 e)).toInt = ((fi c e).val : Int))
    (hti : ∀ (c : Dev nD) (e : Fin 500000),
      ((m ((c.tc : Thread nD τ).loc main_arg3) : IVec S500000 32) (ix1 e)).toInt = ((ti c e).val : Int)) :
    θ_run (defs (F := Ideal)) (onTc (τ := τ) (main (F := Ideal))) ⟨m, fun _ => 0, ρ⟩ (fun r => ∀ c : Dev nD,
      r.2.mem ((c.tc : Thread nD τ).loc main_v172)
        = Cert.GNN.out (m ((c.tc : Thread nD τ).loc main_arg0)) (m ((c.tc : Thread nD τ).loc main_arg1)) (fi c) (ti c) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (defs (F := Ideal)) _ _).mono (fun r h c =>
    ⟨(h c).1.trans (by
        unfold Cert.ReferenceIdeal.ValueP.res_main_v172
        exact result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (fi c) (ti c) (hfi c) (hti c)),
      (h c).2⟩)
    (Cert.ReferenceIdeal.ValueP.run (F := Ideal) m ρ)

end Cert.ReferenceIdeal.RefValue

end
-- ==== Proof.lean ====
/-
  The certificate of the graph message-passing layer: the kernel's program (two pallas_calls — the edge messages, then
  the node update — among host operations that pad, gather and aggregate) against the plain reference.

  Under the precondition every edge's two node numbers lie in [0, 50000), so both programs read the same node rows.
  At the ideal instance both results are one function of the argument arrays (module Spec): per node, three gated
  recurrent cells applied to the node's row and to the sum of its edges' messages, a message being a three-layer
  perceptron of (source row, target row, feature row).  The kernel computes the first layer block by block and adds
  the three partial products, pads the edge list to a multiple of its block with edges at an extra zero row whose
  contributions land in a row that is cut off, and adds both directions' messages in one pass; the reference
  concatenates, multiplies once and adds the two directions' sums.  Sums of extended reals regroup freely, so the two
  agree without any appeal to finiteness beyond the index ranges.
-/
import proofs.«110696_j72730976190873_2_alg».proof.Defs
import proofs.«110696_j72730976190873_2_alg».proof.Proof.Gen.Kernel
import proofs.«110696_j72730976190873_2_alg».proof.Proof.Gen.Kernel.Frame
import proofs.«110696_j72730976190873_2_alg».proof.Proof.Gen.KernelIdeal
import proofs.«110696_j72730976190873_2_alg».proof.Proof.Gen.KernelIdeal.Frame
import proofs.«110696_j72730976190873_2_alg».proof.Proof.Gen.ReferenceIdeal
import proofs.«110696_j72730976190873_2_alg».proof.Proof.Gen.Pre_finite_inputs
import proofs.«110696_j72730976190873_2_alg».proof.Proof.KernelRun
import proofs.«110696_j72730976190873_2_alg».proof.Proof.KernelFinal
import proofs.«110696_j72730976190873_2_alg».proof.Proof.PreIndex
import proofs.«110696_j72730976190873_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The kernel's result array is the specification's function of the arguments, at every device. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (fi ti : Dev Cert.KernelIdeal.nD → Fin 500000 → Fin 50000)
    (hfi : ∀ e : Fin 500000, (((m ((c.tc : Thread Cert.KernelIdeal.nD Cert.KernelIdeal.τ).loc Cert.KernelIdeal.main_arg2)) : IVec Cert.KernelIdeal.S500000 32) (ix1 e)).toInt = ((fi c e).val : Int))
    (hti : ∀ e : Fin 500000, (((m ((c.tc : Thread Cert.KernelIdeal.nD Cert.KernelIdeal.τ).loc Cert.KernelIdeal.main_arg3)) : IVec Cert.KernelIdeal.S500000 32) (ix1 e)).toInt = ((ti c e).val : Int)) :
    Cert.KernelIdeal.Gen.W10 (F := Ideal) m ρ c (Proc.devRef .tc Cert.KernelIdeal.main_v27) = Cert.GNN.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (fi c) (ti c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) :=
  Cert.KernelIdeal.Host.kernel_value m ρ c (fi c) (ti c) hfi hti

/-- Both idealized programs end with the specification's function of the (agreeing) arguments. -/
theorem algebraic : Cert.algebraic_KernelIdeal_ReferenceIdeal := by
  intro m ρ m' ρ' hpre hagree
  choose fi ti hfi hti using fun c => Cert.GNN.index_maps (hpre c)
  refine ⟨fun c => Cert.GNN.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (fi c) (ti c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (kernel_value m ρ c fi ti (hfi c) (hti c)), (h c).2⟩)
      (Cert.KernelIdeal.Run.run_named (F := Ideal) m ρ)
  · have hfi' : ∀ (c : Dev Cert.ReferenceIdeal.nD) (e : Fin 500000),
        ((m' ((c.tc : Thread Cert.ReferenceIdeal.nD Cert.ReferenceIdeal.τ).loc Cert.ReferenceIdeal.main_arg2) : IVec Cert.ReferenceIdeal.S500000 32) (ix1 e)).toInt = ((fi c e).val : Int) :=
      fun c e => by rw [(hagree c).2.2.1]; exact hfi c e
    have hti' : ∀ (c : Dev Cert.ReferenceIdeal.nD) (e : Fin 500000),
        ((m' ((c.tc : Thread Cert.ReferenceIdeal.nD Cert.ReferenceIdeal.τ).loc Cert.ReferenceIdeal.main_arg3) : IVec Cert.ReferenceIdeal.S500000 32) (ix1 e)).toInt = ((ti c e).val : Int) :=
      fun c e => by rw [(hagree c).2.2.2.1]; exact hti c e
    refine (θ_run Cert.ReferenceIdeal.defs _ _).mono (fun r h c => ⟨(h c).1.trans ?_, (h c).2⟩)
      (Cert.ReferenceIdeal.RefValue.run_out m' ρ' fi ti hfi' hti')
    obtain ⟨h0, h1, h2, h3, h4, h5, h6, h7, h8, h9, h10, h11, h12, h13, h14, h15, h16, h17, h18, h19, h20, h21, h22⟩ := hagree c
    rw [h0, h1, h5, h6, h7, h8, h9, h10, h11, h12, h13, h14, h15, h16, h17, h18, h19, h20, h21, h22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
